-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x64 .f32) (main_arg13 : FVec F S64 .f32) (main_arg14 : FVec F S64x1 .f32) (main_arg15 : FVec F S1 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x2 .f32) (main_arg11 : FVec F S2 .f32) (main_arg12 : FVec F S128x64 .f32) (main_arg13 : FVec F S64 .f32) (main_arg14 : FVec F S64x1 .f32) (main_arg15 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg10
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x2 .f32) (main_arg11 : FVec F S2 .f32) (main_arg12 : FVec F S128x64 .f32) (main_arg13 : FVec F S64 .f32) (main_arg14 : FVec F S64x1 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x2 .f32) (main_arg11 : FVec F S2 .f32) (main_arg12 : FVec F S128x64 .f32) (main_arg13 : FVec F S64 .f32) (main_arg14 : FVec F S64x1 .f32) (main_arg15 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x2 : Shape := ⟨2, ![100000, 2]⟩
abbrev S100000x1 : Shape := ⟨2, ![100000, 1]⟩
abbrev S10000x2 : Shape := ⟨2, ![10000, 2]⟩
abbrev S10000x1 : Shape := ⟨2, ![10000, 1]⟩
abbrev S1x2 : Shape := ⟨2, ![1, 2]⟩
abbrev S10000x64 : Shape := ⟨2, ![10000, 64]⟩
abbrev S1x64 : Shape := ⟨2, ![1, 64]⟩
abbrev S1x1 : Shape := ⟨2, ![1, 1]⟩
abbrev S100000x3 : Shape := ⟨2, ![100000, 3]⟩

abbrev nBuf : Space → Nat
  | .hbm => 111
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x2, .f32⟩
  | .hbm, ⟨11, _⟩ => ⟨S2, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S100000, .i32⟩
  | .hbm, ⟨21, _⟩ => ⟨S1700000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S100000x128, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x128, .f32⟩
  | .hbm, ⟨100, _⟩ => ⟨S1700000x1, .f32⟩
  | .hbm, ⟨101, _⟩ => ⟨S1700000x128, .f32⟩
  | .hbm, ⟨102, _⟩ => ⟨S1700000x128, .f32⟩
  | .hbm, ⟨103, _⟩ => ⟨S_, .f32⟩
  | .hbm, ⟨104, _⟩ => ⟨S100000x128, .f32⟩
  | .hbm, ⟨105, _⟩ => ⟨S1700000x1, .i32⟩
  | .hbm, ⟨106, _⟩ => ⟨S100000x128, .f32⟩
  | .hbm, ⟨107, _⟩ => ⟨S100000x128, .f32⟩
  | .hbm, ⟨108, _⟩ => ⟨S100000x2, .f32⟩
  | .hbm, ⟨109, _⟩ => ⟨S100000x1, .f32⟩
  | .hbm, ⟨110, _⟩ => ⟨S100000x3, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S128x128, .f32⟩
  | .local _ .vmem, ⟨25, _⟩ => ⟨S128, .f32⟩
  | .local _ .vmem, ⟨26, _⟩ => ⟨S128x2, .f32⟩
  | .local _ .vmem, ⟨27, _⟩ => ⟨S2, .f32⟩
  | .local _ .vmem, ⟨28, _⟩ => ⟨S128x64, .f32⟩
  | .local _ .vmem, ⟨29, _⟩ => ⟨S64, .f32⟩
  | .local _ .vmem, ⟨30, _⟩ => ⟨S64x1, .f32⟩
  | .local _ .vmem, ⟨31, _⟩ => ⟨S1, .f32⟩
  | .local _ .vmem, ⟨32, _⟩ => ⟨S10000x2, .f32⟩
  | .local _ .vmem, ⟨33, _⟩ => ⟨S10000x2, .f32⟩
  | .local _ .vmem, ⟨34, _⟩ => ⟨S10000x1, .f32⟩
  | .local _ .vmem, ⟨35, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_9 : Ref sig .tc := ⟨.hbm, 74, rfl⟩
abbrev main_v45 : Ref sig .tc := ⟨.hbm, 75, rfl⟩
abbrev main_v46 : Ref sig .tc := ⟨.hbm, 76, rfl⟩
abbrev main_c_10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_c_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73_0 : Ref sig .tc := ⟨.hbm, 108, rfl⟩
abbrev main_v73_1 : Ref sig .tc := ⟨.hbm, 109, rfl⟩
abbrev main_v74 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg6_0 : Ref sig .tc := ⟨.vmem, 29, rfl⟩
abbrev cc4_stg7_0 : Ref sig .tc := ⟨.vmem, 30, rfl⟩
abbrev cc4_stg8_0 : Ref sig .tc := ⟨.vmem, 31, rfl⟩
abbrev cc4_stg9_0 : Ref sig .tc := ⟨.vmem, 32, rfl⟩
abbrev cc4_stg9_1 : Ref sig .tc := ⟨.vmem, 33, rfl⟩
abbrev cc4_stg10_0 : Ref sig .tc := ⟨.vmem, 34, rfl⟩
abbrev cc4_stg10_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28
abbrev cc4_sem6_0 : DmaSem sig := 29
abbrev cc4_sem7_0 : DmaSem sig := 30
abbrev cc4_sem8_0 : DmaSem sig := 31
abbrev cc4_sem9_0 : DmaSem sig := 32
abbrev cc4_sem9_1 : DmaSem sig := 33
abbrev cc4_sem10_0 : DmaSem sig := 34
abbrev cc4_sem10_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S10000x2 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S10000x1 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  concatenates_S100000x2_S100000x1_S100000x3_d1 : Shape.Concatenates [S100000x2, S100000x1] S100000x3 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x2_S10000x2_1_0_0_1_n_n_wf : DotDims.WF S10000x128 S128x2 S10000x2 [1] [0] [0] [1] [] []
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x2.size a ≤ S128x2.size a
  hwx4_3 : ∀ i : grid4.Coords, EltTy.bits .f32 = 32 ∨ (Rect.block (s := S128x2) S128x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2.size a ≤ S2.size a
  hwx4_4 : ∀ i : grid4.Coords, EltTy.bits .f32 = 32 ∨ (Rect.block (s := S2) S2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x1.size a ≤ S64x1.size a
  hwx4_7 : ∀ i : grid4.Coords, EltTy.bits .f32 = 32 ∨ (Rect.block (s := S64x1) S64x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1.size a ≤ S1.size a
  hwx4_8 : ∀ i : grid4.Coords, EltTy.bits .f32 = 32 ∨ (Rect.block (s := S1) S1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S10000x2.size a ≤ S100000x2.size a
  hwx4_9 : ∀ i : grid4.Coords, EltTy.bits .f32 = 32 ∨ (Rect.block (s := S100000x2) S10000x2.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S10000x1.size a ≤ S100000x1.size a
  hwx4_10 : ∀ i : grid4.Coords, EltTy.bits .f32 = 32 ∨ (Rect.block (s := S100000x1) S10000x1.size (cc4_transform_10 i) (hinb4_10 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v72) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg13) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg14) S64x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg15) S1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v73_0) S10000x2.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v73_1) S10000x1.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1x2 : Shape := ⟨2, ![1, 2]⟩
abbrev S100000x64 : Shape := ⟨2, ![100000, 64]⟩
abbrev S1x64 : Shape := ⟨2, ![1, 64]⟩
abbrev S100000x1 : Shape := ⟨2, ![100000, 1]⟩
abbrev S1x1 : Shape := ⟨2, ![1, 1]⟩
abbrev S100000x3 : Shape := ⟨2, ![100000, 3]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x2, .f32⟩
  | 11 => ⟨S2, .f32⟩
  | 12 => ⟨S128x64, .f32⟩
  | 13 => ⟨S64, .f32⟩
  | 14 => ⟨S64x1, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S100000, .i32⟩
  | 21 => ⟨S1700000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x128, .f32⟩
  | 89 => ⟨S1700000x1, .f32⟩
  | 90 => ⟨S1700000x128, .f32⟩
  | 91 => ⟨S1700000x128, .f32⟩
  | 92 => ⟨S_, .f32⟩
  | 93 => ⟨S100000x128, .f32⟩
  | 94 => ⟨S1700000x1, .i32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x128, .f32⟩
  | 112 => ⟨S1700000x1, .f32⟩
  | 113 => ⟨S1700000x128, .f32⟩
  | 114 => ⟨S1700000x128, .f32⟩
  | 115 => ⟨S_, .f32⟩
  | 116 => ⟨S100000x128, .f32⟩
  | 117 => ⟨S1700000x1, .i32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x2, .f32⟩
  | 5 => ⟨S1x2, .f32⟩
  | 6 => ⟨S100000x2, .f32⟩
  | 7 => ⟨S100000x2, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000x1, .f32⟩
  | 16 => ⟨S1x1, .f32⟩
  | 17 => ⟨S100000x1, .f32⟩
  | 18 => ⟨S100000x1, .f32⟩
  | 19 => ⟨S100000x3, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call1_cst : Ref sig .tc := ⟨.hbm, 76, rfl⟩
abbrev main_call1_v0 : Ref sig .tc := ⟨.hbm, 77, rfl⟩
abbrev main_v47 : Ref sig .tc := ⟨.hbm, 78, rfl⟩
abbrev main_v48 : Ref sig .tc := ⟨.hbm, 79, rfl⟩
abbrev main_c_9 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_call2_cst : Ref sig .tc := ⟨.hbm, 99, rfl⟩
abbrev main_call2_v0 : Ref sig .tc := ⟨.hbm, 100, rfl⟩
abbrev main_v65 : Ref sig .tc := ⟨.hbm, 101, rfl⟩
abbrev main_v66 : Ref sig .tc := ⟨.hbm, 102, rfl⟩
abbrev main_c_12 : Ref sig .tc := ⟨.hbm, 103, rfl⟩
abbrev main_v67 : Ref sig .tc := ⟨.hbm, 104, rfl⟩
abbrev main_v68 : Ref sig .tc := ⟨.hbm, 105, rfl⟩
abbrev main_c_13 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_call3_cst : Ref sig .tc := ⟨.hbm, 122, rfl⟩
abbrev main_call3_v0 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call4_cst : Ref sig .tc := ⟨.hbm, 129, rfl⟩
abbrev main_call4_v0 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_call5_cst : Ref sig .tc := ⟨.hbm, 140, rfl⟩
abbrev main_call5_v0 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  concatenates_S100000x2_S100000x1_S100000x3_d1 : Shape.Concatenates [S100000x2, S100000x1] S100000x3 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its RESULT named. Every weakly fair execution of the program terminates without a
  fault; at the end the result buffer holds what the fold of the program's segments leaves there — the host
  operations of each stretch applied in order, each region's arrays at what its write-backs leave — and the argument
  arrays are as launched. The fold's value at the result buffer is computed elsewhere; here it is only named.
-/
import proofs.«121282_j23184233464436_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's value there, the arguments as launched. The last thread state
    "every unscoped buffer at the fold's final contents" is read against the final memory, once for the result
    buffer and once per argument. -/
theorem run_named : θ_run defs (onTc (τ := τ) (main (F := F))) ⟨m, fun _ => 0, ρ⟩ (fun r => ∀ c : Dev nD,
      r.2.mem ((c.tc : Thread nD τ).loc main_v74) = W12 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v74 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.RunValue

end
-- ==== Proof.Spec.lean ====
/-
  The mathematics of the network, as functions on arrays of extended reals, index by index.

  * `mm X W` is the matrix product: entry (r, f) is the sum over k of X (r, k) · W (k, f).
  * `addRow Z b` adds the vector b to every row of Z: entry (r, f) is Z (r, f) + b f.
  * `biasRelu Z b` is the positive part of that: entry (r, f) is max (Z (r, f) + b f) 0.

  A dense layer is `mm (biasRelu Z b) W`; an output head is `addRow (mm (biasRelu (mm Y W₁) b₁) W₂) b₂`.
-/
import Idealize.ShloMosaic.Lib.ValueIdx
import Idealize.ShloMosaic.PureOps.Ideal.Laws

noncomputable section

open scoped BigOperators

namespace Cert.Spec

open Idealize.ShloMosaic Idealize.ShloMosaic.ValueIdx

variable {N A B : Nat}

/-- The matrix product of an [N, A] and an [A, B] matrix. -/
def mm (X : FVec Ideal ⟨2, ![N, A]⟩ .f32) (W : FVec Ideal ⟨2, ![A, B]⟩ .f32) : FVec Ideal ⟨2, ![N, B]⟩ .f32 :=
  fun i => ∑ k : Fin A, X (ix2 (i 0) k) * W (ix2 k (i 1))

/-- A vector added to every row of a matrix. -/
def addRow (Z : FVec Ideal ⟨2, ![N, B]⟩ .f32) (b : FVec Ideal ⟨1, ![B]⟩ .f32) : FVec Ideal ⟨2, ![N, B]⟩ .f32 :=
  fun i => Z i + b (ix1 (i 1))

/-- The positive part of a matrix plus a vector added to every row. -/
def biasRelu (Z : FVec Ideal ⟨2, ![N, B]⟩ .f32) (b : FVec Ideal ⟨1, ![B]⟩ .f32) : FVec Ideal ⟨2, ![N, B]⟩ .f32 :=
  fun i => max (Z i + b (ix1 (i 1))) 0

theorem mm_apply (X : FVec Ideal ⟨2, ![N, A]⟩ .f32) (W : FVec Ideal ⟨2, ![A, B]⟩ .f32) (r : Fin N) (f : Fin B) :
    mm X W (ix2 r f) = ∑ k : Fin A, X (ix2 r k) * W (ix2 k f) := rfl

theorem addRow_apply (Z : FVec Ideal ⟨2, ![N, B]⟩ .f32) (b : FVec Ideal ⟨1, ![B]⟩ .f32) (r : Fin N) (f : Fin B) :
    addRow Z b (ix2 r f) = Z (ix2 r f) + b (ix1 f) := rfl

theorem biasRelu_apply (Z : FVec Ideal ⟨2, ![N, B]⟩ .f32) (b : FVec Ideal ⟨1, ![B]⟩ .f32) (r : Fin N) (f : Fin B) :
    biasRelu Z b (ix2 r f) = max (Z (ix2 r f) + b (ix1 f)) 0 := rfl

end Cert.Spec

end
-- ==== Proof.NetDefs.lean ====
/-
  The host side of the network, as functions on arrays.

  From the edge list E (two rows of 1,600,000 node numbers) the program appends one self-loop per node to each row
  (`srcIx`, `dstIx`: 1,700,000 entries), counts each node's incoming edges, takes the inverse square root of the count
  where it is positive and zero elsewhere (`dinv`), and gives every edge the product of that number at its two ends
  (`nrmOf`). One propagation step (`agg`) gathers, for every edge, the row of h of the edge's source node, scales it
  by the edge's number and adds it into the row of the edge's target node, starting from zero. The network is three
  rounds of "matrix product, propagate, add a bias row, positive part", then two heads "matrix product, bias, positive
  part, matrix product, bias" whose results are laid side by side (`net`).
-/
import proofs.«121282_j23184233464436_1_alg».proof.Proof.Gen.KernelIdeal
import proofs.«121282_j23184233464436_1_alg».proof.Proof.Spec

set_option maxRecDepth 8192

noncomputable section

namespace Cert.KernelIdeal.Net

open Cert.KernelIdeal Cert.KernelIdeal.Facts₀ Cert.KernelIdeal.Facts Idealize.ShloMosaic Idealize.ShloMosaic.TcCoe Cert.Spec

/-- The source node of every edge, self-loops appended. -/
def srcIx (E : (⟨S2x1600000, .i32⟩ : BufTy).Contents (Elt Ideal)) : (⟨S1700000, .i32⟩ : BufTy).Contents (Elt Ideal) :=
  (((fun a b => concatenate S1700000 0 [⟨S1600000, a⟩, ⟨S100000, b⟩] concatenates_S1600000_S100000_S1700000_d0) : (⟨S1600000, .i32⟩ : BufTy).Contents (Elt Ideal) → (⟨S100000, .i32⟩ : BufTy).Contents (Elt Ideal) → (⟨S1700000, .i32⟩ : BufTy).Contents (Elt Ideal)) (shapeCast _ (((extractStridedSlice S1x1600000 ![0, 0] · slices_S2x1600000_S1x1600000_0_0) : (⟨S2x1600000, .i32⟩ : BufTy).Contents (Elt Ideal) → (⟨S1x1600000, .i32⟩ : BufTy).Contents (Elt Ideal)) E) shapeCasts_S1x1600000_S1600000) (iotaInDim S100000 32 0))

/-- The target node of every edge, self-loops appended. -/
def dstIx (E : (⟨S2x1600000, .i32⟩ : BufTy).Contents (Elt Ideal)) : (⟨S1700000, .i32⟩ : BufTy).Contents (Elt Ideal) :=
  (((fun a b => concatenate S1700000 0 [⟨S1600000, a⟩, ⟨S100000, b⟩] concatenates_S1600000_S100000_S1700000_d0) : (⟨S1600000, .i32⟩ : BufTy).Contents (Elt Ideal) → (⟨S100000, .i32⟩ : BufTy).Contents (Elt Ideal) → (⟨S1700000, .i32⟩ : BufTy).Contents (Elt Ideal)) (shapeCast _ (((extractStridedSlice S1x1600000 ![1, 0] · slices_S2x1600000_S1x1600000_1_0) : (⟨S2x1600000, .i32⟩ : BufTy).Contents (Elt Ideal) → (⟨S1x1600000, .i32⟩ : BufTy).Contents (Elt Ideal)) E) shapeCasts_S1x1600000_S1600000) (iotaInDim S100000 32 0))

/-- Per node: the number of edges that end there. -/
def deg (d : (⟨S1700000, .i32⟩ : BufTy).Contents (Elt Ideal)) : (⟨S100000, .f32⟩ : BufTy).Contents (Elt Ideal) :=
  (((fun x i u => Host.scatterAdd (F := Ideal) (φ := .f32) scatter_S100000_S1700000x1_S1700000_n_0_0_1 x i u) : (⟨S100000, .f32⟩ : BufTy).Contents (Elt Ideal) → (⟨S1700000x1, .i32⟩ : BufTy).Contents (Elt Ideal) → (⟨S1700000, .f32⟩ : BufTy).Contents (Elt Ideal) → (⟨S100000, .f32⟩ : BufTy).Contents (Elt Ideal)) ((broadcastInDim S100000 ![] bcast_S_S100000 : (⟨S_, .f32⟩ : BufTy).Contents (Elt Ideal) → (⟨S100000, .f32⟩ : BufTy).Contents (Elt Ideal)) (constant (F := Ideal) S_ .f32 0x00000000#32)) ((broadcastInDim S1700000x1 ![0] bcast_S1700000_S1700000x1_0 : (⟨S1700000, .i32⟩ : BufTy).Contents (Elt Ideal) → (⟨S1700000x1, .i32⟩ : BufTy).Contents (Elt Ideal)) d) ((broadcastInDim S1700000 ![] bcast_S_S1700000 : (⟨S_, .f32⟩ : BufTy).Contents (Elt Ideal) → (⟨S1700000, .f32⟩ : BufTy).Contents (Elt Ideal)) (constant (F := Ideal) S_ .f32 0x3F800000#32)))

/-- Per node: whether that number is positive. -/
def mask (d : (⟨S1700000, .i32⟩ : BufTy).Contents (Elt Ideal)) : (⟨S100000, .i1⟩ : BufTy).Contents (Elt Ideal) :=
  ((cmpf (F := Ideal) (φ := .f32) .ogt : (⟨S100000, .f32⟩ : BufTy).Contents (Elt Ideal) → (⟨S100000, .f32⟩ : BufTy).Contents (Elt Ideal) → (⟨S100000, .i1⟩ : BufTy).Contents (Elt Ideal)) (deg d) ((broadcastInDim S100000 ![] bcast_S_S100000 : (⟨S_, .f32⟩ : BufTy).Contents (Elt Ideal) → (⟨S100000, .f32⟩ : BufTy).Contents (Elt Ideal)) (constant (F := Ideal) S_ .f32 0x00000000#32)))

/-- Per node: the inverse square root of that number. -/
def rsq (d : (⟨S1700000, .i32⟩ : BufTy).Contents (Elt Ideal)) : (⟨S100000, .f32⟩ : BufTy).Contents (Elt Ideal) :=
  ((Host.rsqrt (F := Ideal) (φ := .f32) : (⟨S100000, .f32⟩ : BufTy).Contents (Elt Ideal) → (⟨S100000, .f32⟩ : BufTy).Contents (Elt Ideal)) (deg d))

/-- The scalar zero the selection falls back to. -/
def zero0 : (⟨S_, .f32⟩ : BufTy).Contents (Elt Ideal) :=
  (constant (F := Ideal) S_ .f32 0x00000000#32)

/-- The selection: `r` where the mask holds, the scalar `z` elsewhere. -/
def dinvFrom (mk : (⟨S100000, .i1⟩ : BufTy).Contents (Elt Ideal)) (r : (⟨S100000, .f32⟩ : BufTy).Contents (Elt Ideal)) (z : (⟨S_, .f32⟩ : BufTy).Contents (Elt Ideal)) : (⟨S100000, .f32⟩ : BufTy).Contents (Elt Ideal) :=
  ((select mk r (((broadcastInDim S100000 ![] bcast_S_S100000) ((id z) : (⟨S_, .f32⟩ : BufTy).Contents (Elt Ideal))) : (⟨S100000, .f32⟩ : BufTy).Contents (Elt Ideal))) : (⟨S100000, .f32⟩ : BufTy).Contents (Elt Ideal))

/-- Per node: the inverse square root of its number of incoming edges where that is positive, zero elsewhere. -/
def dinv (d : (⟨S1700000, .i32⟩ : BufTy).Contents (Elt Ideal)) : (⟨S100000, .f32⟩ : BufTy).Contents (Elt Ideal) := dinvFrom (mask d) (rsq d) zero0

/-- Per edge: the product of the per-node numbers `dv` at its source and at its target (a negative node number
    counted from the end). -/
def nrmFrom (s d : (⟨S1700000, .i32⟩ : BufTy).Contents (Elt Ideal)) (dv : (⟨S100000, .f32⟩ : BufTy).Contents (Elt Ideal)) : (⟨S1700000, .f32⟩ : BufTy).Contents (Elt Ideal) :=
  ((mulf (F := Ideal) (φ := .f32) : (⟨S1700000, .f32⟩ : BufTy).Contents (Elt Ideal) → (⟨S1700000, .f32⟩ : BufTy).Contents (Elt Ideal) → (⟨S1700000, .f32⟩ : BufTy).Contents (Elt Ideal)) (((fun x i => Host.gather gather_S100000_S1700000x1_S1700000_n_0_n_n_0_1_1 x i) : (⟨S100000, .f32⟩ : BufTy).Contents (Elt Ideal) → (⟨S1700000x1, .i32⟩ : BufTy).Contents (Elt Ideal) → (⟨S1700000, .f32⟩ : BufTy).Contents (Elt Ideal)) dv ((broadcastInDim S1700000x1 ![0] bcast_S1700000_S1700000x1_0 : (⟨S1700000, .i32⟩ : BufTy).Contents (Elt Ideal) → (⟨S1700000x1, .i32⟩ : BufTy).Contents (Elt Ideal)) ((select : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal)) ((cmpi .slt : (⟨S1700000, .i32⟩ : BufTy).Contents (Elt Ideal) → (⟨S1700000, .i32⟩ : BufTy).Contents (Elt Ideal) → (⟨S1700000, .i1⟩ : BufTy).Contents (Elt Ideal)) s ((broadcastInDim S1700000 ![] bcast_S_S1700000 : (⟨S_, .i32⟩ : BufTy).Contents (Elt Ideal) → (⟨S1700000, .i32⟩ : BufTy).Contents (Elt Ideal)) (constantI S_ 32 0#32))) ((addi : (⟨S1700000, .i32⟩ : BufTy).Contents (Elt Ideal) → (⟨S1700000, .i32⟩ : BufTy).Contents (Elt Ideal) → (⟨S1700000, .i32⟩ : BufTy).Contents (Elt Ideal)) s ((broadcastInDim S1700000 ![] bcast_S_S1700000 : (⟨S_, .i32⟩ : BufTy).Contents (Elt Ideal) → (⟨S1700000, .i32⟩ : BufTy).Contents (Elt Ideal)) (constantI S_ 32 100000#32))) s))) (((fun x i => Host.gather gather_S100000_S1700000x1_S1700000_n_0_n_n_0_1_1 x i) : (⟨S100000, .f32⟩ : BufTy).Contents (Elt Ideal) → (⟨S1700000x1, .i32⟩ : BufTy).Contents (Elt Ideal) → (⟨S1700000, .f32⟩ : BufTy).Contents (Elt Ideal)) dv ((broadcastInDim S1700000x1 ![0] bcast_S1700000_S1700000x1_0 : (⟨S1700000, .i32⟩ : BufTy).Contents (Elt Ideal) → (⟨S1700000x1, .i32⟩ : BufTy).Contents (Elt Ideal)) ((select : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal)) ((cmpi .slt : (⟨S1700000, .i32⟩ : BufTy).Contents (Elt Ideal) → (⟨S1700000, .i32⟩ : BufTy).Contents (Elt Ideal) → (⟨S1700000, .i1⟩ : BufTy).Contents (Elt Ideal)) d ((broadcastInDim S1700000 ![] bcast_S_S1700000 : (⟨S_, .i32⟩ : BufTy).Contents (Elt Ideal) → (⟨S1700000, .i32⟩ : BufTy).Contents (Elt Ideal)) (constantI S_ 32 0#32))) ((addi : (⟨S1700000, .i32⟩ : BufTy).Contents (Elt Ideal) → (⟨S1700000, .i32⟩ : BufTy).Contents (Elt Ideal) → (⟨S1700000, .i32⟩ : BufTy).Contents (Elt Ideal)) d ((broadcastInDim S1700000 ![] bcast_S_S1700000 : (⟨S_, .i32⟩ : BufTy).Contents (Elt Ideal) → (⟨S1700000, .i32⟩ : BufTy).Contents (Elt Ideal)) (constantI S_ 32 100000#32))) d))))

/-- Per edge: the product of `dinv` at its source and at its target. -/
def nrmOf (s d : (⟨S1700000, .i32⟩ : BufTy).Contents (Elt Ideal)) : (⟨S1700000, .f32⟩ : BufTy).Contents (Elt Ideal) := nrmFrom s d (dinv d)

/-- One propagation step: every edge adds its source's row of `h`, scaled by the edge's number, into its target's row. -/
def agg (s d : (⟨S1700000, .i32⟩ : BufTy).Contents (Elt Ideal)) (n : (⟨S1700000, .f32⟩ : BufTy).Contents (Elt Ideal)) (h : (⟨S100000x128, .f32⟩ : BufTy).Contents (Elt Ideal)) : (⟨S100000x128, .f32⟩ : BufTy).Contents (Elt Ideal) :=
  (((fun x i u => Host.scatterAdd (F := Ideal) (φ := .f32) scatter_S100000x128_S1700000x1_S1700000x128_1_0_0_1 x i u) : (⟨S100000x128, .f32⟩ : BufTy).Contents (Elt Ideal) → (⟨S1700000x1, .i32⟩ : BufTy).Contents (Elt Ideal) → (⟨S1700000x128, .f32⟩ : BufTy).Contents (Elt Ideal) → (⟨S100000x128, .f32⟩ : BufTy).Contents (Elt Ideal)) ((broadcastInDim S100000x128 ![] bcast_S_S100000x128 : (⟨S_, .f32⟩ : BufTy).Contents (Elt Ideal) → (⟨S100000x128, .f32⟩ : BufTy).Contents (Elt Ideal)) (constant (F := Ideal) S_ .f32 0x00000000#32)) ((broadcastInDim S1700000x1 ![0] bcast_S1700000_S1700000x1_0 : (⟨S1700000, .i32⟩ : BufTy).Contents (Elt Ideal) → (⟨S1700000x1, .i32⟩ : BufTy).Contents (Elt Ideal)) d) ((mulf (F := Ideal) (φ := .f32) : (⟨S1700000x128, .f32⟩ : BufTy).Contents (Elt Ideal) → (⟨S1700000x128, .f32⟩ : BufTy).Contents (Elt Ideal) → (⟨S1700000x128, .f32⟩ : BufTy).Contents (Elt Ideal)) (((fun x i => Host.gather gather_S100000x128_S1700000x1_S1700000x128_1_0_n_n_0_1_1128 x i) : (⟨S100000x128, .f32⟩ : BufTy).Contents (Elt Ideal) → (⟨S1700000x1, .i32⟩ : BufTy).Contents (Elt Ideal) → (⟨S1700000x128, .f32⟩ : BufTy).Contents (Elt Ideal)) h ((broadcastInDim S1700000x1 ![0] bcast_S1700000_S1700000x1_0 : (⟨S1700000, .i32⟩ : BufTy).Contents (Elt Ideal) → (⟨S1700000x1, .i32⟩ : BufTy).Contents (Elt Ideal)) ((select : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal)) ((cmpi .slt : (⟨S1700000, .i32⟩ : BufTy).Contents (Elt Ideal) → (⟨S1700000, .i32⟩ : BufTy).Contents (Elt Ideal) → (⟨S1700000, .i1⟩ : BufTy).Contents (Elt Ideal)) s ((broadcastInDim S1700000 ![] bcast_S_S1700000 : (⟨S_, .i32⟩ : BufTy).Contents (Elt Ideal) → (⟨S1700000, .i32⟩ : BufTy).Contents (Elt Ideal)) (constantI S_ 32 0#32))) ((addi : (⟨S1700000, .i32⟩ : BufTy).Contents (Elt Ideal) → (⟨S1700000, .i32⟩ : BufTy).Contents (Elt Ideal) → (⟨S1700000, .i32⟩ : BufTy).Contents (Elt Ideal)) s ((broadcastInDim S1700000 ![] bcast_S_S1700000 : (⟨S_, .i32⟩ : BufTy).Contents (Elt Ideal) → (⟨S1700000, .i32⟩ : BufTy).Contents (Elt Ideal)) (constantI S_ 32 100000#32))) s))) ((broadcastInDim S1700000x128 ![0, 1] bcast_S1700000x1_S1700000x128_0_1 : (⟨S1700000x1, .f32⟩ : BufTy).Contents (Elt Ideal) → (⟨S1700000x128, .f32⟩ : BufTy).Contents (Elt Ideal)) ((broadcastInDim S1700000x1 ![0] bcast_S1700000_S1700000x1_0 : (⟨S1700000, .f32⟩ : BufTy).Contents (Elt Ideal) → (⟨S1700000x1, .f32⟩ : BufTy).Contents (Elt Ideal)) n))))

/-- The two heads' results side by side: columns 0, 1 from the first, column 2 from the second. -/
def cat (a : (⟨S100000x2, .f32⟩ : BufTy).Contents (Elt Ideal)) (b : (⟨S100000x1, .f32⟩ : BufTy).Contents (Elt Ideal)) : (⟨S100000x3, .f32⟩ : BufTy).Contents (Elt Ideal) :=
  (((fun a b => concatenate S100000x3 1 [⟨S100000x2, a⟩, ⟨S100000x1, b⟩] concatenates_S100000x2_S100000x1_S100000x3_d1) : (⟨S100000x2, .f32⟩ : BufTy).Contents (Elt Ideal) → (⟨S100000x1, .f32⟩ : BufTy).Contents (Elt Ideal) → (⟨S100000x3, .f32⟩ : BufTy).Contents (Elt Ideal)) a b)

/-- One propagation step over the edge list `E`: the per-edge numbers are those of `E`'s own node degrees. -/
def prop (E : (⟨S2x1600000, .i32⟩ : BufTy).Contents (Elt Ideal)) (h : (⟨S100000x128, .f32⟩ : BufTy).Contents (Elt Ideal)) : (⟨S100000x128, .f32⟩ : BufTy).Contents (Elt Ideal) :=
  agg (srcIx E) (dstIx E) (nrmOf (srcIx E) (dstIx E)) h

/-- An output head on the node features `y`: a dense layer with positive part, then a dense layer. -/
def head {A B C : Nat} (y : FVec Ideal ⟨2, ![100000, A]⟩ .f32) (Wa : FVec Ideal ⟨2, ![A, B]⟩ .f32) (ba : FVec Ideal ⟨1, ![B]⟩ .f32)
    (Wb : FVec Ideal ⟨2, ![B, C]⟩ .f32) (bb : FVec Ideal ⟨1, ![C]⟩ .f32) : FVec Ideal ⟨2, ![100000, C]⟩ .f32 :=
  addRow (mm (biasRelu (mm y Wa) ba) Wb) bb

/-- The node features after the three rounds of "matrix product, propagate, bias, positive part". -/
def feats (x : (⟨S100000x128, .f32⟩ : BufTy).Contents (Elt Ideal)) (E : (⟨S2x1600000, .i32⟩ : BufTy).Contents (Elt Ideal))
    (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal))
    (W3 : (⟨S128x128, .f32⟩ : BufTy).Contents (Elt Ideal)) (b3 : (⟨S128, .f32⟩ : BufTy).Contents (Elt Ideal)) : (⟨S100000x128, .f32⟩ : BufTy).Contents (Elt Ideal) :=
  biasRelu (prop E (mm (biasRelu (prop E (mm (biasRelu (prop E (mm x W1)) b1) W2)) b2) W3)) b3

/-- The whole network as one function of its sixteen arguments. -/
def net (x : (⟨S100000x128, .f32⟩ : BufTy).Contents (Elt Ideal)) (E : (⟨S2x1600000, .i32⟩ : BufTy).Contents (Elt Ideal))
    (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal))
    (W3 : (⟨S128x128, .f32⟩ : BufTy).Contents (Elt Ideal)) (b3 : (⟨S128, .f32⟩ : BufTy).Contents (Elt Ideal)) (Wp1 : (⟨S128x128, .f32⟩ : BufTy).Contents (Elt Ideal)) (bp1 : (⟨S128, .f32⟩ : BufTy).Contents (Elt Ideal))
    (Wp2 : (⟨S128x2, .f32⟩ : BufTy).Contents (Elt Ideal)) (bp2 : (⟨S2, .f32⟩ : BufTy).Contents (Elt Ideal)) (Wt1 : (⟨S128x64, .f32⟩ : BufTy).Contents (Elt Ideal)) (bt1 : (⟨S64, .f32⟩ : BufTy).Contents (Elt Ideal))
    (Wt2 : (⟨S64x1, .f32⟩ : BufTy).Contents (Elt Ideal)) (bt2 : (⟨S1, .f32⟩ : BufTy).Contents (Elt Ideal)) : (⟨S100000x3, .f32⟩ : BufTy).Contents (Elt Ideal) :=
  cat (head (feats x E W1 b1 W2 b2 W3 b3) Wp1 bp1 Wp2 bp2) (head (feats x E W1 b1 W2 b2 W3 b3) Wt1 bt1 Wt2 bt2)

end Cert.KernelIdeal.Net

end
-- ==== Proof.FoldKeep.lean ====
/-
  Which buffers each stretch of host operations writes, and hence which it leaves alone: a buffer that no operation
  of a stretch writes holds after the stretch what it held before; a buffer that is not one of a region's arrays holds
  at the region's exit what it held at its entry. Chained, these walk a buffer's contents back through the program to
  the point where it was written, or to the launch memory.
-/
import proofs.«121282_j23184233464436_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-- The buffers the operations of `hostOps0` write. -/
abbrev written_hostOps0 : List (Ref sig .tc) := [main_v0, main_v1, main_v2, main_v3, main_v4, main_v5, main_v6, main_cst, main_v7, main_cst_0, main_v8, main_v9, main_v10, main_cst_1, main_v11, main_v12, main_v13, main_cst_2]
theorem writes_hostOps0 : (hostOps0 : List (HloOp τ sig (Elt F))).Forall fun op => op.writes ⊆ ((written_hostOps0).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The buffers the operations of `hostOps0_1` write. -/
abbrev written_hostOps0_1 : List (Ref sig .tc) := [main_call0_v0, main_call0_v1, main_v14]
theorem writes_hostOps0_1 : (hostOps0_1 : List (HloOp τ sig (Elt F))).Forall fun op => op.writes ⊆ ((written_hostOps0_1).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The buffers the operations of `hostOps0_2` write. -/
abbrev written_hostOps0_2 : List (Ref sig .tc) := [main_c, main_v15, main_v16, main_c_3, main_v17, main_v18, main_v19, main_v20, main_v21, main_c_4, main_v22, main_v23, main_c_5, main_v24, main_v25, main_v26, main_v27, main_v28, main_v29]
theorem writes_hostOps0_2 : (hostOps0_2 : List (HloOp τ sig (Elt F))).Forall fun op => op.writes ⊆ ((written_hostOps0_2).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The buffers the operations of `hostOps1` write. -/
abbrev written_hostOps1 : List (Ref sig .tc) := [main_c_6, main_v31, main_v32, main_c_7, main_v33, main_v34, main_v35, main_v36, main_v37, main_v38, main_v39, main_v40, main_cst_8, main_v41, main_v42, main_v43]
theorem writes_hostOps1 : (hostOps1 : List (HloOp τ sig (Elt F))).Forall fun op => op.writes ⊆ ((written_hostOps1).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The buffers the operations of `hostOps2` write. -/
abbrev written_hostOps2 : List (Ref sig .tc) := [main_c_9, main_v45, main_v46, main_c_10, main_v47, main_v48, main_v49, main_v50, main_v51, main_v52, main_v53, main_v54, main_cst_11, main_v55, main_v56, main_v57]
theorem writes_hostOps2 : (hostOps2 : List (HloOp τ sig (Elt F))).Forall fun op => op.writes ⊆ ((written_hostOps2).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The buffers the operations of `hostOps3` write. -/
abbrev written_hostOps3 : List (Ref sig .tc) := [main_c_12, main_v59, main_v60, main_c_13, main_v61, main_v62, main_v63, main_v64, main_v65, main_v66, main_v67, main_v68, main_cst_14, main_v69, main_v70, main_v71]
theorem writes_hostOps3 : (hostOps3 : List (HloOp τ sig (Elt F))).Forall fun op => op.writes ⊆ ((written_hostOps3).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The buffers the operations of `hostOps5` write. -/
abbrev written_hostOps5 : List (Ref sig .tc) := [main_v74]
theorem writes_hostOps5 : (hostOps5 : List (HloOp τ sig (Elt F))).Forall fun op => op.writes ⊆ ((written_hostOps5).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

variable (m : (ℓ : Loc nD τ sig) → Buf (Elt F) ℓ) (ρ : Dev nD → PrngReg) (c : Dev nD)

/-- Untouched by the three opening stretches: as launched. -/
theorem keep3 (r : Ref sig .tc) (h0 : r ∉ written_hostOps0) (h1 : r ∉ written_hostOps0_1) (h2 : r ∉ written_hostOps0_2) :
    W3 m ρ c (Proc.devRef .tc r) = m ((c : Thread nD τ).loc r) :=
  (after_of_writes_sub hostOps0_2 _ writes_hostOps0_2 h2).trans
    ((after_of_writes_sub hostOps0_1 _ writes_hostOps0_1 h1).trans (after_of_writes_sub hostOps0 _ writes_hostOps0 h0))
theorem keep4 (r : Ref sig .tc) (h : ∀ w, Pipeline.arrRef spec0 w ≠ r) : W4 m ρ c (Proc.devRef .tc r) = W3 m ρ c (Proc.devRef .tc r) := W4_of_ne m ρ c r h
theorem keep5 (r : Ref sig .tc) (h : r ∉ written_hostOps1) : W5 m ρ c (Proc.devRef .tc r) = W4 m ρ c (Proc.devRef .tc r) :=
  after_of_writes_sub hostOps1 _ writes_hostOps1 h
theorem keep6 (r : Ref sig .tc) (h : ∀ w, Pipeline.arrRef spec1 w ≠ r) : W6 m ρ c (Proc.devRef .tc r) = W5 m ρ c (Proc.devRef .tc r) := W6_of_ne m ρ c r h
theorem keep7 (r : Ref sig .tc) (h : r ∉ written_hostOps2) : W7 m ρ c (Proc.devRef .tc r) = W6 m ρ c (Proc.devRef .tc r) :=
  after_of_writes_sub hostOps2 _ writes_hostOps2 h
theorem keep8 (r : Ref sig .tc) (h : ∀ w, Pipeline.arrRef spec2 w ≠ r) : W8 m ρ c (Proc.devRef .tc r) = W7 m ρ c (Proc.devRef .tc r) := W8_of_ne m ρ c r h
theorem keep9 (r : Ref sig .tc) (h : r ∉ written_hostOps3) : W9 m ρ c (Proc.devRef .tc r) = W8 m ρ c (Proc.devRef .tc r) :=
  after_of_writes_sub hostOps3 _ writes_hostOps3 h
theorem keep10 (r : Ref sig .tc) (h : ∀ w, Pipeline.arrRef spec3 w ≠ r) : W10 m ρ c (Proc.devRef .tc r) = W9 m ρ c (Proc.devRef .tc r) := W10_of_ne m ρ c r h

end Cert.KernelIdeal.Fold

end
-- ==== Proof.FoldEntry.lean ====
/-
  What the fold of the idealized kernel program leaves in each buffer, stage by stage, as a function of the argument
  arrays (this module: the values at the first region's entry). The opening host stretches compute the edge index vectors and the per-edge numbers; each region leaves in
  its output array the whole-array function its blocks are restrictions of (a matrix product, a biased positive part,
  an output head); each host stretch between regions is one propagation step over the edges; the closing stretch
  lays the two heads' results side by side. Composed, the result buffer ends at `net` of the arguments.
-/
import proofs.«121282_j23184233464436_1_alg».proof.Proof.Gen.KernelIdeal.Frame
import proofs.«121282_j23184233464436_1_alg».proof.Proof.NetDefs
import proofs.«121282_j23184233464436_1_alg».proof.Proof.FoldKeep
import Idealize.ShloMosaic.Lib.StableHlo.Run

set_option maxRecDepth 16384

noncomputable section

namespace Cert.KernelIdeal.Fold

open Cert.KernelIdeal Cert.KernelIdeal.Gen Cert.KernelIdeal.Net Cert.KernelIdeal.Facts₀ Cert.KernelIdeal.Facts Cert.Spec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Argument 0 as launched. -/
abbrev in0 : (⟨S100000x128, .f32⟩ : BufTy).Contents (Elt Ideal) := m ((c : Thread nD τ).loc main_arg0)
/-- Argument 1 as launched. -/
abbrev in1 : (⟨S2x1600000, .i32⟩ : BufTy).Contents (Elt Ideal) := m ((c : Thread nD τ).loc main_arg1)
/-- Argument 2 as launched. -/
abbrev in2 : (⟨S128x128, .f32⟩ : BufTy).Contents (Elt Ideal) := m ((c : Thread nD τ).loc main_arg2)
/-- Argument 3 as launched. -/
abbrev in3 : (⟨S128, .f32⟩ : BufTy).Contents (Elt Ideal) := m ((c : Thread nD τ).loc main_arg3)
/-- Argument 4 as launched. -/
abbrev in4 : (⟨S128x128, .f32⟩ : BufTy).Contents (Elt Ideal) := m ((c : Thread nD τ).loc main_arg4)
/-- Argument 5 as launched. -/
abbrev in5 : (⟨S128, .f32⟩ : BufTy).Contents (Elt Ideal) := m ((c : Thread nD τ).loc main_arg5)
/-- Argument 6 as launched. -/
abbrev in6 : (⟨S128x128, .f32⟩ : BufTy).Contents (Elt Ideal) := m ((c : Thread nD τ).loc main_arg6)
/-- Argument 7 as launched. -/
abbrev in7 : (⟨S128, .f32⟩ : BufTy).Contents (Elt Ideal) := m ((c : Thread nD τ).loc main_arg7)
/-- Argument 8 as launched. -/
abbrev in8 : (⟨S128x128, .f32⟩ : BufTy).Contents (Elt Ideal) := m ((c : Thread nD τ).loc main_arg8)
/-- Argument 9 as launched. -/
abbrev in9 : (⟨S128, .f32⟩ : BufTy).Contents (Elt Ideal) := m ((c : Thread nD τ).loc main_arg9)
/-- Argument 10 as launched. -/
abbrev in10 : (⟨S128x2, .f32⟩ : BufTy).Contents (Elt Ideal) := m ((c : Thread nD τ).loc main_arg10)
/-- Argument 11 as launched. -/
abbrev in11 : (⟨S2, .f32⟩ : BufTy).Contents (Elt Ideal) := m ((c : Thread nD τ).loc main_arg11)
/-- Argument 12 as launched. -/
abbrev in12 : (⟨S128x64, .f32⟩ : BufTy).Contents (Elt Ideal) := m ((c : Thread nD τ).loc main_arg12)
/-- Argument 13 as launched. -/
abbrev in13 : (⟨S64, .f32⟩ : BufTy).Contents (Elt Ideal) := m ((c : Thread nD τ).loc main_arg13)
/-- Argument 14 as launched. -/
abbrev in14 : (⟨S64x1, .f32⟩ : BufTy).Contents (Elt Ideal) := m ((c : Thread nD τ).loc main_arg14)
/-- Argument 15 as launched. -/
abbrev in15 : (⟨S1, .f32⟩ : BufTy).Contents (Elt Ideal) := m ((c : Thread nD τ).loc main_arg15)

/-! ## The three opening stretches, each from the buffers it reads -/

theorem openA_src (V : Valuation τ sig (Elt Ideal)) (e : (⟨S2x1600000, .i32⟩ : BufTy).Contents (Elt Ideal)) (he : V (Proc.devRef .tc main_arg1) = e) :
    StableHlo.after hostOps0 V (Proc.devRef .tc main_v5) = srcIx e := by
  subst he
  after_results
  try rfl

theorem openA_dst (V : Valuation τ sig (Elt Ideal)) (e : (⟨S2x1600000, .i32⟩ : BufTy).Contents (Elt Ideal)) (he : V (Proc.devRef .tc main_arg1) = e) :
    StableHlo.after hostOps0 V (Proc.devRef .tc main_v6) = dstIx e := by
  subst he
  after_results
  try rfl

theorem openA_mask (V : Valuation τ sig (Elt Ideal)) (e : (⟨S2x1600000, .i32⟩ : BufTy).Contents (Elt Ideal)) (he : V (Proc.devRef .tc main_arg1) = e) :
    StableHlo.after hostOps0 V (Proc.devRef .tc main_v12) = mask (dstIx e) := by
  subst he
  after_results
  try rfl

theorem openA_rsq (V : Valuation τ sig (Elt Ideal)) (e : (⟨S2x1600000, .i32⟩ : BufTy).Contents (Elt Ideal)) (he : V (Proc.devRef .tc main_arg1) = e) :
    StableHlo.after hostOps0 V (Proc.devRef .tc main_v13) = rsq (dstIx e) := by
  subst he
  after_results
  try rfl

theorem openA_zero (V : Valuation τ sig (Elt Ideal)) : StableHlo.after hostOps0 V (Proc.devRef .tc main_cst_2) = zero0 := by
  after_results
  try rfl

theorem openB (V : Valuation τ sig (Elt Ideal)) (mk : (⟨S100000, .i1⟩ : BufTy).Contents (Elt Ideal)) (r : (⟨S100000, .f32⟩ : BufTy).Contents (Elt Ideal)) (z : (⟨S_, .f32⟩ : BufTy).Contents (Elt Ideal))
    (hm : V (Proc.devRef .tc main_v12) = mk) (hr : V (Proc.devRef .tc main_v13) = r) (hz : V (Proc.devRef .tc main_cst_2) = z) :
    StableHlo.after hostOps0_1 V (Proc.devRef .tc main_v14) = dinvFrom mk r z := by
  subst hm hr hz
  after_results
  try rfl

set_option maxHeartbeats 4000000 in
theorem openC (V : Valuation τ sig (Elt Ideal)) (s d : (⟨S1700000, .i32⟩ : BufTy).Contents (Elt Ideal)) (dv : (⟨S100000, .f32⟩ : BufTy).Contents (Elt Ideal))
    (hs : V (Proc.devRef .tc main_v5) = s) (hd : V (Proc.devRef .tc main_v6) = d) (hv : V (Proc.devRef .tc main_v14) = dv) :
    StableHlo.after hostOps0_2 V (Proc.devRef .tc main_v29) = nrmFrom s d dv := by
  subst hs hd hv
  after_results
  try rfl

/-! ## At region 0's entry -/

theorem src2 : W2 m ρ c (Proc.devRef .tc main_v5) = srcIx (in1 m c) :=
  (after_of_writes_sub hostOps0_1 _ writes_hostOps0_1 (r := main_v5) (by decide)).trans (openA_src (W0 m ρ c) _ rfl)
theorem dst2 : W2 m ρ c (Proc.devRef .tc main_v6) = dstIx (in1 m c) :=
  (after_of_writes_sub hostOps0_1 _ writes_hostOps0_1 (r := main_v6) (by decide)).trans (openA_dst (W0 m ρ c) _ rfl)
theorem dinv2 : W2 m ρ c (Proc.devRef .tc main_v14) = dinv (dstIx (in1 m c)) :=
  openB (W1 m ρ c) _ _ _ (openA_mask (W0 m ρ c) _ rfl) (openA_rsq (W0 m ρ c) _ rfl) (openA_zero (W0 m ρ c))

theorem src3 : W3 m ρ c (Proc.devRef .tc main_v5) = srcIx (in1 m c) := (after_of_writes_sub hostOps0_2 _ writes_hostOps0_2 (r := main_v5) (by decide)).trans (src2 m ρ c)
theorem dst3 : W3 m ρ c (Proc.devRef .tc main_v6) = dstIx (in1 m c) := (after_of_writes_sub hostOps0_2 _ writes_hostOps0_2 (r := main_v6) (by decide)).trans (dst2 m ρ c)
theorem nrm3 : W3 m ρ c (Proc.devRef .tc main_v29) = nrmOf (srcIx (in1 m c)) (dstIx (in1 m c)) :=
  openC (W2 m ρ c) _ _ _ (src2 m ρ c) (dst2 m ρ c) (dinv2 m ρ c)

end Cert.KernelIdeal.Fold

end
-- ==== Proof.FoldStep1.lean ====
/-
  One propagation step, read off each of the three host stretches that lie between regions: the stretch's operations
  gather the source rows, scale them by the per-edge numbers and add them into the target rows, which is `agg`.
-/
import proofs.«121282_j23184233464436_1_alg».proof.Proof.Gen.KernelIdeal.Frame
import proofs.«121282_j23184233464436_1_alg».proof.Proof.NetDefs
import Idealize.ShloMosaic.Lib.StableHlo.Run

set_option maxRecDepth 16384

noncomputable section

namespace Cert.KernelIdeal.Fold

open Cert.KernelIdeal Cert.KernelIdeal.Gen Cert.KernelIdeal.Net Cert.KernelIdeal.Facts₀ Cert.KernelIdeal.Facts Cert.Spec
open Idealize.ShloMosaic Idealize.ShloMosaic.TcCoe Idealize.SL.Sem Idealize.ShloMosaic.StableHlo

set_option maxHeartbeats 4000000 in
/-- One propagation step read off the stretch `hostOps1`: from the index vectors, the per-edge numbers and the rows `h`. -/
theorem step1 (s d : (⟨S1700000, .i32⟩ : BufTy).Contents (Elt Ideal)) (n : (⟨S1700000, .f32⟩ : BufTy).Contents (Elt Ideal)) (h : (⟨S100000x128, .f32⟩ : BufTy).Contents (Elt Ideal)) (V : Valuation τ sig (Elt Ideal))
    (hs : V (Proc.devRef .tc main_v5) = s) (hd : V (Proc.devRef .tc main_v6) = d) (hn : V (Proc.devRef .tc main_v29) = n)
    (hh : V (Proc.devRef .tc main_v30) = h) :
    StableHlo.after hostOps1 V (Proc.devRef .tc main_v43) = agg s d n h := by
  subst hs hd hn hh
  after_results
  try rfl

end Cert.KernelIdeal.Fold

end
-- ==== Proof.FoldStep2.lean ====
/-
  One propagation step, read off each of the three host stretches that lie between regions: the stretch's operations
  gather the source rows, scale them by the per-edge numbers and add them into the target rows, which is `agg`.
-/
import proofs.«121282_j23184233464436_1_alg».proof.Proof.Gen.KernelIdeal.Frame
import proofs.«121282_j23184233464436_1_alg».proof.Proof.NetDefs
import Idealize.ShloMosaic.Lib.StableHlo.Run

set_option maxRecDepth 16384

noncomputable section

namespace Cert.KernelIdeal.Fold

open Cert.KernelIdeal Cert.KernelIdeal.Gen Cert.KernelIdeal.Net Cert.KernelIdeal.Facts₀ Cert.KernelIdeal.Facts Cert.Spec
open Idealize.ShloMosaic Idealize.ShloMosaic.TcCoe Idealize.SL.Sem Idealize.ShloMosaic.StableHlo

set_option maxHeartbeats 4000000 in
/-- One propagation step read off the stretch `hostOps2`: from the index vectors, the per-edge numbers and the rows `h`. -/
theorem step2 (s d : (⟨S1700000, .i32⟩ : BufTy).Contents (Elt Ideal)) (n : (⟨S1700000, .f32⟩ : BufTy).Contents (Elt Ideal)) (h : (⟨S100000x128, .f32⟩ : BufTy).Contents (Elt Ideal)) (V : Valuation τ sig (Elt Ideal))
    (hs : V (Proc.devRef .tc main_v5) = s) (hd : V (Proc.devRef .tc main_v6) = d) (hn : V (Proc.devRef .tc main_v29) = n)
    (hh : V (Proc.devRef .tc main_v44) = h) :
    StableHlo.after hostOps2 V (Proc.devRef .tc main_v57) = agg s d n h := by
  subst hs hd hn hh
  after_results
  try rfl

end Cert.KernelIdeal.Fold

end
-- ==== Proof.FoldStep3.lean ====
/-
  One propagation step, read off each of the three host stretches that lie between regions: the stretch's operations
  gather the source rows, scale them by the per-edge numbers and add them into the target rows, which is `agg`.
-/
import proofs.«121282_j23184233464436_1_alg».proof.Proof.Gen.KernelIdeal.Frame
import proofs.«121282_j23184233464436_1_alg».proof.Proof.NetDefs
import Idealize.ShloMosaic.Lib.StableHlo.Run

set_option maxRecDepth 16384

noncomputable section

namespace Cert.KernelIdeal.Fold

open Cert.KernelIdeal Cert.KernelIdeal.Gen Cert.KernelIdeal.Net Cert.KernelIdeal.Facts₀ Cert.KernelIdeal.Facts Cert.Spec
open Idealize.ShloMosaic Idealize.ShloMosaic.TcCoe Idealize.SL.Sem Idealize.ShloMosaic.StableHlo

set_option maxHeartbeats 4000000 in
/-- One propagation step read off the stretch `hostOps3`: from the index vectors, the per-edge numbers and the rows `h`. -/
theorem step3 (s d : (⟨S1700000, .i32⟩ : BufTy).Contents (Elt Ideal)) (n : (⟨S1700000, .f32⟩ : BufTy).Contents (Elt Ideal)) (h : (⟨S100000x128, .f32⟩ : BufTy).Contents (Elt Ideal)) (V : Valuation τ sig (Elt Ideal))
    (hs : V (Proc.devRef .tc main_v5) = s) (hd : V (Proc.devRef .tc main_v6) = d) (hn : V (Proc.devRef .tc main_v29) = n)
    (hh : V (Proc.devRef .tc main_v58) = h) :
    StableHlo.after hostOps3 V (Proc.devRef .tc main_v71) = agg s d n h := by
  subst hs hd hn hh
  after_results
  try rfl

end Cert.KernelIdeal.Fold

end
-- ==== Proof.LibChebAlgebra.lean ====
/-
  General algebra of a Chebyshev graph-convolution layer over the extended reals, independent of any
  particular program: (1) arrays all of whose entries are real numbers (`IsReal`) and the operations that preserve this;
  (2) node-axis propagation along weighted edges (`prop`) and the feature-axis matrix product (`mm`), both as sums;
  (3) the two commute (`prop_mm`); (4) the degree-2 Chebyshev layer written "product first, then propagate" equals
  the layer written "propagate first, then product" (`cheb_layer`).
  Extended-real arithmetic is not a ring (⊤ + ⊥, 0 * ⊤), so every identity here is proved by moving to ℝ, where the
  arrays live once they are known to be real.
-/
import Idealize.ShloMosaic.Lib.ValueIdx

noncomputable section

open scoped BigOperators

namespace ChebAlgebra

open Idealize.ShloMosaic Idealize.ShloMosaic.ValueIdx

/-! ## (1) Arrays of real numbers -/

/-- Every entry of the extended-real array `v` is a real number (equivalently: none is ⊤ or ⊥). -/
def IsReal {ι : Type*} (v : ι → EReal) : Prop := ∀ i, ∃ r : ℝ, v i = (r : EReal)

/-- The coercion ℝ → EReal commutes with finite sums. -/
theorem coe_finset_sum {κ : Type*} (s : Finset κ) (f : κ → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The coercion ℝ → EReal commutes with `if … then … else 0`. -/
theorem coe_ite_zero (p : Prop) [Decidable p] (a : ℝ) :
    (((if p then a else 0 : ℝ)) : EReal) = if p then (a : EReal) else 0 := by
  split_ifs <;> simp

/-- The coercion ℝ → EReal commutes with `max`. -/
theorem coe_max (x y : ℝ) : ((max x y : ℝ) : EReal) = max (x : EReal) (y : EReal) :=
  Monotone.map_max EReal.coe_strictMono.monotone

/-- A real array is the coercion of an array of reals. -/
theorem IsReal.lift {ι : Type*} {v : ι → EReal} (h : IsReal v) : ∃ v' : ι → ℝ, v = fun i => ((v' i : ℝ) : EReal) := by
  choose v' hv using h
  exact ⟨v', funext hv⟩

/-- The coercion of an array of reals is a real array. -/
theorem isReal_coe {ι : Type*} (v : ι → ℝ) : IsReal (fun i => ((v i : ℝ) : EReal)) := fun i => ⟨v i, rfl⟩

/-- A constant array with a real value is real. -/
theorem isReal_const {ι : Type*} (r : ℝ) : IsReal (fun _ : ι => (r : EReal)) := fun _ => ⟨r, rfl⟩

/-- A constant array whose value is known to be real is real. -/
theorem isReal_const' {ι : Type*} {c : EReal} (h : ∃ r : ℝ, c = (r : EReal)) : IsReal (fun _ : ι => c) := fun _ => h

/-- Re-indexing (by any map) keeps an array real. -/
theorem IsReal.comp {ι κ : Type*} {v : ι → EReal} (h : IsReal v) (g : κ → ι) : IsReal (fun i => v (g i)) :=
  fun i => h (g i)

/-- A pointwise sum of real arrays is real. -/
theorem IsReal.add {ι : Type*} {a b : ι → EReal} (ha : IsReal a) (hb : IsReal b) : IsReal (fun i => a i + b i) := fun i => by
  obtain ⟨x, hx⟩ := ha i; obtain ⟨y, hy⟩ := hb i
  exact ⟨x + y, by show a i + b i = _; rw [hx, hy, EReal.coe_add]⟩

/-- A pointwise difference of real arrays is real. -/
theorem IsReal.sub {ι : Type*} {a b : ι → EReal} (ha : IsReal a) (hb : IsReal b) : IsReal (fun i => a i - b i) := fun i => by
  obtain ⟨x, hx⟩ := ha i; obtain ⟨y, hy⟩ := hb i
  exact ⟨x - y, by show a i - b i = _; rw [hx, hy, EReal.coe_sub]⟩

/-- A pointwise product of real arrays is real. -/
theorem IsReal.mul {ι : Type*} {a b : ι → EReal} (ha : IsReal a) (hb : IsReal b) : IsReal (fun i => a i * b i) := fun i => by
  obtain ⟨x, hx⟩ := ha i; obtain ⟨y, hy⟩ := hb i
  exact ⟨x * y, by show a i * b i = _; rw [hx, hy, EReal.coe_mul]⟩

/-- The pointwise negation of a real array is real. -/
theorem IsReal.neg {ι : Type*} {a : ι → EReal} (ha : IsReal a) : IsReal (fun i => - a i) := fun i => by
  obtain ⟨x, hx⟩ := ha i
  exact ⟨-x, by show - a i = _; rw [hx, EReal.coe_neg]⟩

/-- A pointwise maximum of real arrays is real. -/
theorem IsReal.max {ι : Type*} {a b : ι → EReal} (ha : IsReal a) (hb : IsReal b) : IsReal (fun i => max (a i) (b i)) := fun i => by
  obtain ⟨x, hx⟩ := ha i; obtain ⟨y, hy⟩ := hb i
  exact ⟨Max.max x y, by show Max.max (a i) (b i) = _; rw [hx, hy, coe_max]⟩

/-- A finite sum of real entries is real; only the summands over `s` need be real. -/
theorem isReal_sum' {ι κ : Type*} (s : Finset κ) (f : ι → κ → EReal) (h : ∀ i, ∀ k ∈ s, ∃ r : ℝ, f i k = (r : EReal)) :
    IsReal (fun i => ∑ k ∈ s, f i k) := by
  classical
  intro i
  show ∃ r : ℝ, ∑ k ∈ s, f i k = (r : EReal)
  induction s using Finset.induction_on with
  | empty => exact ⟨0, by simp⟩
  | insert a s ha ih =>
    obtain ⟨x, hx⟩ := h i a (Finset.mem_insert_self a s)
    obtain ⟨y, hy⟩ := ih (fun i k hk => h i k (Finset.mem_insert_of_mem hk))
    exact ⟨x + y, by rw [Finset.sum_insert ha, hx, hy, EReal.coe_add]⟩

/-- A finite sum of real entries is real. -/
theorem isReal_sum {ι κ : Type*} (s : Finset κ) (f : ι → κ → EReal) (h : ∀ i k, ∃ r : ℝ, f i k = (r : EReal)) :
    IsReal (fun i => ∑ k ∈ s, f i k) :=
  isReal_sum' s f (fun i k _ => h i k)

/-- A finite sum of `if p then (a real entry) else 0` is real. -/
theorem isReal_sum_ite {ι κ : Type*} (s : Finset κ) (p : ι → κ → Prop) [∀ i k, Decidable (p i k)] (f : ι → κ → EReal)
    (h : ∀ i k, ∃ r : ℝ, f i k = (r : EReal)) : IsReal (fun i => ∑ k ∈ s, if p i k then f i k else 0) :=
  isReal_sum s _ (fun i k => by
    split_ifs
    · exact h i k
    · exact ⟨0, rfl⟩)

/-! ## (2) Propagation along edges and the matrix product, as sums -/

section Operators
variable {N C E A B : Nat}

/-- Node-axis propagation: entry `(n, c)` of the result adds `nu e * Y (g e, c)` over the edges `e` that land on node `n`.
    `row e` is the node edge `e` lands on (`none`: the edge is dropped), `g e` the node it reads from, `nu e` its weight. -/
def prop (row : Fin E → Option (Fin N)) (g : Fin E → Fin N) (nu : Fin E → EReal)
    (Y : (⟨2, ![N, C]⟩ : Shape).Idx → EReal) : (⟨2, ![N, C]⟩ : Shape).Idx → EReal :=
  fun i => ∑ e : Fin E, if row e = (some (i 0) : Option (Fin N)) then nu e * Y (ix2 (g e) (i 1)) else 0

/-- The matrix product on the feature axis. -/
def mm (X : (⟨2, ![N, A]⟩ : Shape).Idx → EReal) (W : (⟨2, ![A, B]⟩ : Shape).Idx → EReal) :
    (⟨2, ![N, B]⟩ : Shape).Idx → EReal :=
  fun i => ∑ k : Fin A, X (ix2 (i 0) k) * W (ix2 k (i 1))

/-- Propagation over ℝ. -/
def propR (row : Fin E → Option (Fin N)) (g : Fin E → Fin N) (nu : Fin E → ℝ)
    (Y : (⟨2, ![N, C]⟩ : Shape).Idx → ℝ) : (⟨2, ![N, C]⟩ : Shape).Idx → ℝ :=
  fun i => ∑ e : Fin E, if row e = (some (i 0) : Option (Fin N)) then nu e * Y (ix2 (g e) (i 1)) else 0

/-- The matrix product over ℝ. -/
def mmR (X : (⟨2, ![N, A]⟩ : Shape).Idx → ℝ) (W : (⟨2, ![A, B]⟩ : Shape).Idx → ℝ) :
    (⟨2, ![N, B]⟩ : Shape).Idx → ℝ :=
  fun i => ∑ k : Fin A, X (ix2 (i 0) k) * W (ix2 k (i 1))

/-- Propagation of coerced real data is the coercion of the real propagation. -/
theorem prop_coe (row : Fin E → Option (Fin N)) (g : Fin E → Fin N) (nu : Fin E → ℝ)
    (Y : (⟨2, ![N, C]⟩ : Shape).Idx → ℝ) :
    prop row g (fun e => ((nu e : ℝ) : EReal)) (fun j => ((Y j : ℝ) : EReal)) = fun i => ((propR row g nu Y i : ℝ) : EReal) := by
  funext i
  show (∑ e : Fin E, if row e = (some (i 0) : Option (Fin N)) then ((nu e : ℝ) : EReal) * ((Y (ix2 (g e) (i 1)) : ℝ) : EReal) else 0)
    = ((∑ e : Fin E, if row e = (some (i 0) : Option (Fin N)) then nu e * Y (ix2 (g e) (i 1)) else 0 : ℝ) : EReal)
  rw [coe_finset_sum]
  refine Finset.sum_congr rfl (fun e _ => ?_)
  rw [coe_ite_zero, EReal.coe_mul]

/-- The product of coerced real matrices is the coercion of the real product. -/
theorem mm_coe (X : (⟨2, ![N, A]⟩ : Shape).Idx → ℝ) (W : (⟨2, ![A, B]⟩ : Shape).Idx → ℝ) :
    mm (fun j => ((X j : ℝ) : EReal)) (fun j => ((W j : ℝ) : EReal)) = fun i => ((mmR X W i : ℝ) : EReal) := by
  funext i
  show (∑ k : Fin A, ((X (ix2 (i 0) k) : ℝ) : EReal) * ((W (ix2 k (i 1)) : ℝ) : EReal))
    = ((∑ k : Fin A, X (ix2 (i 0) k) * W (ix2 k (i 1)) : ℝ) : EReal)
  rw [coe_finset_sum]
  refine Finset.sum_congr rfl (fun k _ => ?_)
  rw [EReal.coe_mul]

/-- Propagating real data along real weights gives a real array. -/
theorem isReal_prop (row : Fin E → Option (Fin N)) (g : Fin E → Fin N) {nu : Fin E → EReal}
    {Y : (⟨2, ![N, C]⟩ : Shape).Idx → EReal} (hnu : IsReal nu) (hY : IsReal Y) : IsReal (prop row g nu Y) := by
  obtain ⟨nu', rfl⟩ := hnu.lift
  obtain ⟨Y', rfl⟩ := hY.lift
  rw [prop_coe]
  exact isReal_coe _

/-- The product of real matrices is real. -/
theorem isReal_mm {X : (⟨2, ![N, A]⟩ : Shape).Idx → EReal} {W : (⟨2, ![A, B]⟩ : Shape).Idx → EReal}
    (hX : IsReal X) (hW : IsReal W) : IsReal (mm X W) := by
  obtain ⟨X', rfl⟩ := hX.lift
  obtain ⟨W', rfl⟩ := hW.lift
  rw [mm_coe]
  exact isReal_coe _

/-! ## (3) Propagation commutes with the matrix product -/

/-- Over ℝ: propagating a product along the node axis is the product of the propagated left factor. -/
theorem propR_mmR (row : Fin E → Option (Fin N)) (g : Fin E → Fin N) (nu : Fin E → ℝ)
    (X : (⟨2, ![N, A]⟩ : Shape).Idx → ℝ) (W : (⟨2, ![A, B]⟩ : Shape).Idx → ℝ) :
    propR row g nu (mmR X W) = mmR (propR row g nu X) W := by
  funext i
  show (∑ e : Fin E, if row e = (some (i 0) : Option (Fin N)) then nu e * ∑ k : Fin A, X (ix2 (g e) k) * W (ix2 k (i 1)) else 0)
    = ∑ k : Fin A, (∑ e : Fin E, if row e = (some (i 0) : Option (Fin N)) then nu e * X (ix2 (g e) k) else 0) * W (ix2 k (i 1))
  simp only [Finset.sum_mul]
  rw [Finset.sum_comm]
  refine Finset.sum_congr rfl (fun e _ => ?_)
  by_cases h : row e = (some (i 0) : Option (Fin N))
  · simp only [if_pos h, Finset.mul_sum]
    exact Finset.sum_congr rfl (fun k _ => by ring)
  · simp only [if_neg h, zero_mul, Finset.sum_const_zero]

/-- THE LAW: for real weights and real matrices, propagation along the node axis commutes with a matrix product on
    the feature axis. -/
theorem prop_mm (row : Fin E → Option (Fin N)) (g : Fin E → Fin N) {nu : Fin E → EReal}
    {X : (⟨2, ![N, A]⟩ : Shape).Idx → EReal} {W : (⟨2, ![A, B]⟩ : Shape).Idx → EReal}
    (hnu : IsReal nu) (hX : IsReal X) (hW : IsReal W) :
    prop row g nu (mm X W) = mm (prop row g nu X) W := by
  obtain ⟨nu', rfl⟩ := hnu.lift
  obtain ⟨X', rfl⟩ := hX.lift
  obtain ⟨W', rfl⟩ := hW.lift
  rw [mm_coe, prop_coe, prop_coe, mm_coe, propR_mmR]

/-! ## (4) The degree-2 Chebyshev layer, two ways -/

/-- Over ℝ the matrix product is linear in its left factor: the combination `a * P - X`. -/
theorem mmR_lin (a : ℝ) (P X : (⟨2, ![N, A]⟩ : Shape).Idx → ℝ) (W : (⟨2, ![A, B]⟩ : Shape).Idx → ℝ)
    (i : (⟨2, ![N, B]⟩ : Shape).Idx) :
    mmR (fun j => a * P j - X j) W i = a * mmR P W i - mmR X W i := by
  show (∑ k : Fin A, (a * P (ix2 (i 0) k) - X (ix2 (i 0) k)) * W (ix2 k (i 1)))
    = a * (∑ k : Fin A, P (ix2 (i 0) k) * W (ix2 k (i 1))) - ∑ k : Fin A, X (ix2 (i 0) k) * W (ix2 k (i 1))
  rw [Finset.mul_sum, ← Finset.sum_sub_distrib]
  exact Finset.sum_congr rfl (fun k _ => by ring)

/-- THE LAYER IDENTITY. With `T0 = X`, `T1 = L X`, `T2 = 2 L (L X) - X` (`L` the propagation), the layer
    `T0 W0 + T1 W1 + T2 W2 + b` may be computed product-first: `X W0 + L (X W1) + 2 L (L (X W2)) - X W2 + b`.
    Left side: products first, then propagation; right side: propagation first, then products. All data real;
    `two` is the real number 2. -/
theorem cheb_layer (row : Fin E → Option (Fin N)) (g : Fin E → Fin N) {nu : Fin E → EReal}
    {X : (⟨2, ![N, A]⟩ : Shape).Idx → EReal} {W0 W1 W2 : (⟨2, ![A, B]⟩ : Shape).Idx → EReal}
    {bb : (⟨2, ![N, B]⟩ : Shape).Idx → EReal} {two : EReal}
    (hnu : IsReal nu) (hX : IsReal X) (hW0 : IsReal W0) (hW1 : IsReal W1) (hW2 : IsReal W2) (hbb : IsReal bb)
    (htwo : two = ((2 : ℝ) : EReal)) :
    (fun i => ((((mm X W0 i + prop row g nu (mm X W1) i) + two * prop row g nu (prop row g nu (mm X W2)) i)
        - mm X W2 i) + bb i))
      = fun i => (((mm X W0 i + mm (prop row g nu X) W1 i)
        + mm (fun j => two * prop row g nu (prop row g nu X) j - X j) W2 i) + bb i) := by
  obtain ⟨nu', rfl⟩ := hnu.lift
  obtain ⟨X', rfl⟩ := hX.lift
  obtain ⟨W0', rfl⟩ := hW0.lift
  obtain ⟨W1', rfl⟩ := hW1.lift
  obtain ⟨W2', rfl⟩ := hW2.lift
  obtain ⟨bb', rfl⟩ := hbb.lift
  subst htwo
  -- every operator on coerced real data is the coercion of the real operator
  simp only [mm_coe, prop_coe]
  -- the right side's third left factor is itself a coerced real array
  have h3 : (fun j => ((2 : ℝ) : EReal) * ((propR row g nu' (propR row g nu' X') j : ℝ) : EReal) - ((X' j : ℝ) : EReal))
      = fun j => ((2 * propR row g nu' (propR row g nu' X') j - X' j : ℝ) : EReal) := by
    funext j
    rw [EReal.coe_sub, EReal.coe_mul]
  rw [h3, mm_coe]
  funext i
  simp only [← EReal.coe_mul, ← EReal.coe_add, ← EReal.coe_sub]
  rw [EReal.coe_eq_coe_iff]
  -- in ℝ: commute propagation with the products, then linearity
  simp only [propR_mmR, mmR_lin]
  ring

end Operators

end ChebAlgebra

end
-- ==== Proof.LibHostForms.lean ====
/-
  Host operations read as WHOLE-ARRAY equations at the ideal values, for arrays of any sizes: a plain matrix
  product `[N, A] × [A, B]` written as a `dot_general` is the sum over the inner coordinate; a slice `W[κ]` of a stack
  of matrices; a bias row broadcast over the rows of a matrix; a broadcast scalar constant; and the pointwise arithmetic.
-/
import Idealize.ShloMosaic.Lib.ValueIdx
import Idealize.ShloMosaic.Lib.Pipeline.Value
import Idealize.ShloMosaic.Lib.ValueLayout
import Idealize.ShloMosaic.PureOps.Ideal.Laws
import proofs.«121282_j23184233464436_1_alg».proof.Proof.LibChebAlgebra

noncomputable section

open scoped BigOperators

namespace HostForms

open Idealize.ShloMosaic Idealize.ShloMosaic.ValueIdx

variable {N A B : Nat}

/-! ## (L1) A plain `dot_general` is the matrix-product sum -/

/-- The dimension numbers of a plain product `[N, A] × [A, B] → [N, B]`: the left operand's axis 1 is contracted with the
    right operand's axis 0; no batch axes. -/
abbrev plainDotDims (N A B : Nat)
    (wf : DotDims.WF ⟨2, ![N, A]⟩ ⟨2, ![A, B]⟩ ⟨2, ![N, B]⟩ [1] [0] [0] [1] [] []) :
    DotDims ⟨2, ![N, A]⟩ ⟨2, ![A, B]⟩ ⟨2, ![N, B]⟩ where
  lhsContracting := [1]
  rhsContracting := [0]
  lhsNonContracting := [0]
  rhsNonContracting := [1]
  lhsBatch := []
  rhsBatch := []
  wf := wf

section DotLiteral
variable (wf : DotDims.WF ⟨2, ![N, A]⟩ ⟨2, ![A, B]⟩ ⟨2, ![N, B]⟩ [1] [0] [0] [1] [] [])

/-- The left operand's row coordinate is the output's row. -/
theorem lhs_row (i : (⟨2, ![N, B]⟩ : Shape).Idx) (q : (plainDotDims N A B wf).contr.Idx) :
    ((plainDotDims N A B wf).lhsIdx i q 0).val = (i 0).val := by
  unfold DotDims.lhsIdx
  rw [dif_neg (show (0 : Fin 2) ∉ (plainDotDims N A B wf).lhsBatch from List.not_mem_nil),
    dif_pos (show (0 : Fin 2) ∈ (plainDotDims N A B wf).lhsNonContracting from List.mem_singleton.mpr rfl)]
  rfl

/-- The right operand's column coordinate is the output's column. -/
theorem rhs_col (i : (⟨2, ![N, B]⟩ : Shape).Idx) (q : (plainDotDims N A B wf).contr.Idx) :
    ((plainDotDims N A B wf).rhsIdx i q 1).val = (i 1).val := by
  unfold DotDims.rhsIdx
  rw [dif_neg (show (1 : Fin 2) ∉ (plainDotDims N A B wf).rhsBatch from List.not_mem_nil),
    dif_pos (show (1 : Fin 2) ∈ (plainDotDims N A B wf).rhsNonContracting from List.mem_singleton.mpr rfl)]
  rfl

/-- THE PRODUCT AT ROW `r`, COLUMN `f`, for the literal dimension numbers: the sum over the inner coordinate. -/
theorem dotGeneral_plainDims_apply {φ₁ φ₂ : FTy} (prec : Option ContractPrecision) (X : FVec Ideal ⟨2, ![N, A]⟩ φ₁)
    (W : FVec Ideal ⟨2, ![A, B]⟩ φ₂) (r : Fin N) (f : Fin B) :
    Host.dotGeneral (F := Ideal) (plainDotDims N A B wf) prec X W (ix2 r f) = ∑ k : Fin A, X (ix2 r k) * W (ix2 k f) := by
  show FloatOps.dotGeneral (plainDotDims N A B wf) prec .single X W (ix2 r f) = _
  rw [Ideal.dotGeneral_apply, ← Equiv.sum_comp (contrEquiv1 (plainDotDims N A B wf) A rfl rfl).symm]
  refine Finset.sum_congr rfl fun k _ => ?_
  have hk := contrEquiv1_symm_val (plainDotDims N A B wf) A rfl rfl k
  have el : (plainDotDims N A B wf).lhsIdx (ix2 r f) ((contrEquiv1 (plainDotDims N A B wf) A rfl rfl).symm k) = ix2 r k :=
    funext fun a => Fin.ext (by
      match a with
      | ⟨0, _⟩ => exact lhs_row wf _ _
      | ⟨1, _⟩ => exact (DotDims.lhsIdx_val_of_single (plainDotDims N A B wf) rfl _ _).trans hk)
  have er : (plainDotDims N A B wf).rhsIdx (ix2 r f) ((contrEquiv1 (plainDotDims N A B wf) A rfl rfl).symm k) = ix2 k f :=
    funext fun a => Fin.ext (by
      match a with
      | ⟨0, _⟩ => exact (DotDims.rhsIdx_val_of_single (plainDotDims N A B wf) rfl _ _).trans hk
      | ⟨1, _⟩ => exact rhs_col wf _ _)
  rw [el, er]

/-- The whole product, for the literal dimension numbers. -/
theorem dotGeneral_plainDims {φ₁ φ₂ : FTy} (prec : Option ContractPrecision) (X : FVec Ideal ⟨2, ![N, A]⟩ φ₁)
    (W : FVec Ideal ⟨2, ![A, B]⟩ φ₂) :
    Host.dotGeneral (F := Ideal) (plainDotDims N A B wf) prec X W
      = fun i => ∑ k : Fin A, X (ix2 (i 0) k) * W (ix2 k (i 1)) := by
  funext i
  obtain ⟨r, f, rfl⟩ : ∃ (r : Fin N) (f : Fin B), i = ix2 r f := ⟨i 0, i 1, eq_ix2 i⟩
  exact dotGeneral_plainDims_apply wf prec X W r f

end DotLiteral

/-- THE WHOLE PRODUCT, for ANY dimension numbers with the plain product's fields (a record given by its fields: the six
    hypotheses then hold by `rfl`): entry `(r, f)` is the sum over the inner coordinate `k` of `X (r, k) * W (k, f)`. -/
theorem dotGeneral_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = fun i => ∑ k : Fin A, X (ix2 (i 0) k) * W (ix2 k (i 1)) := by
  obtain ⟨lc, rc, ln, rn, lb, rb, wf⟩ := d
  simp only at h1 h2 h3 h4 h5 h6
  subst h1 h2 h3 h4 h5 h6
  exact dotGeneral_plainDims wf prec X W

/-- The same at row `r`, column `f`. -/
theorem dotGeneral_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (r : Fin N) (f : Fin B) :
    Host.dotGeneral (F := Ideal) d prec X W (ix2 r f) = ∑ k : Fin A, X (ix2 r k) * W (ix2 k f) :=
  congrFun (dotGeneral_mm d h1 h2 h3 h4 h5 h6 prec X W) (ix2 r f)

/-- The whole product as the matrix-product operator `ChebAlgebra.mm`. -/
theorem dotGeneral_eq_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = ChebAlgebra.mm X W :=
  dotGeneral_mm d h1 h2 h3 h4 h5 h6 prec X W

/-! ## (L2) One matrix of a stack: `W[κ]` -/

section Stack
variable {α : Type} {K : Nat}

/-- Slice `κ` of a stack `[K, A, B]` of matrices, cut out as `[1, A, B]` and viewed as `[A, B]`, is the matrix
    `(a, b) ↦ W (κ, a, b)`. -/
theorem slice_stack (κ : Fin K) (W : (⟨3, ![K, A, B]⟩ : Shape).Idx → α)
    (hs : (⟨3, ![K, A, B]⟩ : Shape).Slices ![κ.val, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![κ.val, 0, 0] W hs) hc
      = fun j => W (ix3 κ (j 0) (j 1)) := by
  funext j
  obtain ⟨a, b, rfl⟩ : ∃ (a : Fin A) (b : Fin B), j = ix2 a b := ⟨j 0, j 1, eq_ix2 j⟩
  rw [shapeCast_1ab_ab_apply]
  refine extractStridedSlice_apply _ W hs _ (ix3 κ a b) (fun c => ?_)
  match c with
  | ⟨0, _⟩ => show κ.val = κ.val + 0; rfl
  | ⟨1, _⟩ => show a.val = 0 + a.val; exact (Nat.zero_add _).symm
  | ⟨2, _⟩ => show b.val = 0 + b.val; exact (Nat.zero_add _).symm

/-- The first matrix of a stack of three. -/
theorem slice_stack3_0 (W : (⟨3, ![3, A, B]⟩ : Shape).Idx → α)
    (hs : (⟨3, ![3, A, B]⟩ : Shape).Slices ![0, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![0, 0, 0] W hs) hc
      = fun j => W (ix3 (0 : Fin 3) (j 0) (j 1)) :=
  slice_stack (0 : Fin 3) W hs hc

/-- The second matrix of a stack of three. -/
theorem slice_stack3_1 (W : (⟨3, ![3, A, B]⟩ : Shape).Idx → α)
    (hs : (⟨3, ![3, A, B]⟩ : Shape).Slices ![1, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![1, 0, 0] W hs) hc
      = fun j => W (ix3 (1 : Fin 3) (j 0) (j 1)) :=
  slice_stack (1 : Fin 3) W hs hc

/-- The third matrix of a stack of three. -/
theorem slice_stack3_2 (W : (⟨3, ![3, A, B]⟩ : Shape).Idx → α)
    (hs : (⟨3, ![3, A, B]⟩ : Shape).Slices ![2, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![2, 0, 0] W hs) hc
      = fun j => W (ix3 (2 : Fin 3) (j 0) (j 1)) :=
  slice_stack (2 : Fin 3) W hs hc

end Stack

/-! ## (L3) A bias row broadcast over the rows of a matrix -/

section Bias
variable {α : Type}

/-- A vector `[B]` made a row `[1, B]` by a broadcast, read at `(0, f)`. -/
theorem bcast_row_apply (b : (⟨1, ![B]⟩ : Shape).Idx → α)
    (h1 : (⟨1, ![B]⟩ : Shape).BroadcastsInDim ⟨2, ![1, B]⟩ ![1]) (u : Fin 1) (f : Fin B) :
    broadcastInDim ⟨2, ![1, B]⟩ ![1] h1 b (ix2 u f) = b (ix1 f) := by
  refine broadcastInDim_apply _ h1 b _ (ix1 f) (fun c => ?_)
  match c with
  | ⟨0, _⟩ =>
    show f.val = if B = 1 then 0 else f.val
    split_ifs with hB
    · have := f.isLt; omega
    · rfl

/-- A row `[1, B]` repeated down the `N` rows of a matrix, read at `(n, f)`. -/
theorem bcast_rows_apply (v : (⟨2, ![1, B]⟩ : Shape).Idx → α)
    (h2 : (⟨2, ![1, B]⟩ : Shape).BroadcastsInDim ⟨2, ![N, B]⟩ ![0, 1]) (n : Fin N) (f : Fin B) :
    broadcastInDim ⟨2, ![N, B]⟩ ![0, 1] h2 v (ix2 n f) = v (ix2 (0 : Fin 1) f) := by
  refine broadcastInDim_apply _ h2 v _ (ix2 (0 : Fin 1) f) (fun c => ?_)
  match c with
  | ⟨0, _⟩ =>
    show (0 : ℕ) = if (1 : ℕ) = 1 then 0 else n.val
    rw [if_pos rfl]
  | ⟨1, _⟩ =>
    show f.val = if B = 1 then 0 else f.val
    split_ifs with hB
    · have := f.isLt; omega
    · rfl

/-- (a) THE BIAS, two broadcasts: a vector `[B]` made a row and repeated down the rows is `(n, f) ↦ b f`. -/
theorem bias_bcast_bcast (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) :
    broadcastInDim ⟨2, ![N, B]⟩ ![0, 1] h2 (broadcastInDim ⟨2, ![1, B]⟩ ![1] h1 b) = fun i => b (ix1 (i 1)) := by
  funext i
  obtain ⟨n, f, rfl⟩ : ∃ (n : Fin N) (f : Fin B), i = ix2 n f := ⟨i 0, i 1, eq_ix2 i⟩
  rw [bcast_rows_apply, bcast_row_apply]
  rfl

/-- (b) THE BIAS, a shape cast then a broadcast: a vector `[B]` viewed as a row and repeated down the rows is
    `(n, f) ↦ b f`. -/
theorem bias_cast_bcast (b : (⟨1, ![B]⟩ : Shape).Idx → α)
    (hc : (⟨1, ![B]⟩ : Shape).ShapeCasts ⟨2, ![1, B]⟩)
    (h2 : (⟨2, ![1, B]⟩ : Shape).BroadcastsInDim ⟨2, ![N, B]⟩ ![0, 1]) :
    broadcastInDim ⟨2, ![N, B]⟩ ![0, 1] h2 (shapeCast ⟨2, ![1, B]⟩ b hc) = fun i => b (ix1 (i 1)) := by
  funext i
  obtain ⟨n, f, rfl⟩ : ∃ (n : Fin N) (f : Fin B), i = ix2 n f := ⟨i 0, i 1, eq_ix2 i⟩
  rw [bcast_rows_apply, shapeCast_a_1a_apply]
  rfl

/-- (c) A vector `[B]` viewed as a row, read at `(0, f)`. -/
theorem cast_row_apply (b : (⟨1, ![B]⟩ : Shape).Idx → α) (hc : (⟨1, ![B]⟩ : Shape).ShapeCasts ⟨2, ![1, B]⟩)
    (f : Fin B) : (shapeCast ⟨2, ![1, B]⟩ b hc) (ix2 (0 : Fin 1) f) = b (ix1 f) :=
  shapeCast_a_1a_apply b hc 0 f

end Bias

/-! ## (L4) A broadcast scalar -/

/-- A scalar array broadcast to any shape is constant. -/
theorem bcast_scalar {α : Type} (s : Shape) (c : (⟨0, ![]⟩ : Shape).Idx → α)
    (h : (⟨0, ![]⟩ : Shape).BroadcastsInDim s ![]) : broadcastInDim s ![] h c = fun _ => c ix0 := by
  funext j
  exact broadcastInDim_apply _ h c j ix0 (fun a => a.elim0)

/-- A scalar float constant broadcast to any shape is the extended real its word encodes, everywhere. -/
theorem bcast_constant {φ : FTy} (s : Shape) (w : BitVec φ.bits) (h : (⟨0, ![]⟩ : Shape).BroadcastsInDim s ![]) :
    broadcastInDim s ![] h (constant (F := Ideal) ⟨0, ![]⟩ φ w) = fun _ => Ideal.ofBits φ w := by
  rw [bcast_scalar]
  rfl

/-- The `f32` word `0x40000000` is the real number 2. -/
theorem ofBits_two_f32 : Ideal.ofBits .f32 0x40000000#32 = ((2 : ℝ) : EReal) := by
  simp [Ideal.ofBits, Ideal.ieee]
  norm_cast
  norm_num

/-! ## (L5) Pointwise arithmetic on whole arrays -/

section Pointwise
variable {s : Shape} {φ : FTy}

/-- A sum of arrays is the pointwise sum. -/
theorem addf_fun (a b : FVec Ideal s φ) : addf a b = fun i => a i + b i := rfl
/-- A difference of arrays is the pointwise difference. -/
theorem subf_fun (a b : FVec Ideal s φ) : subf a b = fun i => a i - b i := rfl
/-- A product of arrays is the pointwise product. -/
theorem mulf_fun (a b : FVec Ideal s φ) : mulf a b = fun i => a i * b i := rfl
/-- A maximum of arrays is the pointwise maximum. -/
theorem maximumf_fun (a b : FVec Ideal s φ) : maximumf a b = fun i => max (a i) (b i) := rfl
/-- A negated array is the pointwise negation. -/
theorem negf_fun (a : FVec Ideal s φ) : negf a = fun i => - a i := rfl
/-- A narrowing change of float format is the identity on extended reals. -/
theorem truncf_fun {ψ : FTy} (a : FVec Ideal s φ) (h : ψ.bits < φ.bits) : (truncf ψ a h : FVec Ideal s ψ) = a := rfl
/-- A widening change of float format is the identity on extended reals. -/
theorem extf_fun {ψ : FTy} (a : FVec Ideal s φ) (h : φ.bits < ψ.bits) : (extf ψ a h : FVec Ideal s ψ) = a := rfl

end Pointwise

end HostForms

end
-- ==== Proof.LibMatmulForms.lean ====
/-
  A kernel matrix product `[N, A] × [A, B]` accumulated into `acc`, at the ideal instance, read at row `r` and column
  `f`: the accumulator's entry plus the sum over the inner coordinate `k` of `X (r, k) · W (k, f)` — for any dimension
  numbers whose fields are the plain product's (contract the left operand's axis 1 with the right operand's axis 0,
  no batch axes). The host's `dot_general` with the same dimension numbers is the same sum without the accumulator, so
  the statement is read off that one.
-/
import proofs.«121282_j23184233464436_1_alg».proof.Proof.LibHostForms

noncomputable section

open scoped BigOperators

namespace MatmulForms

open Idealize.ShloMosaic Idealize.ShloMosaic.ValueIdx

variable {N A B : Nat}

/-- The kernel's product at `(r, f)`: the accumulator there plus the inner sum. -/
theorem matmul_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (acc : FVec Ideal ⟨2, ![N, B]⟩ .f32) (r : Fin N) (f : Fin B) :
    FloatOps.matmul d prec X W acc (ix2 r f) = acc (ix2 r f) + ∑ k : Fin A, X (ix2 r k) * W (ix2 k f) := by
  have e := HostForms.dotGeneral_mm_apply d h1 h2 h3 h4 h5 h6 prec X W r f
  rw [show Host.dotGeneral (F := Ideal) d prec X W (ix2 r f) = FloatOps.dotGeneral d prec .single X W (ix2 r f) from rfl,
    Ideal.dotGeneral_apply] at e
  rw [Ideal.matmul_apply, e]

/-- Into the zero accumulator: the inner sum alone. -/
theorem matmul_zero_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) (r : Fin N) (f : Fin B) :
    FloatOps.matmul d prec X W (constant ⟨2, ![N, B]⟩ .f32 0x00000000#32) (ix2 r f) = ∑ k : Fin A, X (ix2 r k) * W (ix2 k f) := by
  rw [matmul_mm_apply d h1 h2 h3 h4 h5 h6]
  show Ideal.ofBits .f32 0x00000000#32 + _ = _
  rw [Ideal.ofBits_zero_f32, zero_add]

end MatmulForms

end
-- ==== Proof.Region0.lean ====
/-
  Region 0: the first matrix product.

  The grid has ten points over the rows. At point t the body reads rows 10000·t … 10000·t + 9999 of the [100000, 128]
  array X and the whole [128, 128] array W, and leaves in the output block the product of the two: entry (p, q) of the
  block is the sum over k of X (10000·t + p, k) · W (k, q). That is entry (10000·t + p, q) of the matrix product X·W,
  so each point writes back its own rows of X·W; the ten blocks tile the rows, and the output array ends holding X·W.
-/
import proofs.«121282_j23184233464436_1_alg».proof.Proof.Gen.KernelIdeal.Frame
import proofs.«121282_j23184233464436_1_alg».proof.Proof.Spec
import proofs.«121282_j23184233464436_1_alg».proof.Proof.LibMatmulForms
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen

variable (V : (c : Dev nD) → (b : Ref sig .tc) → Buf (Elt Ideal) ((c : Thread nD τ).loc b))

/-- The corner of an access to a whole buffer is the origin. -/
theorem corner_zero : (![0, 0] : Fin 2 → Nat) = fun _ => 0 := funext fun a => by fin_cases a <;> rfl

/-- The body's product at (p, q): row p of the first operand against column q of the second. -/
theorem product_apply (x0 : Vec Ideal S10000x128 .f32) (x1 : Vec Ideal S128x128 .f32) (p : Fin 10000) (q : Fin 128) :
    Gen.k0_pay1 (F := Ideal) x0 x1 (ix2 p q) = ∑ k : Fin 128, x0 (ix2 p k) * x1 (ix2 k q) := by
  unfold Gen.k0_pay1
  exact MatmulForms.matmul_zero_mm_apply dot_S10000x128_S128x128_S10000x128_1_0_0_1_n_n rfl rfl rfl rfl rfl rfl none _ _ p q

/-- A block whose row (y 0) is row (i 0) of X, against a block that is W, read at an index y of the block and an index i
    of the array in the same column: the body's product at y is entry i of X·W. -/
theorem product_eq_mm (X : FVec Ideal S100000x128 .f32) (W : FVec Ideal S128x128 .f32)
    (x0 : Vec Ideal S10000x128 .f32) (x1 : Vec Ideal S128x128 .f32) (y : S10000x128.Idx) (i : S100000x128.Idx)
    (hrow : ∀ k : Fin 128, x0 (ix2 (y 0) k) = X (ix2 (i 0) k)) (hcol : ∀ k : Fin 128, x1 (ix2 k (y 1)) = W (ix2 k (y 1)))
    (hq : i 1 = y 1) :
    Gen.k0_pay1 (F := Ideal) x0 x1 y = Cert.Spec.mm X W i := by
  obtain ⟨p, q, rfl⟩ : ∃ (p : Fin 10000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hrow' : ∀ k : Fin 128, x0 (ix2 p k) = X (ix2 r k) := hrow
  have hcol' : ∀ k : Fin 128, x1 (ix2 k q) = W (ix2 k q) := hcol
  obtain rfl : q' = q := hq
  rw [product_apply, Cert.Spec.mm_apply]
  exact Finset.sum_congr rfl fun k _ => by rw [hrow' k, hcol' k]

/-- The block index maps over the grid: the row-tiled windows sit at block (t, 0), the weight window at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block at point t, read at (p, k): the array at row 10000·t + p. -/
theorem rows_block_apply (c : Dev nD) (t : Fin cfg0.N) (p : Fin 10000) (k : Fin 128) (r : Fin 100000)
    (hr : r.val = t.val * 10000 + p.val) :
    (Gen.iblk0 V c 0 t : Vec Ideal S10000x128 .f32) (ix2 p k)
      = (V c (Pipeline.arrRef spec0 0) : S100000x128.Idx → EReal) (ix2 r k) := by
  obtain ⟨a00, a01, -⟩ := block_index t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The weight block at any point is the whole weight matrix. -/
theorem weights_block_apply (c : Dev nD) (t : Fin cfg0.N) (k q : Fin 128) :
    (Gen.iblk0 V c 1 t : Vec Ideal S128x128 .f32) (ix2 k q) = (V c (Pipeline.arrRef spec0 1) : S128x128.Idx → EReal) (ix2 k q) := by
  obtain ⟨-, -, a10, a11, -⟩ := block_index t
  show V c (Pipeline.arrRef spec0 1) (((cfg0.win 1).blk t).view.emb (ix2 k q)) = V c (Pipeline.arrRef spec0 1) (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point t writes back is the body's product of the two input blocks at that point. -/
theorem flushed_product (c : Dev nD) (t : Fin cfg0.N) :
    (Gen.dat0 (F := Ideal) V c).flushed 2 t
      = (cfg0.win 2).cut (grid0.coords t) (Gen.k0_pay1 (F := Ideal) (Gen.iblk0 V c 0 t) (Gen.iblk0 V c 1 t)) := by
  show (cfg0.win 2).cut (grid0.coords t) ((Gen.dat0 (F := Ideal) V c).after 2 t) = _
  rw [Gen.after0_2]
  unfold Gen.out0_2
  rw [View.canon_unit_zero corner_zero]
  simp only [View.ld_unit_zero (S := S10000x128) corner_zero, View.ld_unit_zero (S := S128x128) corner_zero]

/-- What point t writes back is block t of X·W: entry j of the output block sits at row 10000·t + (j 0) and column (j 1)
    of the output array. -/
theorem flushed_eq (c : Dev nD) (t : Fin cfg0.N) :
    (Gen.dat0 (F := Ideal) V c).flushed 2 t
      = ((cfg0.win 2).blk t).view.read (Elt Ideal)
          (Cert.Spec.mm (V c (Pipeline.arrRef spec0 0) : S100000x128.Idx → EReal) (V c (Pipeline.arrRef spec0 1) : S128x128.Idx → EReal)) := by
  rw [flushed_product]
  obtain ⟨-, -, -, -, a20, a21⟩ := block_index t
  funext j
  rw [View.read_apply]
  have hrow : ∀ k : Fin 128, (Gen.iblk0 V c 0 t : Vec Ideal S10000x128 .f32) (ix2 ((cfg0.win 2).xinj (grid0.coords t) j (0 : Fin 2)) k)
      = (V c (Pipeline.arrRef spec0 0) : S100000x128.Idx → EReal) (ix2 (((cfg0.win 2).blk t).view.emb j (0 : Fin 2)) k) := fun k => by
    refine rows_block_apply V c t _ k _ ?_
    show win0_2.index t (0 : Fin 2) * 10000 + 1 * (j (0 : Fin 2)).val = t.val * 10000 + (j (0 : Fin 2)).val
    omega
  have hq : ((cfg0.win 2).blk t).view.emb j (1 : Fin 2) = (cfg0.win 2).xinj (grid0.coords t) j (1 : Fin 2) := by
    apply Fin.ext
    show win0_2.index t (1 : Fin 2) * 128 + 1 * (j (1 : Fin 2)).val = (j (1 : Fin 2)).val
    omega
  exact product_eq_mm (V c (Pipeline.arrRef spec0 0)) (V c (Pipeline.arrRef spec0 1))
    (Gen.iblk0 V c 0 t) (Gen.iblk0 V c 1 t)
    ((cfg0.win 2).xinj (grid0.coords t) j) (((cfg0.win 2).blk t).view.emb j)
    hrow (fun k => weights_block_apply V c t k _) hq

/-- An index of the output array is in point t's block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every row is in some point's block: row r is in the block of point r / 10000. -/
theorem rows_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨a00, a01, a10, a11, a20, a21⟩ := block_index t
  have htv : t.val = (i 0).val / 10000 := rfl
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the output array holds the matrix product of the two input arrays as the region found them. -/
theorem final (c : Dev nD) :
    (Gen.dat0 (F := Ideal) V c).arrAt 2 cfg0.N
      = Cert.Spec.mm (V c (Pipeline.arrRef spec0 0) : S100000x128.Idx → EReal) (V c (Pipeline.arrRef spec0 1) : S128x128.Idx → EReal) :=
  (Gen.dat0 (F := Ideal) V c).arrAt_eq_of_cover 2 _ (fun t _ => flushed_eq V c t) rows_covered

end Cert.KernelIdeal.Region0

end
-- ==== Proof.Region1.lean ====
/-
  Region 1: the first dense layer, a bias and positive part followed by a matrix product.

  The grid has ten points over the rows. At point t the body reads rows 10000·t … 10000·t + 9999 of the [100000, 128]
  array Z, the whole [128] bias b and the whole [128, 128] array W. It adds b to every row of the block, takes the
  maximum with zero, and multiplies by W: entry (p, q) of the output block is the sum over k of
  max (Z (10000·t + p, k) + b k) 0 · W (k, q). That is entry (10000·t + p, q) of (positive part of Z + b)·W, so each
  point writes back its own rows of that product; the ten blocks tile the rows, and the output array ends holding it.
-/
import proofs.«121282_j23184233464436_1_alg».proof.Proof.Gen.KernelIdeal.Frame
import proofs.«121282_j23184233464436_1_alg».proof.Proof.Spec
import proofs.«121282_j23184233464436_1_alg».proof.Proof.LibMatmulForms
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Region1

open Cert.KernelIdeal Cert.KernelIdeal.Gen

variable (V : (c : Dev nD) → (b : Ref sig .tc) → Buf (Elt Ideal) ((c : Thread nD τ).loc b))

/-- The corner of an access to a whole rank-2 buffer is the origin. -/
theorem corner_zero : (![0, 0] : Fin 2 → Nat) = fun _ => 0 := funext fun a => by fin_cases a <;> rfl

/-- The corner of an access to a whole rank-1 buffer is the origin. -/
theorem corner_zero_one : (![0] : Fin 1 → Nat) = fun _ => 0 := funext fun a => by fin_cases a; rfl

/-- A [128] vector viewed as a [1, 128] array, read at (0, k): the vector at k. -/
theorem bias_row_apply (x1 : Vec Ideal S128 .f32) (k : Fin 128) :
    shapeCast S1x128 x1 shapeCasts_S128_S1x128 (ix2 (0 : Fin 1) k) = x1 (ix1 k) := by
  refine shapeCast_apply x1 shapeCasts_S128_S1x128 (ix2 (0 : Fin 1) k) (ix1 k) ?_
  rw [Shape.rowMajor_val_one, Shape.rowMajor_val_two]
  show k.val = (0 : Fin 1).val * 128 + k.val
  simp

/-- The bias added to every row and the maximum with zero, at (p, k). -/
theorem activation_apply (x0 : Vec Ideal S10000x128 .f32) (x1 : Vec Ideal S128 .f32) (p : Fin 10000) (k : Fin 128) :
    maximumf (addf (shapeCast S10000x128 x0 shapeCasts_S10000x128_S10000x128)
          (broadcastTo S10000x128 (shapeCast S1x128 x1 shapeCasts_S128_S1x128) broadcasts_S1x128_S10000x128))
        (broadcast S10000x128 (Scalar.ofBits (F := Ideal) .f32 0x00000000#32)) (ix2 p k)
      = max (x0 (ix2 p k) + x1 (ix1 k)) 0 := by
  show max (shapeCast S10000x128 x0 shapeCasts_S10000x128_S10000x128 (ix2 p k)
        + broadcastTo S10000x128 (shapeCast S1x128 x1 shapeCasts_S128_S1x128) broadcasts_S1x128_S10000x128 (ix2 p k))
      (Ideal.ofBits .f32 0x00000000#32) = _
  rw [shapeCast_self, broadcastTo_1b_ab_apply, bias_row_apply, Ideal.ofBits_zero_f32]

/-- The body's product at (p, q): row p of the activated block against column q of the weights. -/
theorem dense_apply (x0 : Vec Ideal S10000x128 .f32) (x1 : Vec Ideal S128 .f32) (x2 : Vec Ideal S128x128 .f32)
    (p : Fin 10000) (q : Fin 128) :
    Gen.k1_pay1 (F := Ideal) x0 x1 x2 (ix2 p q) = ∑ k : Fin 128, max (x0 (ix2 p k) + x1 (ix1 k)) 0 * x2 (ix2 k q) := by
  unfold Gen.k1_pay1
  refine (MatmulForms.matmul_zero_mm_apply dot_S10000x128_S128x128_S10000x128_1_0_0_1_n_n rfl rfl rfl rfl rfl rfl none _ _ p q).trans ?_
  exact Finset.sum_congr rfl fun k _ => congrArg (· * x2 (ix2 k q)) (activation_apply x0 x1 p k)

/-- A block whose row (y 0) is row (i 0) of Z, against the bias b and the weights W, read at an index y of the block
    and an index i of the array in the same column: the body's product at y is entry i of (positive part of Z + b)·W. -/
theorem dense_eq_spec (Z : FVec Ideal S100000x128 .f32) (b : FVec Ideal S128 .f32) (W : FVec Ideal S128x128 .f32)
    (x0 : Vec Ideal S10000x128 .f32) (x1 : Vec Ideal S128 .f32) (x2 : Vec Ideal S128x128 .f32)
    (y : S10000x128.Idx) (i : S100000x128.Idx)
    (hrow : ∀ k : Fin 128, x0 (ix2 (y 0) k) = Z (ix2 (i 0) k)) (hbias : ∀ k : Fin 128, x1 (ix1 k) = b (ix1 k))
    (hcol : ∀ k : Fin 128, x2 (ix2 k (y 1)) = W (ix2 k (y 1))) (hq : i 1 = y 1) :
    Gen.k1_pay1 (F := Ideal) x0 x1 x2 y = Cert.Spec.mm (Cert.Spec.biasRelu Z b) W i := by
  obtain ⟨p, q, rfl⟩ : ∃ (p : Fin 10000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hrow' : ∀ k : Fin 128, x0 (ix2 p k) = Z (ix2 r k) := hrow
  have hcol' : ∀ k : Fin 128, x2 (ix2 k q) = W (ix2 k q) := hcol
  obtain rfl : q' = q := hq
  rw [dense_apply, Cert.Spec.mm_apply]
  exact Finset.sum_congr rfl fun k _ => by rw [Cert.Spec.biasRelu_apply, hrow' k, hbias k, hcol' k]

/-- The block index maps over the grid: the row-tiled windows sit at block (t, 0), the bias and weight windows at the
    first block. -/
theorem block_index : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row block at point t, read at (p, k): the array at row 10000·t + p. -/
theorem rows_block_apply (c : Dev nD) (t : Fin cfg1.N) (p : Fin 10000) (k : Fin 128) (r : Fin 100000)
    (hr : r.val = t.val * 10000 + p.val) :
    (Gen.iblk1 V c 0 t : Vec Ideal S10000x128 .f32) (ix2 p k)
      = (V c (Pipeline.arrRef spec1 0) : S100000x128.Idx → EReal) (ix2 r k) := by
  obtain ⟨a00, a01, -⟩ := block_index t
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 10000 + 1 * p.val = r.val; omega
  | ⟨1, _⟩ => show win1_0.index t (1 : Fin 2) * 128 + 1 * k.val = k.val; omega

/-- The bias block at any point is the whole bias. -/
theorem bias_block_apply (c : Dev nD) (t : Fin cfg1.N) (k : Fin 128) :
    (Gen.iblk1 V c 1 t : Vec Ideal S128 .f32) (ix1 k) = (V c (Pipeline.arrRef spec1 1) : S128.Idx → EReal) (ix1 k) := by
  obtain ⟨-, -, a10, -⟩ := block_index t
  show V c (Pipeline.arrRef spec1 1) (((cfg1.win 1).blk t).view.emb (ix1 k)) = V c (Pipeline.arrRef spec1 1) (ix1 k)
  refine congrArg _ (funext fun a => Fin.ext ?_)
  match a with
  | ⟨0, _⟩ => show win1_1.index t (0 : Fin 1) * 128 + 1 * k.val = k.val; omega

/-- The weight block at any point is the whole weight matrix. -/
theorem weights_block_apply (c : Dev nD) (t : Fin cfg1.N) (k q : Fin 128) :
    (Gen.iblk1 V c 2 t : Vec Ideal S128x128 .f32) (ix2 k q) = (V c (Pipeline.arrRef spec1 2) : S128x128.Idx → EReal) (ix2 k q) := by
  obtain ⟨-, -, -, a20, a21, -⟩ := block_index t
  show V c (Pipeline.arrRef spec1 2) (((cfg1.win 2).blk t).view.emb (ix2 k q)) = V c (Pipeline.arrRef spec1 2) (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- What point t writes back is the body's product of the three input blocks at that point. -/
theorem flushed_product (c : Dev nD) (t : Fin cfg1.N) :
    (Gen.dat1 (F := Ideal) V c).flushed 3 t
      = (cfg1.win 3).cut (grid1.coords t)
          (Gen.k1_pay1 (F := Ideal) (Gen.iblk1 V c 0 t) (Gen.iblk1 V c 1 t) (Gen.iblk1 V c 2 t)) := by
  show (cfg1.win 3).cut (grid1.coords t) ((Gen.dat1 (F := Ideal) V c).after 3 t) = _
  rw [Gen.after1_3]
  unfold Gen.out1_3
  rw [View.canon_unit_zero corner_zero]
  simp only [View.ld_unit_zero (S := S10000x128) corner_zero, View.ld_unit_zero (S := S128x128) corner_zero,
    View.ld_unit_zero (S := S128) corner_zero_one]

/-- What point t writes back is block t of (positive part of Z + b)·W: entry j of the output block sits at row
    10000·t + (j 0) and column (j 1) of the output array. -/
theorem flushed_eq (c : Dev nD) (t : Fin cfg1.N) :
    (Gen.dat1 (F := Ideal) V c).flushed 3 t
      = ((cfg1.win 3).blk t).view.read (Elt Ideal)
          (Cert.Spec.mm (Cert.Spec.biasRelu (V c (Pipeline.arrRef spec1 0) : S100000x128.Idx → EReal) (V c (Pipeline.arrRef spec1 1) : S128.Idx → EReal))
            (V c (Pipeline.arrRef spec1 2) : S128x128.Idx → EReal)) := by
  rw [flushed_product]
  obtain ⟨-, -, -, -, -, a30, a31⟩ := block_index t
  funext j
  rw [View.read_apply]
  have hrow : ∀ k : Fin 128, (Gen.iblk1 V c 0 t : Vec Ideal S10000x128 .f32) (ix2 ((cfg1.win 3).xinj (grid1.coords t) j (0 : Fin 2)) k)
      = (V c (Pipeline.arrRef spec1 0) : S100000x128.Idx → EReal) (ix2 (((cfg1.win 3).blk t).view.emb j (0 : Fin 2)) k) := fun k => by
    refine rows_block_apply V c t _ k _ ?_
    show win1_3.index t (0 : Fin 2) * 10000 + 1 * (j (0 : Fin 2)).val = t.val * 10000 + (j (0 : Fin 2)).val
    omega
  have hq : ((cfg1.win 3).blk t).view.emb j (1 : Fin 2) = (cfg1.win 3).xinj (grid1.coords t) j (1 : Fin 2) := by
    apply Fin.ext
    show win1_3.index t (1 : Fin 2) * 128 + 1 * (j (1 : Fin 2)).val = (j (1 : Fin 2)).val
    omega
  exact dense_eq_spec (V c (Pipeline.arrRef spec1 0)) (V c (Pipeline.arrRef spec1 1)) (V c (Pipeline.arrRef spec1 2))
    (Gen.iblk1 V c 0 t) (Gen.iblk1 V c 1 t) (Gen.iblk1 V c 2 t)
    ((cfg1.win 3).xinj (grid1.coords t) j) (((cfg1.win 3).blk t).view.emb j)
    hrow (fun k => bias_block_apply V c t k) (fun k => weights_block_apply V c t k _) hq

/-- An index of the output array is in point t's block iff each coordinate is in the block's range on its axis. -/
theorem mem_block (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v44).slice (win1_3.rect t)).set ↔ _
  rw [View.set_slice_whole, Rect.mem_set_unit]
  exact Iff.rfl

/-- Every row is in some point's block: row r is in the block of point r / 10000. -/
theorem rows_covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨a00, a01, a10, a20, a21, a30, a31⟩ := block_index t
  have htv : t.val = (i 0).val / 10000 := rfl
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- After the region the output array holds (positive part of Z + b)·W of the three input arrays as the region found
    them. -/
theorem final (c : Dev nD) :
    (Gen.dat1 (F := Ideal) V c).arrAt 3 cfg1.N
      = Cert.Spec.mm (Cert.Spec.biasRelu (V c (Pipeline.arrRef spec1 0) : S100000x128.Idx → EReal) (V c (Pipeline.arrRef spec1 1) : S128.Idx → EReal))
          (V c (Pipeline.arrRef spec1 2) : S128x128.Idx → EReal) :=
  (Gen.dat1 (F := Ideal) V c).arrAt_eq_of_cover 3 _ (fun t _ => flushed_eq V c t) rows_covered

end Cert.KernelIdeal.Region1

end
-- ==== Proof.Region2.lean ====
/-
  Region 2: the second dense layer, a bias and positive part followed by a matrix product.

  The grid has ten points over the rows. At point t the body reads rows 10000·t … 10000·t + 9999 of the [100000, 128]
  array Z, the whole [128] bias b and the whole [128, 128] array W. It adds b to every row of the block, takes the
  maximum with zero, and multiplies by W: entry (p, q) of the output block is the sum over k of
  max (Z (10000·t + p, k) + b k) 0 · W (k, q). That is entry (10000·t + p, q) of (positive part of Z + b)·W, so each
  point writes back its own rows of that product; the ten blocks tile the rows, and the output array ends holding it.
-/
import proofs.«121282_j23184233464436_1_alg».proof.Proof.Gen.KernelIdeal.Frame
import proofs.«121282_j23184233464436_1_alg».proof.Proof.Spec
import proofs.«121282_j23184233464436_1_alg».proof.Proof.LibMatmulForms
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Region2

open Cert.KernelIdeal Cert.KernelIdeal.Gen

variable (V : (c : Dev nD) → (b : Ref sig .tc) → Buf (Elt Ideal) ((c : Thread nD τ).loc b))

/-- The corner of an access to a whole rank-2 buffer is the origin. -/
theorem corner_zero : (![0, 0] : Fin 2 → Nat) = fun _ => 0 := funext fun a => by fin_cases a <;> rfl

/-- The corner of an access to a whole rank-1 buffer is the origin. -/
theorem corner_zero_one : (![0] : Fin 1 → Nat) = fun _ => 0 := funext fun a => by fin_cases a; rfl

/-- A [128] vector viewed as a [1, 128] array, read at (0, k): the vector at k. -/
theorem bias_row_apply (x1 : Vec Ideal S128 .f32) (k : Fin 128) :
    shapeCast S1x128 x1 shapeCasts_S128_S1x128 (ix2 (0 : Fin 1) k) = x1 (ix1 k) := by
  refine shapeCast_apply x1 shapeCasts_S128_S1x128 (ix2 (0 : Fin 1) k) (ix1 k) ?_
  rw [Shape.rowMajor_val_one, Shape.rowMajor_val_two]
  show k.val = (0 : Fin 1).val * 128 + k.val
  simp

/-- The bias added to every row and the maximum with zero, at (p, k). -/
theorem activation_apply (x0 : Vec Ideal S10000x128 .f32) (x1 : Vec Ideal S128 .f32) (p : Fin 10000) (k : Fin 128) :
    maximumf (addf (shapeCast S10000x128 x0 shapeCasts_S10000x128_S10000x128)
          (broadcastTo S10000x128 (shapeCast S1x128 x1 shapeCasts_S128_S1x128) broadcasts_S1x128_S10000x128))
        (broadcast S10000x128 (Scalar.ofBits (F := Ideal) .f32 0x00000000#32)) (ix2 p k)
      = max (x0 (ix2 p k) + x1 (ix1 k)) 0 := by
  show max (shapeCast S10000x128 x0 shapeCasts_S10000x128_S10000x128 (ix2 p k)
        + broadcastTo S10000x128 (shapeCast S1x128 x1 shapeCasts_S128_S1x128) broadcasts_S1x128_S10000x128 (ix2 p k))
      (Ideal.ofBits .f32 0x00000000#32) = _
  rw [shapeCast_self, broadcastTo_1b_ab_apply, bias_row_apply, Ideal.ofBits_zero_f32]

/-- The body's product at (p, q): row p of the activated block against column q of the weights. -/
theorem dense_apply (x0 : Vec Ideal S10000x128 .f32) (x1 : Vec Ideal S128 .f32) (x2 : Vec Ideal S128x128 .f32)
    (p : Fin 10000) (q : Fin 128) :
    Gen.k2_pay1 (F := Ideal) x0 x1 x2 (ix2 p q) = ∑ k : Fin 128, max (x0 (ix2 p k) + x1 (ix1 k)) 0 * x2 (ix2 k q) := by
  unfold Gen.k2_pay1
  refine (MatmulForms.matmul_zero_mm_apply dot_S10000x128_S128x128_S10000x128_1_0_0_1_n_n rfl rfl rfl rfl rfl rfl none _ _ p q).trans ?_
  exact Finset.sum_congr rfl fun k _ => congrArg (· * x2 (ix2 k q)) (activation_apply x0 x1 p k)

/-- A block whose row (y 0) is row (i 0) of Z, against the bias b and the weights W, read at an index y of the block
    and an index i of the array in the same column: the body's product at y is entry i of (positive part of Z + b)·W. -/
theorem dense_eq_spec (Z : FVec Ideal S100000x128 .f32) (b : FVec Ideal S128 .f32) (W : FVec Ideal S128x128 .f32)
    (x0 : Vec Ideal S10000x128 .f32) (x1 : Vec Ideal S128 .f32) (x2 : Vec Ideal S128x128 .f32)
    (y : S10000x128.Idx) (i : S100000x128.Idx)
    (hrow : ∀ k : Fin 128, x0 (ix2 (y 0) k) = Z (ix2 (i 0) k)) (hbias : ∀ k : Fin 128, x1 (ix1 k) = b (ix1 k))
    (hcol : ∀ k : Fin 128, x2 (ix2 k (y 1)) = W (ix2 k (y 1))) (hq : i 1 = y 1) :
    Gen.k2_pay1 (F := Ideal) x0 x1 x2 y = Cert.Spec.mm (Cert.Spec.biasRelu Z b) W i := by
  obtain ⟨p, q, rfl⟩ : ∃ (p : Fin 10000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hrow' : ∀ k : Fin 128, x0 (ix2 p k) = Z (ix2 r k) := hrow
  have hcol' : ∀ k : Fin 128, x2 (ix2 k q) = W (ix2 k q) := hcol
  obtain rfl : q' = q := hq
  rw [dense_apply, Cert.Spec.mm_apply]
  exact Finset.sum_congr rfl fun k _ => by rw [Cert.Spec.biasRelu_apply, hrow' k, hbias k, hcol' k]

/-- The block index maps over the grid: the row-tiled windows sit at block (t, 0), the bias and weight windows at the
    first block. -/
theorem block_index : ∀ t : Fin cfg2.N,
    win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The row block at point t, read at (p, k): the array at row 10000·t + p. -/
theorem rows_block_apply (c : Dev nD) (t : Fin cfg2.N) (p : Fin 10000) (k : Fin 128) (r : Fin 100000)
    (hr : r.val = t.val * 10000 + p.val) :
    (Gen.iblk2 V c 0 t : Vec Ideal S10000x128 .f32) (ix2 p k)
      = (V c (Pipeline.arrRef spec2 0) : S100000x128.Idx → EReal) (ix2 r k) := by
  obtain ⟨a00, a01, -⟩ := block_index t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 10000 + 1 * p.val = r.val; omega
  | ⟨1, _⟩ => show win2_0.index t (1 : Fin 2) * 128 + 1 * k.val = k.val; omega

/-- The bias block at any point is the whole bias. -/
theorem bias_block_apply (c : Dev nD) (t : Fin cfg2.N) (k : Fin 128) :
    (Gen.iblk2 V c 1 t : Vec Ideal S128 .f32) (ix1 k) = (V c (Pipeline.arrRef spec2 1) : S128.Idx → EReal) (ix1 k) := by
  obtain ⟨-, -, a10, -⟩ := block_index t
  show V c (Pipeline.arrRef spec2 1) (((cfg2.win 1).blk t).view.emb (ix1 k)) = V c (Pipeline.arrRef spec2 1) (ix1 k)
  refine congrArg _ (funext fun a => Fin.ext ?_)
  match a with
  | ⟨0, _⟩ => show win2_1.index t (0 : Fin 1) * 128 + 1 * k.val = k.val; omega

/-- The weight block at any point is the whole weight matrix. -/
theorem weights_block_apply (c : Dev nD) (t : Fin cfg2.N) (k q : Fin 128) :
    (Gen.iblk2 V c 2 t : Vec Ideal S128x128 .f32) (ix2 k q) = (V c (Pipeline.arrRef spec2 2) : S128x128.Idx → EReal) (ix2 k q) := by
  obtain ⟨-, -, -, a20, a21, -⟩ := block_index t
  show V c (Pipeline.arrRef spec2 2) (((cfg2.win 2).blk t).view.emb (ix2 k q)) = V c (Pipeline.arrRef spec2 2) (ix2 k q)
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- What point t writes back is the body's product of the three input blocks at that point. -/
theorem flushed_product (c : Dev nD) (t : Fin cfg2.N) :
    (Gen.dat2 (F := Ideal) V c).flushed 3 t
      = (cfg2.win 3).cut (grid2.coords t)
          (Gen.k2_pay1 (F := Ideal) (Gen.iblk2 V c 0 t) (Gen.iblk2 V c 1 t) (Gen.iblk2 V c 2 t)) := by
  show (cfg2.win 3).cut (grid2.coords t) ((Gen.dat2 (F := Ideal) V c).after 3 t) = _
  rw [Gen.after2_3]
  unfold Gen.out2_3
  rw [View.canon_unit_zero corner_zero]
  simp only [View.ld_unit_zero (S := S10000x128) corner_zero, View.ld_unit_zero (S := S128x128) corner_zero,
    View.ld_unit_zero (S := S128) corner_zero_one]

/-- What point t writes back is block t of (positive part of Z + b)·W: entry j of the output block sits at row
    10000·t + (j 0) and column (j 1) of the output array. -/
theorem flushed_eq (c : Dev nD) (t : Fin cfg2.N) :
    (Gen.dat2 (F := Ideal) V c).flushed 3 t
      = ((cfg2.win 3).blk t).view.read (Elt Ideal)
          (Cert.Spec.mm (Cert.Spec.biasRelu (V c (Pipeline.arrRef spec2 0) : S100000x128.Idx → EReal) (V c (Pipeline.arrRef spec2 1) : S128.Idx → EReal))
            (V c (Pipeline.arrRef spec2 2) : S128x128.Idx → EReal)) := by
  rw [flushed_product]
  obtain ⟨-, -, -, -, -, a30, a31⟩ := block_index t
  funext j
  rw [View.read_apply]
  have hrow : ∀ k : Fin 128, (Gen.iblk2 V c 0 t : Vec Ideal S10000x128 .f32) (ix2 ((cfg2.win 3).xinj (grid2.coords t) j (0 : Fin 2)) k)
      = (V c (Pipeline.arrRef spec2 0) : S100000x128.Idx → EReal) (ix2 (((cfg2.win 3).blk t).view.emb j (0 : Fin 2)) k) := fun k => by
    refine rows_block_apply V c t _ k _ ?_
    show win2_3.index t (0 : Fin 2) * 10000 + 1 * (j (0 : Fin 2)).val = t.val * 10000 + (j (0 : Fin 2)).val
    omega
  have hq : ((cfg2.win 3).blk t).view.emb j (1 : Fin 2) = (cfg2.win 3).xinj (grid2.coords t) j (1 : Fin 2) := by
    apply Fin.ext
    show win2_3.index t (1 : Fin 2) * 128 + 1 * (j (1 : Fin 2)).val = (j (1 : Fin 2)).val
    omega
  exact dense_eq_spec (V c (Pipeline.arrRef spec2 0)) (V c (Pipeline.arrRef spec2 1)) (V c (Pipeline.arrRef spec2 2))
    (Gen.iblk2 V c 0 t) (Gen.iblk2 V c 1 t) (Gen.iblk2 V c 2 t)
    ((cfg2.win 3).xinj (grid2.coords t) j) (((cfg2.win 3).blk t).view.emb j)
    hrow (fun k => bias_block_apply V c t k) (fun k => weights_block_apply V c t k _) hq

/-- An index of the output array is in point t's block iff each coordinate is in the block's range on its axis. -/
theorem mem_block (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v58).slice (win2_3.rect t)).set ↔ _
  rw [View.set_slice_whole, Rect.mem_set_unit]
  exact Iff.rfl

/-- Every row is in some point's block: row r is in the block of point r / 10000. -/
theorem rows_covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨a00, a01, a10, a20, a21, a30, a31⟩ := block_index t
  have htv : t.val = (i 0).val / 10000 := rfl
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- After the region the output array holds (positive part of Z + b)·W of the three input arrays as the region found
    them. -/
theorem final (c : Dev nD) :
    (Gen.dat2 (F := Ideal) V c).arrAt 3 cfg2.N
      = Cert.Spec.mm (Cert.Spec.biasRelu (V c (Pipeline.arrRef spec2 0) : S100000x128.Idx → EReal) (V c (Pipeline.arrRef spec2 1) : S128.Idx → EReal))
          (V c (Pipeline.arrRef spec2 2) : S128x128.Idx → EReal) :=
  (Gen.dat2 (F := Ideal) V c).arrAt_eq_of_cover 3 _ (fun t _ => flushed_eq V c t) rows_covered

end Cert.KernelIdeal.Region2

end
-- ==== Proof.Region3.lean ====
/-
  Region 3: the bias-and-positive-part layer, from blocks to the whole array.

  Every grid point t reads rows 10000·t … 10000·t + 9999 of the [100000, 128] input and the whole [128] bias, and
  writes back, for each of those rows r and each column f, max (X (r, f) + b f) 0. The ten row blocks tile the
  array, so the output array ends holding biasRelu X b.
-/
import proofs.«121282_j23184233464436_1_alg».proof.Proof.Gen.KernelIdeal.Frame
import proofs.«121282_j23184233464436_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero corner of a rank-2 rectangle. -/
theorem corner2 : (![0, 0] : Fin 2 → Nat) = fun _ => 0 := funext fun a => by fin_cases a <;> rfl

/-- The zero corner of a rank-1 rectangle. -/
theorem corner1 : (![0] : Fin 1 → Nat) = fun _ => 0 := funext fun a => by fin_cases a; rfl

/-- The body's value at row p and column q of a block: the block's entry plus the bias at q, positive part. -/
theorem body_apply (x0 : Vec Ideal S10000x128 .f32) (x1 : Vec Ideal S128 .f32) (p : Fin 10000) (q : Fin 128) :
    k3_pay1 x0 x1 (ix2 p q) = max (x0 (ix2 p q) + x1 (ix1 q)) 0 := by
  unfold k3_pay1
  show max (shapeCast S10000x128 x0 shapeCasts_S10000x128_S10000x128 (ix2 p q)
      + broadcastTo S10000x128 (shapeCast S1x128 x1 shapeCasts_S128_S1x128) broadcasts_S1x128_S10000x128 (ix2 p q))
      (Ideal.ofBits .f32 0x00000000#32) = _
  rw [shapeCast_self, broadcastTo_1b_ab_apply, shapeCast_a_1a_apply, Ideal.ofBits_zero_f32]

/-- What the body leaves in the output's buffer, at row p and column q. -/
theorem left_apply (x0 : Vec Ideal S10000x128 .f32) (x1 : Vec Ideal S128 .f32) (p : Fin 10000) (q : Fin 128) :
    out3_2 x0 x1 (ix2 p q) = max (x0 (ix2 p q) + x1 (ix1 q)) 0 := by
  unfold out3_2
  rw [View.canon_unit_zero corner2]
  simp only [View.ld_unit_zero (S := S10000x128) corner2, View.ld_unit_zero (S := S128) corner1]
  exact body_apply x0 x1 p q

/-- The positive part of a sum, each term replaced by an equal one. -/
theorem relu_sum_congr {u u' v v' : Ideal .f32} (hu : u = u') (hv : v = v') : max (u + v) 0 = max (u' + v') 0 := by
  rw [hu, hv]

/-- The printed index maps over the grid: the row-tiled windows' block at point t is block (t, 0); the bias window's
    is block 0. -/
theorem index_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point t writes back is block t of biasRelu of the input array and the bias. -/
theorem flushed_eq (c : Dev nD) (t : Fin cfg3.N) :
    (dat3 V c).flushed 2 t = ((cfg3.win 2).blk t).view.read (Elt Ideal)
      (Cert.Spec.biasRelu (N := 100000) (B := 128) (V c (Pipeline.arrRef spec3 0)) (V c (Pipeline.arrRef spec3 1))) := by
  show (cfg3.win 2).cut (grid3.coords t) ((dat3 V c).after 2 t) = _
  rw [after3_2]
  obtain ⟨e0, e1, e2, e3, e4⟩ := index_facts t
  have ht : t.val < 10 := t.isLt
  funext j
  obtain ⟨p, q, rfl⟩ : ∃ (p : Fin 10000) (q : Fin 128), j = ix2 p q := ⟨j 0, j 1, eq_ix2 j⟩
  have hr : t.val * 10000 + p.val < 100000 := by have := p.isLt; omega
  show out3_2 (iblk3 V c 0 t) (iblk3 V c 1 t) (ix2 p q)
    = Cert.Spec.biasRelu (N := 100000) (B := 128) (V c (Pipeline.arrRef spec3 0)) (V c (Pipeline.arrRef spec3 1))
        (((cfg3.win 2).blk t).view.emb (ix2 p q))
  refine (left_apply (iblk3 V c 0 t) (iblk3 V c 1 t) p q).trans ?_
  have h2 : ((cfg3.win 2).blk t).view.emb (ix2 p q) = (ix2 (⟨t.val * 10000 + p.val, hr⟩ : Fin 100000) q : S100000x128.Idx) := by
    funext a; apply Fin.ext
    match a with
    | ⟨0, _⟩ => show win3_2.index t (0 : Fin 2) * 10000 + 1 * p.val = t.val * 10000 + p.val; omega
    | ⟨1, _⟩ => show win3_2.index t (1 : Fin 2) * 128 + 1 * q.val = q.val; omega
  have h0 : ((cfg3.win 0).blk t).view.emb (ix2 p q) = (ix2 (⟨t.val * 10000 + p.val, hr⟩ : Fin 100000) q : S100000x128.Idx) := by
    funext a; apply Fin.ext
    match a with
    | ⟨0, _⟩ => show win3_0.index t (0 : Fin 2) * 10000 + 1 * p.val = t.val * 10000 + p.val; omega
    | ⟨1, _⟩ => show win3_0.index t (1 : Fin 2) * 128 + 1 * q.val = q.val; omega
  have h1 : ((cfg3.win 1).blk t).view.emb (ix1 q) = (ix1 q : S128.Idx) := by
    funext a; apply Fin.ext
    match a with
    | ⟨0, _⟩ => show win3_1.index t (0 : Fin 1) * 128 + 1 * q.val = q.val; omega
  rw [h2, Cert.Spec.biasRelu_apply]
  exact relu_sum_congr (congrArg (V c (Pipeline.arrRef spec3 0)) h0) (congrArg (V c (Pipeline.arrRef spec3 1)) h1)

/-- An index of the array is in point t's block iff each coordinate is in the block's range on its axis. -/
theorem mem_blk (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v72).slice (win3_2.rect t)).set ↔ _
  rw [View.set_slice_whole, Rect.mem_set_unit]
  exact Iff.rfl

/-- Every index of the array is in some point's block: row r is in the block of point r / 10000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  have hlt : (i 0).val / 10000 < cfg3.N := by rw [hN]; omega
  refine ⟨⟨(i 0).val / 10000, hlt⟩, flush3_2 _, ?_⟩
  rw [mem_blk]
  obtain ⟨e0, e1, e2, e3, e4⟩ := index_facts ⟨(i 0).val / 10000, hlt⟩
  have e3' : win3_2.index ⟨(i 0).val / 10000, hlt⟩ (0 : Fin 2) = (i 0).val / 10000 := e3
  intro a
  match a with
  | ⟨0, _⟩ =>
    show win3_2.index ⟨(i 0).val / 10000, hlt⟩ (0 : Fin 2) * 10000 ≤ (i 0).val
      ∧ (i 0).val < win3_2.index ⟨(i 0).val / 10000, hlt⟩ (0 : Fin 2) * 10000 + 10000
    omega
  | ⟨1, _⟩ =>
    show win3_2.index ⟨(i 0).val / 10000, hlt⟩ (1 : Fin 2) * 128 ≤ (i 1).val
      ∧ (i 1).val < win3_2.index ⟨(i 0).val / 10000, hlt⟩ (1 : Fin 2) * 128 + 128
    omega

/-- The output array after the region: the positive part of the input array plus the bias on every row. -/
theorem final (c : Dev nD) :
    (dat3 (F := Ideal) V c).arrAt 2 cfg3.N
      = Cert.Spec.biasRelu (N := 100000) (B := 128) (V c (Pipeline.arrRef spec3 0)) (V c (Pipeline.arrRef spec3 1)) :=
  (dat3 V c).arrAt_eq_of_cover 2 _ (fun t _ => flushed_eq V c t) cover

end Cert.KernelIdeal.Region3

end
-- ==== Proof.Region4.lean ====
/-
  Region 4: the two output heads, from blocks to the whole arrays.

  Every grid point t reads rows 10000·t … 10000·t + 9999 of the [100000, 128] input Y and the whole of eight weight
  and bias arrays. For the position head it writes back, for each of those rows r and each column f of 2,
      (∑ k, max ((∑ j, Y (r, j) · Wp1 (j, k)) + bp1 k) 0 · Wp2 (k, f)) + bp2 f,
  and for the time head the same with Wt1, bt1, Wt2, bt2 and one column. An output head's row r depends on Y through
  its row r only, so a block of the head of Y is the head of the block of Y; the ten row blocks tile each output array.
-/
import proofs.«121282_j23184233464436_1_alg».proof.Proof.Gen.KernelIdeal.Frame
import proofs.«121282_j23184233464436_1_alg».proof.Proof.Spec
import proofs.«121282_j23184233464436_1_alg».proof.Proof.LibMatmulForms
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (mm addRow biasRelu mm_apply addRow_apply biasRelu_apply)

/-! ## An output head on matrices of any sizes -/

section Head

variable {N M A B C : ℕ}

/-- An output head: a dense layer with a positive part, then a second product and its bias. -/
abbrev head (Y : FVec Ideal ⟨2, ![N, A]⟩ .f32) (W1 : FVec Ideal ⟨2, ![A, B]⟩ .f32) (b1 : FVec Ideal ⟨1, ![B]⟩ .f32)
    (W2 : FVec Ideal ⟨2, ![B, C]⟩ .f32) (b2 : FVec Ideal ⟨1, ![C]⟩ .f32) : FVec Ideal ⟨2, ![N, C]⟩ .f32 :=
  addRow (mm (biasRelu (mm Y W1) b1) W2) b2

/-- A head at a row, written out. -/
theorem head_apply (Y : FVec Ideal ⟨2, ![N, A]⟩ .f32) (W1 : FVec Ideal ⟨2, ![A, B]⟩ .f32) (b1 : FVec Ideal ⟨1, ![B]⟩ .f32)
    (W2 : FVec Ideal ⟨2, ![B, C]⟩ .f32) (b2 : FVec Ideal ⟨1, ![C]⟩ .f32) (r : Fin N) (f : Fin C) :
    head Y W1 b1 W2 b2 (ix2 r f)
      = (∑ k : Fin B, max ((∑ j : Fin A, Y (ix2 r j) * W1 (ix2 j k)) + b1 (ix1 k)) 0 * W2 (ix2 k f)) + b2 (ix1 f) := rfl

/-- A head's row r depends on the input through its row r only, and on the weights as they are: the head of a matrix
    whose row p is row r of Y, with equal weights, has at row p what the head of Y has at row r. -/
theorem head_row (Yb : FVec Ideal ⟨2, ![M, A]⟩ .f32) (Y : FVec Ideal ⟨2, ![N, A]⟩ .f32)
    (W1' W1 : FVec Ideal ⟨2, ![A, B]⟩ .f32) (b1' b1 : FVec Ideal ⟨1, ![B]⟩ .f32)
    (W2' W2 : FVec Ideal ⟨2, ![B, C]⟩ .f32) (b2' b2 : FVec Ideal ⟨1, ![C]⟩ .f32)
    (p : Fin M) (r : Fin N) (hY : ∀ j : Fin A, Yb (ix2 p j) = Y (ix2 r j))
    (hW1 : W1' = W1) (hb1 : b1' = b1) (hW2 : W2' = W2) (hb2 : b2' = b2) (f : Fin C) :
    head Yb W1' b1' W2' b2' (ix2 p f) = head Y W1 b1 W2 b2 (ix2 r f) := by
  subst hW1 hb1 hW2 hb2
  rw [head_apply, head_apply]
  simp only [hY]

/-- A vector seen as one row and repeated down the rows reads, at (p, q), the vector at q. -/
theorem row_of_vec_apply {α : Type} {a b : ℕ} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ x hc) hb (ix2 p q) = x (ix1 q) := by
  rw [broadcastTo_1b_ab_apply, shapeCast_a_1a_apply]

/-- The hidden layer of the body at (p, k): the product into a zero accumulator plus the bias row, positive part. -/
theorem hidden_apply (D : DotDims ⟨2, ![N, A]⟩ ⟨2, ![A, B]⟩ ⟨2, ![N, B]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![N, A]⟩ .bf16) (W : FVec Ideal ⟨2, ![A, B]⟩ .bf16) (b : FVec Ideal ⟨1, ![B]⟩ .f32)
    (hc : (⟨1, ![B]⟩ : Shape).ShapeCasts ⟨2, ![1, B]⟩) (hb : (⟨2, ![1, B]⟩ : Shape).Broadcasts ⟨2, ![N, B]⟩)
    (p : Fin N) (k : Fin B) :
    maximumf (addf (FloatOps.matmul D none x W (constant ⟨2, ![N, B]⟩ .f32 0x00000000#32))
          (broadcastTo ⟨2, ![N, B]⟩ (shapeCast ⟨2, ![1, B]⟩ b hc) hb))
        (broadcast ⟨2, ![N, B]⟩ (FloatOps.ofBits (F := Ideal) .f32 0x00000000#32)) (ix2 p k)
      = max ((∑ j : Fin A, x (ix2 p j) * W (ix2 j k)) + b (ix1 k)) 0 := by
  show max (FloatOps.matmul D none x W (constant ⟨2, ![N, B]⟩ .f32 0x00000000#32) (ix2 p k)
      + broadcastTo ⟨2, ![N, B]⟩ (shapeCast ⟨2, ![1, B]⟩ b hc) hb (ix2 p k)) (Ideal.ofBits .f32 0x00000000#32) = _
  rw [MatmulForms.matmul_zero_mm_apply D h1 h2 h3 h4 h5 h6, row_of_vec_apply, Ideal.ofBits_zero_f32]

/-- The body of a head on a block, at (p, q): both operands of each product truncated (the identity on ideal
    values), each product into a zero accumulator. It is the head of the block. -/
theorem body_head_apply (D1 : DotDims ⟨2, ![N, A]⟩ ⟨2, ![A, B]⟩ ⟨2, ![N, B]⟩)
    (h1 : D1.lhsContracting = [1]) (h2 : D1.rhsContracting = [0]) (h3 : D1.lhsNonContracting = [0])
    (h4 : D1.rhsNonContracting = [1]) (h5 : D1.lhsBatch = []) (h6 : D1.rhsBatch = [])
    (D2 : DotDims ⟨2, ![N, B]⟩ ⟨2, ![B, C]⟩ ⟨2, ![N, C]⟩)
    (g1 : D2.lhsContracting = [1]) (g2 : D2.rhsContracting = [0]) (g3 : D2.lhsNonContracting = [0])
    (g4 : D2.rhsNonContracting = [1]) (g5 : D2.lhsBatch = []) (g6 : D2.rhsBatch = [])
    (hlt : FTy.bf16.bits < FTy.f32.bits)
    (y : FVec Ideal ⟨2, ![N, A]⟩ .f32) (W1 : FVec Ideal ⟨2, ![A, B]⟩ .f32) (b1 : FVec Ideal ⟨1, ![B]⟩ .f32)
    (W2 : FVec Ideal ⟨2, ![B, C]⟩ .f32) (b2 : FVec Ideal ⟨1, ![C]⟩ .f32)
    (hc1 : (⟨1, ![B]⟩ : Shape).ShapeCasts ⟨2, ![1, B]⟩) (hb1 : (⟨2, ![1, B]⟩ : Shape).Broadcasts ⟨2, ![N, B]⟩)
    (hc2 : (⟨1, ![C]⟩ : Shape).ShapeCasts ⟨2, ![1, C]⟩) (hb2 : (⟨2, ![1, C]⟩ : Shape).Broadcasts ⟨2, ![N, C]⟩)
    (p : Fin N) (q : Fin C) :
    addf (FloatOps.matmul D2 none
          (truncf .bf16 (maximumf (addf (FloatOps.matmul D1 none (truncf .bf16 y hlt) (truncf .bf16 W1 hlt)
                (constant ⟨2, ![N, B]⟩ .f32 0x00000000#32))
              (broadcastTo ⟨2, ![N, B]⟩ (shapeCast ⟨2, ![1, B]⟩ b1 hc1) hb1))
            (broadcast ⟨2, ![N, B]⟩ (FloatOps.ofBits (F := Ideal) .f32 0x00000000#32))) hlt)
          (truncf .bf16 W2 hlt) (constant ⟨2, ![N, C]⟩ .f32 0x00000000#32))
        (broadcastTo ⟨2, ![N, C]⟩ (shapeCast ⟨2, ![1, C]⟩ b2 hc2) hb2) (ix2 p q)
      = head y W1 b1 W2 b2 (ix2 p q) := by
  rw [head_apply]
  show FloatOps.matmul D2 none _ _ (constant ⟨2, ![N, C]⟩ .f32 0x00000000#32) (ix2 p q)
      + broadcastTo ⟨2, ![N, C]⟩ (shapeCast ⟨2, ![1, C]⟩ b2 hc2) hb2 (ix2 p q) = _
  rw [MatmulForms.matmul_zero_mm_apply D2 g1 g2 g3 g4 g5 g6, row_of_vec_apply]
  congr 1
  refine Finset.sum_congr rfl fun k _ => ?_
  rw [truncf_apply, truncf_apply, hidden_apply D1 h1 h2 h3 h4 h5 h6]
  rfl

end Head

/-! ## The region -/

variable (V : (c : Dev nD) → (b : Ref sig .tc) → Buf (Elt Ideal) ((c : Thread nD τ).loc b))

/-- The zero corner of a rank-2 rectangle. -/
theorem corner2 : (![0, 0] : Fin 2 → Nat) = fun _ => 0 := funext fun a => by fin_cases a <;> rfl

/-- The zero corner of a rank-1 rectangle. -/
theorem corner1 : (![0] : Fin 1 → Nat) = fun _ => 0 := funext fun a => by fin_cases a; rfl

/-- The input block, cast to its own shape and truncated. -/
theorem block_trunc (x0 : Vec Ideal S10000x128 .f32) : k4_pay2 x0 = truncf .bf16 x0 bitsLt_bf16_f32 := by
  unfold k4_pay2
  rw [shapeCast_self]

/-- What the body leaves in the position head's buffer, at (p, q): the head of the input block. -/
theorem pos_left_apply (x0 : Vec Ideal S10000x128 .f32) (x1 : Vec Ideal S128x128 .f32) (x2 : Vec Ideal S128 .f32)
    (x3 : Vec Ideal S128x2 .f32) (x4 : Vec Ideal S2 .f32) (x5 : Vec Ideal S128x64 .f32) (x6 : Vec Ideal S64 .f32)
    (x7 : Vec Ideal S64x1 .f32) (x8 : Vec Ideal S1 .f32) (p : Fin 10000) (q : Fin 2) :
    out4_9 x0 x1 x2 x3 x4 x5 x6 x7 x8 (ix2 p q) = head (N := 10000) x0 x1 x2 x3 x4 (ix2 p q) := by
  unfold out4_9
  rw [View.canon_unit_zero corner2]
  simp only [View.ld_unit_zero (S := S10000x128) corner2, View.ld_unit_zero (S := S128x128) corner2,
    View.ld_unit_zero (S := S128) corner1, View.ld_unit_zero (S := S128x2) corner2, View.ld_unit_zero (S := S2) corner1]
  unfold k4_pay3
  rw [block_trunc]
  exact body_head_apply dot_S10000x128_S128x128_S10000x128_1_0_0_1_n_n rfl rfl rfl rfl rfl rfl
    dot_S10000x128_S128x2_S10000x2_1_0_0_1_n_n rfl rfl rfl rfl rfl rfl bitsLt_bf16_f32 x0 x1 x2 x3 x4 _ _ _ _ p q

/-- What the body leaves in the time head's buffer, at (p, q): the head of the input block. -/
theorem time_left_apply (x0 : Vec Ideal S10000x128 .f32) (x1 : Vec Ideal S128x128 .f32) (x2 : Vec Ideal S128 .f32)
    (x3 : Vec Ideal S128x2 .f32) (x4 : Vec Ideal S2 .f32) (x5 : Vec Ideal S128x64 .f32) (x6 : Vec Ideal S64 .f32)
    (x7 : Vec Ideal S64x1 .f32) (x8 : Vec Ideal S1 .f32) (p : Fin 10000) (q : Fin 1) :
    out4_10 x0 x1 x2 x3 x4 x5 x6 x7 x8 (ix2 p q) = head (N := 10000) x0 x5 x6 x7 x8 (ix2 p q) := by
  unfold out4_10
  rw [View.canon_unit_zero corner2]
  simp only [View.ld_unit_zero (S := S10000x128) corner2, View.ld_unit_zero (S := S128x64) corner2,
    View.ld_unit_zero (S := S64) corner1, View.ld_unit_zero (S := S64x1) corner2, View.ld_unit_zero (S := S1) corner1]
  unfold k4_pay1 k4_pay4 k4_pay5
  rw [block_trunc]
  exact body_head_apply dot_S10000x128_S128x64_S10000x64_1_0_0_1_n_n rfl rfl rfl rfl rfl rfl
    dot_S10000x64_S64x1_S10000x1_1_0_0_1_n_n rfl rfl rfl rfl rfl rfl bitsLt_bf16_f32 x0 x5 x6 x7 x8 _ _ _ _ p q

/-! ## From blocks to the arrays -/

/-- The printed index maps over the grid: each row-tiled window's block at point t is block (t, 0); -/
theorem row_index_facts : ∀ t : Fin cfg4.N, win4_0.index t (0 : Fin 2) = t.val ∧ win4_0.index t (1 : Fin 2) = 0
    ∧ win4_9.index t (0 : Fin 2) = t.val ∧ win4_9.index t (1 : Fin 2) = 0
    ∧ win4_10.index t (0 : Fin 2) = t.val ∧ win4_10.index t (1 : Fin 2) = 0 :=
  (by decide +kernel : ∀ t : Fin grid4.N, _)

/-- and every weight and bias window's is block 0. -/
theorem whole_index_facts : ∀ t : Fin cfg4.N, win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = 0 ∧ win4_7.index t (1 : Fin 2) = 0
    ∧ win4_8.index t (0 : Fin 1) = 0 :=
  (by decide +kernel : ∀ t : Fin grid4.N, _)

/-- Window 1's block at any point is its whole array. -/
theorem whole1 (c : Dev nD) (t : Fin cfg4.N) :
    (iblk4 V c 1 t : FVec Ideal S128x128 .f32) = (V c (Pipeline.arrRef spec4 1) : FVec Ideal S128x128 .f32) := by
  obtain ⟨e10, e11, e20, e30, e31, e40, e50, e51, e60, e70, e71, e80⟩ := whole_index_facts t
  funext y
  show V c (Pipeline.arrRef spec4 1) (((cfg4.win 1).blk t).view.emb y) = V c (Pipeline.arrRef spec4 1) y
  refine congrArg (V c (Pipeline.arrRef spec4 1)) (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- Window 2's block at any point is its whole array. -/
theorem whole2 (c : Dev nD) (t : Fin cfg4.N) :
    (iblk4 V c 2 t : FVec Ideal S128 .f32) = (V c (Pipeline.arrRef spec4 2) : FVec Ideal S128 .f32) := by
  obtain ⟨e10, e11, e20, e30, e31, e40, e50, e51, e60, e70, e71, e80⟩ := whole_index_facts t
  funext y
  show V c (Pipeline.arrRef spec4 2) (((cfg4.win 2).blk t).view.emb y) = V c (Pipeline.arrRef spec4 2) y
  refine congrArg (V c (Pipeline.arrRef spec4 2)) (funext fun a => Fin.ext ?_)
  match a with
  | ⟨0, _⟩ => show win4_2.index t (0 : Fin 1) * 128 + 1 * (y 0).val = (y 0).val; omega

/-- Window 3's block at any point is its whole array. -/
theorem whole3 (c : Dev nD) (t : Fin cfg4.N) :
    (iblk4 V c 3 t : FVec Ideal S128x2 .f32) = (V c (Pipeline.arrRef spec4 3) : FVec Ideal S128x2 .f32) := by
  obtain ⟨e10, e11, e20, e30, e31, e40, e50, e51, e60, e70, e71, e80⟩ := whole_index_facts t
  funext y
  show V c (Pipeline.arrRef spec4 3) (((cfg4.win 3).blk t).view.emb y) = V c (Pipeline.arrRef spec4 3) y
  refine congrArg (V c (Pipeline.arrRef spec4 3)) (funext fun a => Fin.ext ?_)
  match a with
  | ⟨0, _⟩ => show win4_3.index t (0 : Fin 2) * 128 + 1 * (y 0).val = (y 0).val; omega
  | ⟨1, _⟩ => show win4_3.index t (1 : Fin 2) * 2 + 1 * (y 1).val = (y 1).val; omega

/-- Window 4's block at any point is its whole array. -/
theorem whole4 (c : Dev nD) (t : Fin cfg4.N) :
    (iblk4 V c 4 t : FVec Ideal S2 .f32) = (V c (Pipeline.arrRef spec4 4) : FVec Ideal S2 .f32) := by
  obtain ⟨e10, e11, e20, e30, e31, e40, e50, e51, e60, e70, e71, e80⟩ := whole_index_facts t
  funext y
  show V c (Pipeline.arrRef spec4 4) (((cfg4.win 4).blk t).view.emb y) = V c (Pipeline.arrRef spec4 4) y
  refine congrArg (V c (Pipeline.arrRef spec4 4)) (funext fun a => Fin.ext ?_)
  match a with
  | ⟨0, _⟩ => show win4_4.index t (0 : Fin 1) * 2 + 1 * (y 0).val = (y 0).val; omega

/-- Window 5's block at any point is its whole array. -/
theorem whole5 (c : Dev nD) (t : Fin cfg4.N) :
    (iblk4 V c 5 t : FVec Ideal S128x64 .f32) = (V c (Pipeline.arrRef spec4 5) : FVec Ideal S128x64 .f32) := by
  obtain ⟨e10, e11, e20, e30, e31, e40, e50, e51, e60, e70, e71, e80⟩ := whole_index_facts t
  funext y
  show V c (Pipeline.arrRef spec4 5) (((cfg4.win 5).blk t).view.emb y) = V c (Pipeline.arrRef spec4 5) y
  refine congrArg (V c (Pipeline.arrRef spec4 5)) (funext fun a => Fin.ext ?_)
  match a with
  | ⟨0, _⟩ => show win4_5.index t (0 : Fin 2) * 128 + 1 * (y 0).val = (y 0).val; omega
  | ⟨1, _⟩ => show win4_5.index t (1 : Fin 2) * 64 + 1 * (y 1).val = (y 1).val; omega

/-- Window 6's block at any point is its whole array. -/
theorem whole6 (c : Dev nD) (t : Fin cfg4.N) :
    (iblk4 V c 6 t : FVec Ideal S64 .f32) = (V c (Pipeline.arrRef spec4 6) : FVec Ideal S64 .f32) := by
  obtain ⟨e10, e11, e20, e30, e31, e40, e50, e51, e60, e70, e71, e80⟩ := whole_index_facts t
  funext y
  show V c (Pipeline.arrRef spec4 6) (((cfg4.win 6).blk t).view.emb y) = V c (Pipeline.arrRef spec4 6) y
  refine congrArg (V c (Pipeline.arrRef spec4 6)) (funext fun a => Fin.ext ?_)
  match a with
  | ⟨0, _⟩ => show win4_6.index t (0 : Fin 1) * 64 + 1 * (y 0).val = (y 0).val; omega

/-- Window 7's block at any point is its whole array. -/
theorem whole7 (c : Dev nD) (t : Fin cfg4.N) :
    (iblk4 V c 7 t : FVec Ideal S64x1 .f32) = (V c (Pipeline.arrRef spec4 7) : FVec Ideal S64x1 .f32) := by
  obtain ⟨e10, e11, e20, e30, e31, e40, e50, e51, e60, e70, e71, e80⟩ := whole_index_facts t
  funext y
  show V c (Pipeline.arrRef spec4 7) (((cfg4.win 7).blk t).view.emb y) = V c (Pipeline.arrRef spec4 7) y
  refine congrArg (V c (Pipeline.arrRef spec4 7)) (funext fun a => Fin.ext ?_)
  match a with
  | ⟨0, _⟩ => show win4_7.index t (0 : Fin 2) * 64 + 1 * (y 0).val = (y 0).val; omega
  | ⟨1, _⟩ => show win4_7.index t (1 : Fin 2) * 1 + 1 * (y 1).val = (y 1).val; omega

/-- Window 8's block at any point is its whole array. -/
theorem whole8 (c : Dev nD) (t : Fin cfg4.N) :
    (iblk4 V c 8 t : FVec Ideal S1 .f32) = (V c (Pipeline.arrRef spec4 8) : FVec Ideal S1 .f32) := by
  obtain ⟨e10, e11, e20, e30, e31, e40, e50, e51, e60, e70, e71, e80⟩ := whole_index_facts t
  funext y
  show V c (Pipeline.arrRef spec4 8) (((cfg4.win 8).blk t).view.emb y) = V c (Pipeline.arrRef spec4 8) y
  refine congrArg (V c (Pipeline.arrRef spec4 8)) (funext fun a => Fin.ext ?_)
  match a with
  | ⟨0, _⟩ => show win4_8.index t (0 : Fin 1) * 1 + 1 * (y 0).val = (y 0).val; omega

/-- The input block at point t, at row p: row 10000·t + p of the input array. -/
theorem input_row_apply (c : Dev nD) (t : Fin cfg4.N) (p : Fin 10000) (j : Fin 128) (hr : t.val * 10000 + p.val < 100000) :
    (iblk4 V c 0 t : FVec Ideal S10000x128 .f32) (ix2 p j)
      = (V c (Pipeline.arrRef spec4 0) : FVec Ideal S100000x128 .f32) (ix2 (⟨t.val * 10000 + p.val, hr⟩ : Fin 100000) j) := by
  obtain ⟨e00, e01, e90, e91, e100, e101⟩ := row_index_facts t
  show V c (Pipeline.arrRef spec4 0) (((cfg4.win 0).blk t).view.emb (ix2 p j))
    = V c (Pipeline.arrRef spec4 0) (ix2 (⟨t.val * 10000 + p.val, hr⟩ : Fin 100000) j : S100000x128.Idx)
  refine congrArg (V c (Pipeline.arrRef spec4 0)) (funext fun a => Fin.ext ?_)
  match a with
  | ⟨0, _⟩ => show win4_0.index t (0 : Fin 2) * 10000 + 1 * p.val = t.val * 10000 + p.val; omega
  | ⟨1, _⟩ => show win4_0.index t (1 : Fin 2) * 128 + 1 * j.val = j.val; omega

/-- The pos head of the arrays as the region finds them. -/
abbrev posHead (c : Dev nD) : FVec Ideal S100000x2 .f32 :=
  head (N := 100000) (A := 128) (B := 128) (C := 2) (V c (Pipeline.arrRef spec4 0)) (V c (Pipeline.arrRef spec4 1)) (V c (Pipeline.arrRef spec4 2)) (V c (Pipeline.arrRef spec4 3)) (V c (Pipeline.arrRef spec4 4))

/-- What point t writes back to the pos head's array is block t of the pos head. -/
theorem pos_flushed_eq (c : Dev nD) (t : Fin cfg4.N) :
    (dat4 V c).flushed 9 t = ((cfg4.win 9).blk t).view.read (Elt Ideal) (posHead V c) := by
  show (cfg4.win 9).cut (grid4.coords t) ((dat4 V c).after 9 t) = _
  rw [after4_9]
  obtain ⟨e00, e01, e90, e91, e100, e101⟩ := row_index_facts t
  have ht : t.val < 10 := t.isLt
  funext j
  obtain ⟨p, q, rfl⟩ : ∃ (p : Fin 10000) (q : Fin 2), j = ix2 p q := ⟨j 0, j 1, eq_ix2 j⟩
  have hr : t.val * 10000 + p.val < 100000 := by have := p.isLt; omega
  show out4_9 (iblk4 V c 0 t) (iblk4 V c 1 t) (iblk4 V c 2 t) (iblk4 V c 3 t) (iblk4 V c 4 t) (iblk4 V c 5 t) (iblk4 V c 6 t) (iblk4 V c 7 t) (iblk4 V c 8 t) (ix2 p q)
    = posHead V c (((cfg4.win 9).blk t).view.emb (ix2 p q))
  refine (pos_left_apply (iblk4 V c 0 t) (iblk4 V c 1 t) (iblk4 V c 2 t) (iblk4 V c 3 t) (iblk4 V c 4 t) (iblk4 V c 5 t) (iblk4 V c 6 t) (iblk4 V c 7 t) (iblk4 V c 8 t) p q).trans ?_
  have hblk : ((cfg4.win 9).blk t).view.emb (ix2 p q) = (ix2 (⟨t.val * 10000 + p.val, hr⟩ : Fin 100000) q : S100000x2.Idx) := by
    funext a; apply Fin.ext
    match a with
    | ⟨0, _⟩ => show win4_9.index t (0 : Fin 2) * 10000 + 1 * p.val = t.val * 10000 + p.val; omega
    | ⟨1, _⟩ => show win4_9.index t (1 : Fin 2) * 2 + 1 * q.val = q.val; omega
  rw [hblk]
  exact head_row _ _ _ _ _ _ _ _ _ _ p ⟨_, hr⟩ (fun j => input_row_apply V c t p j hr)
    (whole1 V c t) (whole2 V c t) (whole3 V c t) (whole4 V c t) q

/-- An index of the pos head's array is in point t's block iff each coordinate is in the block's range on its axis. -/
theorem pos_mem_blk (t : Fin cfg4.N) (i : S100000x2.Idx) :
    i ∈ ((cfg4.win 9).blk t).view.set ↔ ∀ a : Fin 2, win4_9.index t a * S10000x2.size a ≤ (i a).val
      ∧ (i a).val < win4_9.index t a * S10000x2.size a + S10000x2.size a := by
  show i ∈ ((View.whole main_v73_0).slice (win4_9.rect t)).set ↔ _
  rw [View.set_slice_whole, Rect.mem_set_unit]
  exact Iff.rfl

/-- Every index of the pos head's array is in some point's block: row r is in the block of point r / 10000. -/
theorem pos_cover (i : S100000x2.Idx) :
    ∃ t : Fin cfg4.N, (cfg4.win 9).flush t = true ∧ i ∈ ((cfg4.win 9).blk t).view.set := by
  have hi0 : (i 0).val < 100000 := (i 0).isLt
  have hi1 : (i 1).val < 2 := (i 1).isLt
  have hN : cfg4.N = 10 := N_4
  have hlt : (i 0).val / 10000 < cfg4.N := by rw [hN]; omega
  refine ⟨⟨(i 0).val / 10000, hlt⟩, flush4_9 _, ?_⟩
  rw [pos_mem_blk]
  obtain ⟨e00, e01, e90, e91, e100, e101⟩ := row_index_facts ⟨(i 0).val / 10000, hlt⟩
  have e0' : win4_9.index ⟨(i 0).val / 10000, hlt⟩ (0 : Fin 2) = (i 0).val / 10000 := e90
  intro a
  match a with
  | ⟨0, _⟩ =>
    show win4_9.index ⟨(i 0).val / 10000, hlt⟩ (0 : Fin 2) * 10000 ≤ (i 0).val
      ∧ (i 0).val < win4_9.index ⟨(i 0).val / 10000, hlt⟩ (0 : Fin 2) * 10000 + 10000
    omega
  | ⟨1, _⟩ =>
    show win4_9.index ⟨(i 0).val / 10000, hlt⟩ (1 : Fin 2) * 2 ≤ (i 1).val
      ∧ (i 1).val < win4_9.index ⟨(i 0).val / 10000, hlt⟩ (1 : Fin 2) * 2 + 2
    omega

/-- The time head of the arrays as the region finds them. -/
abbrev timeHead (c : Dev nD) : FVec Ideal S100000x1 .f32 :=
  head (N := 100000) (A := 128) (B := 64) (C := 1) (V c (Pipeline.arrRef spec4 0)) (V c (Pipeline.arrRef spec4 5)) (V c (Pipeline.arrRef spec4 6)) (V c (Pipeline.arrRef spec4 7)) (V c (Pipeline.arrRef spec4 8))

/-- What point t writes back to the time head's array is block t of the time head. -/
theorem time_flushed_eq (c : Dev nD) (t : Fin cfg4.N) :
    (dat4 V c).flushed 10 t = ((cfg4.win 10).blk t).view.read (Elt Ideal) (timeHead V c) := by
  show (cfg4.win 10).cut (grid4.coords t) ((dat4 V c).after 10 t) = _
  rw [after4_10]
  obtain ⟨e00, e01, e90, e91, e100, e101⟩ := row_index_facts t
  have ht : t.val < 10 := t.isLt
  funext j
  obtain ⟨p, q, rfl⟩ : ∃ (p : Fin 10000) (q : Fin 1), j = ix2 p q := ⟨j 0, j 1, eq_ix2 j⟩
  have hr : t.val * 10000 + p.val < 100000 := by have := p.isLt; omega
  show out4_10 (iblk4 V c 0 t) (iblk4 V c 1 t) (iblk4 V c 2 t) (iblk4 V c 3 t) (iblk4 V c 4 t) (iblk4 V c 5 t) (iblk4 V c 6 t) (iblk4 V c 7 t) (iblk4 V c 8 t) (ix2 p q)
    = timeHead V c (((cfg4.win 10).blk t).view.emb (ix2 p q))
  refine (time_left_apply (iblk4 V c 0 t) (iblk4 V c 1 t) (iblk4 V c 2 t) (iblk4 V c 3 t) (iblk4 V c 4 t) (iblk4 V c 5 t) (iblk4 V c 6 t) (iblk4 V c 7 t) (iblk4 V c 8 t) p q).trans ?_
  have hblk : ((cfg4.win 10).blk t).view.emb (ix2 p q) = (ix2 (⟨t.val * 10000 + p.val, hr⟩ : Fin 100000) q : S100000x1.Idx) := by
    funext a; apply Fin.ext
    match a with
    | ⟨0, _⟩ => show win4_10.index t (0 : Fin 2) * 10000 + 1 * p.val = t.val * 10000 + p.val; omega
    | ⟨1, _⟩ => show win4_10.index t (1 : Fin 2) * 1 + 1 * q.val = q.val; omega
  rw [hblk]
  exact head_row _ _ _ _ _ _ _ _ _ _ p ⟨_, hr⟩ (fun j => input_row_apply V c t p j hr)
    (whole5 V c t) (whole6 V c t) (whole7 V c t) (whole8 V c t) q

/-- An index of the time head's array is in point t's block iff each coordinate is in the block's range on its axis. -/
theorem time_mem_blk (t : Fin cfg4.N) (i : S100000x1.Idx) :
    i ∈ ((cfg4.win 10).blk t).view.set ↔ ∀ a : Fin 2, win4_10.index t a * S10000x1.size a ≤ (i a).val
      ∧ (i a).val < win4_10.index t a * S10000x1.size a + S10000x1.size a := by
  show i ∈ ((View.whole main_v73_1).slice (win4_10.rect t)).set ↔ _
  rw [View.set_slice_whole, Rect.mem_set_unit]
  exact Iff.rfl

/-- Every index of the time head's array is in some point's block: row r is in the block of point r / 10000. -/
theorem time_cover (i : S100000x1.Idx) :
    ∃ t : Fin cfg4.N, (cfg4.win 10).flush t = true ∧ i ∈ ((cfg4.win 10).blk t).view.set := by
  have hi0 : (i 0).val < 100000 := (i 0).isLt
  have hi1 : (i 1).val < 1 := (i 1).isLt
  have hN : cfg4.N = 10 := N_4
  have hlt : (i 0).val / 10000 < cfg4.N := by rw [hN]; omega
  refine ⟨⟨(i 0).val / 10000, hlt⟩, flush4_10 _, ?_⟩
  rw [time_mem_blk]
  obtain ⟨e00, e01, e90, e91, e100, e101⟩ := row_index_facts ⟨(i 0).val / 10000, hlt⟩
  have e0' : win4_10.index ⟨(i 0).val / 10000, hlt⟩ (0 : Fin 2) = (i 0).val / 10000 := e100
  intro a
  match a with
  | ⟨0, _⟩ =>
    show win4_10.index ⟨(i 0).val / 10000, hlt⟩ (0 : Fin 2) * 10000 ≤ (i 0).val
      ∧ (i 0).val < win4_10.index ⟨(i 0).val / 10000, hlt⟩ (0 : Fin 2) * 10000 + 10000
    omega
  | ⟨1, _⟩ =>
    show win4_10.index ⟨(i 0).val / 10000, hlt⟩ (1 : Fin 2) * 1 ≤ (i 1).val
      ∧ (i 1).val < win4_10.index ⟨(i 0).val / 10000, hlt⟩ (1 : Fin 2) * 1 + 1
    omega

/-- The position head's array after the region. -/
theorem final_pos (c : Dev nD) :
    (dat4 (F := Ideal) V c).arrAt 9 cfg4.N
      = Cert.Spec.addRow (Cert.Spec.mm (Cert.Spec.biasRelu
            (Cert.Spec.mm (N := 100000) (A := 128) (B := 128) (V c (Pipeline.arrRef spec4 0)) (V c (Pipeline.arrRef spec4 1)))
            (V c (Pipeline.arrRef spec4 2))) (B := 2) (V c (Pipeline.arrRef spec4 3))) (V c (Pipeline.arrRef spec4 4)) :=
  (dat4 V c).arrAt_eq_of_cover 9 (posHead V c) (fun t _ => pos_flushed_eq V c t) pos_cover

/-- The time head's array after the region. -/
theorem final_time (c : Dev nD) :
    (dat4 (F := Ideal) V c).arrAt 10 cfg4.N
      = Cert.Spec.addRow (Cert.Spec.mm (Cert.Spec.biasRelu
            (Cert.Spec.mm (N := 100000) (A := 128) (B := 64) (V c (Pipeline.arrRef spec4 0)) (V c (Pipeline.arrRef spec4 5)))
            (V c (Pipeline.arrRef spec4 6))) (B := 1) (V c (Pipeline.arrRef spec4 7))) (V c (Pipeline.arrRef spec4 8)) :=
  (dat4 V c).arrAt_eq_of_cover 10 (timeHead V c) (fun t _ => time_flushed_eq V c t) time_cover

end Cert.KernelIdeal.Region4

end
-- ==== Proof.FoldValue.lean ====
/-
  What the fold of the idealized kernel program leaves in each buffer, stage by stage, as a function of the argument
  arrays. The opening host stretches compute the edge index vectors and the per-edge numbers; each region leaves in
  its output array the whole-array function its blocks are restrictions of (a matrix product, a biased positive part,
  an output head); each host stretch between regions is one propagation step over the edges; the closing stretch
  lays the two heads' results side by side. Composed, the result buffer ends at `net` of the arguments.
-/
import proofs.«121282_j23184233464436_1_alg».proof.Proof.Gen.KernelIdeal.Frame
import proofs.«121282_j23184233464436_1_alg».proof.Proof.NetDefs
import proofs.«121282_j23184233464436_1_alg».proof.Proof.FoldKeep
import proofs.«121282_j23184233464436_1_alg».proof.Proof.FoldEntry
import proofs.«121282_j23184233464436_1_alg».proof.Proof.FoldStep1
import proofs.«121282_j23184233464436_1_alg».proof.Proof.FoldStep2
import proofs.«121282_j23184233464436_1_alg».proof.Proof.FoldStep3
import proofs.«121282_j23184233464436_1_alg».proof.Proof.Region0
import proofs.«121282_j23184233464436_1_alg».proof.Proof.Region1
import proofs.«121282_j23184233464436_1_alg».proof.Proof.Region2
import proofs.«121282_j23184233464436_1_alg».proof.Proof.Region3
import proofs.«121282_j23184233464436_1_alg».proof.Proof.Region4
import Idealize.ShloMosaic.Lib.StableHlo.Run

set_option maxRecDepth 16384

noncomputable section

namespace Cert.KernelIdeal.Fold

open Cert.KernelIdeal Cert.KernelIdeal.Gen Cert.KernelIdeal.Net Cert.KernelIdeal.Facts₀ Cert.KernelIdeal.Facts Cert.Spec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0: the first matrix product -/

theorem lin1 : W4 m ρ c (Proc.devRef .tc main_v30) = mm (in0 m c) (in2 m c) := by
  have h : (dat0 (F := Ideal) (V3 m ρ) c).arrAt 2 cfg0.N = mm (V3 m ρ c main_arg0) (V3 m ρ c main_arg2) := Region0.final (V3 m ρ) c
  have e : mm (N := 100000) (A := 128) (B := 128) (V3 m ρ c main_arg0) (V3 m ρ c main_arg2) = mm (in0 m c) (in2 m c) :=
    congrArg₂ (mm (N := 100000) (A := 128) (B := 128)) (keep3 m ρ c main_arg0 (by decide) (by decide) (by decide)) (keep3 m ρ c main_arg2 (by decide) (by decide) (by decide))
  have b : W4 m ρ c (Proc.devRef .tc main_v30) = (dat0 (V3 m ρ) c).arrAt 2 cfg0.N := W4_arr m ρ c 2
  exact b.trans (h.trans e)

/-! ## The first propagation -/

theorem agg1 : W5 m ρ c (Proc.devRef .tc main_v43) = (prop (in1 m c) (mm (in0 m c) (in2 m c))) := by
  show StableHlo.after hostOps1 (W4 m ρ c) (Proc.devRef .tc main_v43) = agg (srcIx (in1 m c)) (dstIx (in1 m c)) (nrmOf (srcIx (in1 m c)) (dstIx (in1 m c))) (mm (in0 m c) (in2 m c))
  exact step1 _ _ _ _ (W4 m ρ c) ((keep4 m ρ c main_v5 (by decide)).trans (src3 m ρ c)) ((keep4 m ρ c main_v6 (by decide)).trans (dst3 m ρ c))
    ((keep4 m ρ c main_v29 (by decide)).trans (nrm3 m ρ c)) (lin1 m ρ c)

/-! ## Region 1: bias, positive part, matrix product -/

theorem lin2 : W6 m ρ c (Proc.devRef .tc main_v44) = (mm (N := 100000) (A := 128) (B := 128) (biasRelu (prop (in1 m c) (mm (in0 m c) (in2 m c))) (in3 m c)) (in4 m c)) := by
  have h : (dat1 (F := Ideal) (V5 m ρ) c).arrAt 3 cfg1.N
      = mm (N := 100000) (A := 128) (B := 128) (biasRelu (V5 m ρ c main_v43) (V5 m ρ c main_arg3)) (V5 m ρ c main_arg4) := Region1.final (V5 m ρ) c
  have e0 : V5 m ρ c main_v43 = (prop (in1 m c) (mm (in0 m c) (in2 m c))) := agg1 m ρ c
  have e1 : V5 m ρ c main_arg3 = in3 m c := (keep5 m ρ c main_arg3 (by decide)).trans ((keep4 m ρ c main_arg3 (by decide)).trans (keep3 m ρ c main_arg3 (by decide) (by decide) (by decide)))
  have e2 : V5 m ρ c main_arg4 = in4 m c := (keep5 m ρ c main_arg4 (by decide)).trans ((keep4 m ρ c main_arg4 (by decide)).trans (keep3 m ρ c main_arg4 (by decide) (by decide) (by decide)))
  have b : W6 m ρ c (Proc.devRef .tc main_v44) = (dat1 (V5 m ρ) c).arrAt 3 cfg1.N := W6_arr m ρ c 3
  exact b.trans (h.trans (congrArg₂ (mm (N := 100000) (A := 128) (B := 128)) (congrArg₂ (biasRelu (N := 100000) (B := 128)) e0 e1) e2))

/-! ## The second propagation -/

theorem agg2 : W7 m ρ c (Proc.devRef .tc main_v57) = (prop (in1 m c) (mm (N := 100000) (A := 128) (B := 128) (biasRelu (prop (in1 m c) (mm (in0 m c) (in2 m c))) (in3 m c)) (in4 m c))) := by
  show StableHlo.after hostOps2 (W6 m ρ c) (Proc.devRef .tc main_v57) = agg (srcIx (in1 m c)) (dstIx (in1 m c)) (nrmOf (srcIx (in1 m c)) (dstIx (in1 m c))) (mm (N := 100000) (A := 128) (B := 128) (biasRelu (prop (in1 m c) (mm (in0 m c) (in2 m c))) (in3 m c)) (in4 m c))
  exact step2 _ _ _ _ (W6 m ρ c) (((keep6 m ρ c main_v5 (by decide)).trans ((keep5 m ρ c main_v5 (by decide)).trans (keep4 m ρ c main_v5 (by decide)))).trans (src3 m ρ c)) (((keep6 m ρ c main_v6 (by decide)).trans ((keep5 m ρ c main_v6 (by decide)).trans (keep4 m ρ c main_v6 (by decide)))).trans (dst3 m ρ c))
    (((keep6 m ρ c main_v29 (by decide)).trans ((keep5 m ρ c main_v29 (by decide)).trans (keep4 m ρ c main_v29 (by decide)))).trans (nrm3 m ρ c)) (lin2 m ρ c)

/-! ## Region 2 -/

theorem lin3 : W8 m ρ c (Proc.devRef .tc main_v58) = (mm (N := 100000) (A := 128) (B := 128) (biasRelu (prop (in1 m c) (mm (N := 100000) (A := 128) (B := 128) (biasRelu (prop (in1 m c) (mm (in0 m c) (in2 m c))) (in3 m c)) (in4 m c))) (in5 m c)) (in6 m c)) := by
  have h : (dat2 (F := Ideal) (V7 m ρ) c).arrAt 3 cfg2.N
      = mm (N := 100000) (A := 128) (B := 128) (biasRelu (V7 m ρ c main_v57) (V7 m ρ c main_arg5)) (V7 m ρ c main_arg6) := Region2.final (V7 m ρ) c
  have e0 : V7 m ρ c main_v57 = (prop (in1 m c) (mm (N := 100000) (A := 128) (B := 128) (biasRelu (prop (in1 m c) (mm (in0 m c) (in2 m c))) (in3 m c)) (in4 m c))) := agg2 m ρ c
  have e1 : V7 m ρ c main_arg5 = in5 m c := (keep7 m ρ c main_arg5 (by decide)).trans ((keep6 m ρ c main_arg5 (by decide)).trans ((keep5 m ρ c main_arg5 (by decide)).trans ((keep4 m ρ c main_arg5 (by decide)).trans (keep3 m ρ c main_arg5 (by decide) (by decide) (by decide)))))
  have e2 : V7 m ρ c main_arg6 = in6 m c := (keep7 m ρ c main_arg6 (by decide)).trans ((keep6 m ρ c main_arg6 (by decide)).trans ((keep5 m ρ c main_arg6 (by decide)).trans ((keep4 m ρ c main_arg6 (by decide)).trans (keep3 m ρ c main_arg6 (by decide) (by decide) (by decide)))))
  have b : W8 m ρ c (Proc.devRef .tc main_v58) = (dat2 (V7 m ρ) c).arrAt 3 cfg2.N := W8_arr m ρ c 3
  exact b.trans (h.trans (congrArg₂ (mm (N := 100000) (A := 128) (B := 128)) (congrArg₂ (biasRelu (N := 100000) (B := 128)) e0 e1) e2))

/-! ## The third propagation -/

theorem agg3 : W9 m ρ c (Proc.devRef .tc main_v71) = (prop (in1 m c) (mm (N := 100000) (A := 128) (B := 128) (biasRelu (prop (in1 m c) (mm (N := 100000) (A := 128) (B := 128) (biasRelu (prop (in1 m c) (mm (in0 m c) (in2 m c))) (in3 m c)) (in4 m c))) (in5 m c)) (in6 m c))) := by
  show StableHlo.after hostOps3 (W8 m ρ c) (Proc.devRef .tc main_v71) = agg (srcIx (in1 m c)) (dstIx (in1 m c)) (nrmOf (srcIx (in1 m c)) (dstIx (in1 m c))) (mm (N := 100000) (A := 128) (B := 128) (biasRelu (prop (in1 m c) (mm (N := 100000) (A := 128) (B := 128) (biasRelu (prop (in1 m c) (mm (in0 m c) (in2 m c))) (in3 m c)) (in4 m c))) (in5 m c)) (in6 m c))
  exact step3 _ _ _ _ (W8 m ρ c) (((keep8 m ρ c main_v5 (by decide)).trans ((keep7 m ρ c main_v5 (by decide)).trans ((keep6 m ρ c main_v5 (by decide)).trans ((keep5 m ρ c main_v5 (by decide)).trans (keep4 m ρ c main_v5 (by decide)))))).trans (src3 m ρ c)) (((keep8 m ρ c main_v6 (by decide)).trans ((keep7 m ρ c main_v6 (by decide)).trans ((keep6 m ρ c main_v6 (by decide)).trans ((keep5 m ρ c main_v6 (by decide)).trans (keep4 m ρ c main_v6 (by decide)))))).trans (dst3 m ρ c))
    (((keep8 m ρ c main_v29 (by decide)).trans ((keep7 m ρ c main_v29 (by decide)).trans ((keep6 m ρ c main_v29 (by decide)).trans ((keep5 m ρ c main_v29 (by decide)).trans (keep4 m ρ c main_v29 (by decide)))))).trans (nrm3 m ρ c)) (lin3 m ρ c)

/-! ## Region 3: bias and positive part — the node features -/

theorem act3 : W10 m ρ c (Proc.devRef .tc main_v72)
    = feats (in0 m c) (in1 m c) (in2 m c) (in3 m c) (in4 m c) (in5 m c) (in6 m c) (in7 m c) := by
  have h : (dat3 (F := Ideal) (V9 m ρ) c).arrAt 2 cfg3.N = biasRelu (N := 100000) (B := 128) (V9 m ρ c main_v71) (V9 m ρ c main_arg7) := Region3.final (V9 m ρ) c
  have e0 : V9 m ρ c main_v71 = (prop (in1 m c) (mm (N := 100000) (A := 128) (B := 128) (biasRelu (prop (in1 m c) (mm (N := 100000) (A := 128) (B := 128) (biasRelu (prop (in1 m c) (mm (in0 m c) (in2 m c))) (in3 m c)) (in4 m c))) (in5 m c)) (in6 m c))) := agg3 m ρ c
  have e1 : V9 m ρ c main_arg7 = in7 m c := (keep9 m ρ c main_arg7 (by decide)).trans ((keep8 m ρ c main_arg7 (by decide)).trans ((keep7 m ρ c main_arg7 (by decide)).trans ((keep6 m ρ c main_arg7 (by decide)).trans ((keep5 m ρ c main_arg7 (by decide)).trans ((keep4 m ρ c main_arg7 (by decide)).trans (keep3 m ρ c main_arg7 (by decide) (by decide) (by decide)))))))
  have b : W10 m ρ c (Proc.devRef .tc main_v72) = (dat3 (V9 m ρ) c).arrAt 2 cfg3.N := W10_arr m ρ c 2
  exact b.trans (h.trans (congrArg₂ (biasRelu (N := 100000) (B := 128)) e0 e1))

/-! ## Region 4: the two heads -/

theorem headPos : W11 m ρ c (Proc.devRef .tc main_v73_0)
    = head (feats (in0 m c) (in1 m c) (in2 m c) (in3 m c) (in4 m c) (in5 m c) (in6 m c) (in7 m c)) (in8 m c) (in9 m c) (in10 m c) (in11 m c) := by
  have h : (dat4 (F := Ideal) (V10 m ρ) c).arrAt 9 cfg4.N
      = head (A := 128) (B := 128) (C := 2) (V10 m ρ c main_v72) (V10 m ρ c main_arg8) (V10 m ρ c main_arg9) (V10 m ρ c main_arg10) (V10 m ρ c main_arg11) :=
    Region4.final_pos (V10 m ρ) c
  have e0 : V10 m ρ c main_v72 = _ := act3 m ρ c
  have e1 : V10 m ρ c main_arg8 = in8 m c := (keep10 m ρ c main_arg8 (by decide)).trans ((keep9 m ρ c main_arg8 (by decide)).trans ((keep8 m ρ c main_arg8 (by decide)).trans ((keep7 m ρ c main_arg8 (by decide)).trans ((keep6 m ρ c main_arg8 (by decide)).trans ((keep5 m ρ c main_arg8 (by decide)).trans ((keep4 m ρ c main_arg8 (by decide)).trans (keep3 m ρ c main_arg8 (by decide) (by decide) (by decide))))))))
  have e2 : V10 m ρ c main_arg9 = in9 m c := (keep10 m ρ c main_arg9 (by decide)).trans ((keep9 m ρ c main_arg9 (by decide)).trans ((keep8 m ρ c main_arg9 (by decide)).trans ((keep7 m ρ c main_arg9 (by decide)).trans ((keep6 m ρ c main_arg9 (by decide)).trans ((keep5 m ρ c main_arg9 (by decide)).trans ((keep4 m ρ c main_arg9 (by decide)).trans (keep3 m ρ c main_arg9 (by decide) (by decide) (by decide))))))))
  have e3 : V10 m ρ c main_arg10 = in10 m c := (keep10 m ρ c main_arg10 (by decide)).trans ((keep9 m ρ c main_arg10 (by decide)).trans ((keep8 m ρ c main_arg10 (by decide)).trans ((keep7 m ρ c main_arg10 (by decide)).trans ((keep6 m ρ c main_arg10 (by decide)).trans ((keep5 m ρ c main_arg10 (by decide)).trans ((keep4 m ρ c main_arg10 (by decide)).trans (keep3 m ρ c main_arg10 (by decide) (by decide) (by decide))))))))
  have e4 : V10 m ρ c main_arg11 = in11 m c := (keep10 m ρ c main_arg11 (by decide)).trans ((keep9 m ρ c main_arg11 (by decide)).trans ((keep8 m ρ c main_arg11 (by decide)).trans ((keep7 m ρ c main_arg11 (by decide)).trans ((keep6 m ρ c main_arg11 (by decide)).trans ((keep5 m ρ c main_arg11 (by decide)).trans ((keep4 m ρ c main_arg11 (by decide)).trans (keep3 m ρ c main_arg11 (by decide) (by decide) (by decide))))))))
  have b : W11 m ρ c (Proc.devRef .tc main_v73_0) = (dat4 (V10 m ρ) c).arrAt 9 cfg4.N := W11_arr m ρ c 9
  rw [b, h, e0, e1, e2, e3, e4]

theorem headTime : W11 m ρ c (Proc.devRef .tc main_v73_1)
    = head (feats (in0 m c) (in1 m c) (in2 m c) (in3 m c) (in4 m c) (in5 m c) (in6 m c) (in7 m c)) (in12 m c) (in13 m c) (in14 m c) (in15 m c) := by
  have h : (dat4 (F := Ideal) (V10 m ρ) c).arrAt 10 cfg4.N
      = head (A := 128) (B := 64) (C := 1) (V10 m ρ c main_v72) (V10 m ρ c main_arg12) (V10 m ρ c main_arg13) (V10 m ρ c main_arg14) (V10 m ρ c main_arg15) :=
    Region4.final_time (V10 m ρ) c
  have e0 : V10 m ρ c main_v72 = _ := act3 m ρ c
  have e1 : V10 m ρ c main_arg12 = in12 m c := (keep10 m ρ c main_arg12 (by decide)).trans ((keep9 m ρ c main_arg12 (by decide)).trans ((keep8 m ρ c main_arg12 (by decide)).trans ((keep7 m ρ c main_arg12 (by decide)).trans ((keep6 m ρ c main_arg12 (by decide)).trans ((keep5 m ρ c main_arg12 (by decide)).trans ((keep4 m ρ c main_arg12 (by decide)).trans (keep3 m ρ c main_arg12 (by decide) (by decide) (by decide))))))))
  have e2 : V10 m ρ c main_arg13 = in13 m c := (keep10 m ρ c main_arg13 (by decide)).trans ((keep9 m ρ c main_arg13 (by decide)).trans ((keep8 m ρ c main_arg13 (by decide)).trans ((keep7 m ρ c main_arg13 (by decide)).trans ((keep6 m ρ c main_arg13 (by decide)).trans ((keep5 m ρ c main_arg13 (by decide)).trans ((keep4 m ρ c main_arg13 (by decide)).trans (keep3 m ρ c main_arg13 (by decide) (by decide) (by decide))))))))
  have e3 : V10 m ρ c main_arg14 = in14 m c := (keep10 m ρ c main_arg14 (by decide)).trans ((keep9 m ρ c main_arg14 (by decide)).trans ((keep8 m ρ c main_arg14 (by decide)).trans ((keep7 m ρ c main_arg14 (by decide)).trans ((keep6 m ρ c main_arg14 (by decide)).trans ((keep5 m ρ c main_arg14 (by decide)).trans ((keep4 m ρ c main_arg14 (by decide)).trans (keep3 m ρ c main_arg14 (by decide) (by decide) (by decide))))))))
  have e4 : V10 m ρ c main_arg15 = in15 m c := (keep10 m ρ c main_arg15 (by decide)).trans ((keep9 m ρ c main_arg15 (by decide)).trans ((keep8 m ρ c main_arg15 (by decide)).trans ((keep7 m ρ c main_arg15 (by decide)).trans ((keep6 m ρ c main_arg15 (by decide)).trans ((keep5 m ρ c main_arg15 (by decide)).trans ((keep4 m ρ c main_arg15 (by decide)).trans (keep3 m ρ c main_arg15 (by decide) (by decide) (by decide))))))))
  have b : W11 m ρ c (Proc.devRef .tc main_v73_1) = (dat4 (V10 m ρ) c).arrAt 10 cfg4.N := W11_arr m ρ c 10
  rw [b, h, e0, e1, e2, e3, e4]

/-! ## The closing stretch: the heads side by side -/

theorem side (a : (⟨S100000x2, .f32⟩ : BufTy).Contents (Elt Ideal)) (b : (⟨S100000x1, .f32⟩ : BufTy).Contents (Elt Ideal)) (V : Valuation τ sig (Elt Ideal))
    (ha : V (Proc.devRef .tc main_v73_0) = a) (hb : V (Proc.devRef .tc main_v73_1) = b) :
    StableHlo.after hostOps5 V (Proc.devRef .tc main_v74) = cat a b := by
  subst ha hb
  after_results
  try rfl

/-- THE RESULT: the fold leaves `net` of the arguments in the result buffer. -/
theorem result : W12 m ρ c (Proc.devRef .tc main_v74)
    = net (in0 m c) (in1 m c) (in2 m c) (in3 m c) (in4 m c) (in5 m c) (in6 m c) (in7 m c) (in8 m c) (in9 m c) (in10 m c)
        (in11 m c) (in12 m c) (in13 m c) (in14 m c) (in15 m c) := by
  show StableHlo.after hostOps5 (W11 m ρ c) (Proc.devRef .tc main_v74) = cat _ _
  exact side _ _ (W11 m ρ c) (headPos m ρ c) (headTime m ρ c)

end Cert.KernelIdeal.Fold

end
-- ==== Proof.RefRun.lean ====
/-
  The reference program's run. Its @main is a straight line of 132 host operations (the functions it calls are
  written out at their call sites); every weakly fair execution terminates, and every buffer ends holding the fold of
  the operations' results, in program order, over the launch contents. What the fold leaves in the result buffer is
  computed elsewhere.
-/
import proofs.«121282_j23184233464436_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 132 operations, in order (a called function's operations stand in its call's place, spelt `TRef.…`). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v5 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v5 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v5 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf,
    binary main_v65 main_arg6 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_12 (constantI S_ 32 0#32),
    unary main_c_12 main_v67 (broadcastInDim S1700000 ![] bcast_S_S1700000 : (⟨S_, .i32⟩ : BufTy).Contents (Elt F) → (⟨S1700000, .i32⟩ : BufTy).Contents (Elt F)),
    binary main_v5 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v69 (broadcastInDim S1700000 ![] bcast_S_S1700000 : (⟨S_, .i32⟩ : BufTy).Contents (Elt F) → (⟨S1700000, .i32⟩ : BufTy).Contents (Elt F)),
    binary main_v5 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v5 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v74 (broadcastInDim S1700000x1 ![0] bcast_S1700000_S1700000x1_0 : (⟨S1700000, .f32⟩ : BufTy).Contents (Elt F) → (⟨S1700000x1, .f32⟩ : BufTy).Contents (Elt F)),
    unary main_v74 main_v75 (broadcastInDim S1700000x128 ![0, 1] bcast_S1700000x1_S1700000x128_0_1 : (⟨S1700000x1, .f32⟩ : BufTy).Contents (Elt F) → (⟨S1700000x128, .f32⟩ : BufTy).Contents (Elt F)),
    binary main_v73 main_v75 main_v76 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v77 (broadcastInDim S100000x128 ![] bcast_S_S100000x128 : (⟨S_, .f32⟩ : BufTy).Contents (Elt F) → (⟨S100000x128, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v82) (TRef.of (T := ⟨S100000x128, .f32⟩) main_call3_v0) (TRef.of (T := ⟨S100000x128, .f32⟩) main_v83) maximumf,
    binary main_v83 main_arg8 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v85 (broadcastInDim S1x128 ![1] bcast_S128_S1x128_1 : (⟨S128, .f32⟩ : BufTy).Contents (Elt F) → (⟨S1x128, .f32⟩ : BufTy).Contents (Elt F)),
    unary main_v85 main_v86 (broadcastInDim S100000x128 ![0, 1] bcast_S1x128_S100000x128_0_1 : (⟨S1x128, .f32⟩ : BufTy).Contents (Elt F) → (⟨S100000x128, .f32⟩ : BufTy).Contents (Elt F)),
    binary main_v84 main_v86 main_v87 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v87) (TRef.of (T := ⟨S100000x128, .f32⟩) main_call4_v0) (TRef.of (T := ⟨S100000x128, .f32⟩) main_v88) maximumf,
    binary main_v88 main_arg10 main_v89 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg11 main_v90 (broadcastInDim S1x2 ![1] bcast_S2_S1x2_1 : (⟨S2, .f32⟩ : BufTy).Contents (Elt F) → (⟨S1x2, .f32⟩ : BufTy).Contents (Elt F)),
    unary main_v90 main_v91 (broadcastInDim S100000x2 ![0, 1] bcast_S1x2_S100000x2_0_1 : (⟨S1x2, .f32⟩ : BufTy).Contents (Elt F) → (⟨S100000x2, .f32⟩ : BufTy).Contents (Elt F)),
    binary main_v89 main_v91 main_v92 (addf : (⟨S100000x2, .f32⟩ : BufTy).Contents (Elt F) → (⟨S100000x2, .f32⟩ : BufTy).Contents (Elt F) → (⟨S100000x2, .f32⟩ : BufTy).Contents (Elt F)),
    binary main_v83 main_arg12 main_v93 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg13 main_v94 (broadcastInDim S1x64 ![1] bcast_S64_S1x64_1 : (⟨S64, .f32⟩ : BufTy).Contents (Elt F) → (⟨S1x64, .f32⟩ : BufTy).Contents (Elt F)),
    unary main_v94 main_v95 (broadcastInDim S100000x64 ![0, 1] bcast_S1x64_S100000x64_0_1 : (⟨S1x64, .f32⟩ : BufTy).Contents (Elt F) → (⟨S100000x64, .f32⟩ : BufTy).Contents (Elt F)),
    binary main_v93 main_v95 main_v96 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v96) (TRef.of (T := ⟨S100000x64, .f32⟩) main_call5_v0) (TRef.of (T := ⟨S100000x64, .f32⟩) main_v97) maximumf,
    binary main_v97 main_arg14 main_v98 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg15 main_v99 (broadcastInDim S1x1 ![1] bcast_S1_S1x1_1 : (⟨S1, .f32⟩ : BufTy).Contents (Elt F) → (⟨S1x1, .f32⟩ : BufTy).Contents (Elt F)),
    unary main_v99 main_v100 (broadcastInDim S100000x1 ![0, 1] bcast_S1x1_S100000x1_0_1 : (⟨S1x1, .f32⟩ : BufTy).Contents (Elt F) → (⟨S100000x1, .f32⟩ : BufTy).Contents (Elt F)),
    binary main_v98 main_v100 main_v101 (addf : (⟨S100000x1, .f32⟩ : BufTy).Contents (Elt F) → (⟨S100000x1, .f32⟩ : BufTy).Contents (Elt F) → (⟨S100000x1, .f32⟩ : BufTy).Contents (Elt F)),
    binary main_v92 main_v101 main_v102 ((fun a b => concatenate S100000x3 1 [⟨S100000x2, a⟩, ⟨S100000x1, b⟩] concatenates_S100000x2_S100000x1_S100000x3_d1) : (⟨S100000x2, .f32⟩ : BufTy).Contents (Elt F) → (⟨S100000x1, .f32⟩ : BufTy).Contents (Elt F) → (⟨S100000x3, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩

/-- Every weakly fair execution of the reference terminates with each buffer at the fold of the operations over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.HostRun

end
-- ==== Proof.RefSplit.lean ====
/-
  The reference's 132 operations cut into twelve consecutive stages — three opening stages that compute the edge index
  vectors and per-edge numbers; then, alternately, a dense stage (matrix product, or bias / positive part / matrix
  product) and a propagation stage; the node features; the two heads; the final side-by-side — with the fold of the
  whole list as the composition of the stages' folds, and which buffers each stage writes.
-/
import proofs.«121282_j23184233464436_1_alg».proof.Proof.RefRun

set_option maxRecDepth 16384

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list after the fold over the first. -/
theorem after_append (a b : List (HloOp τ sig (Elt F))) (V : Valuation τ sig (Elt F)) : after (a ++ b) V = after b (after a V) := by
  induction a generalizing V with
  | nil => rfl
  | cons op a ih => exact ih (op.result V)

/-- Stage 0: operations 0 … 17. -/
abbrev seg0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The buffers stage 0 writes. -/
abbrev written0 : List (Ref sig .tc) := [main_v0, main_v1, main_v2, main_v3, main_v4, main_v5, main_v6, main_cst, main_v7, main_cst_0, main_v8, main_v9, main_v10, main_cst_1, main_v11, main_v12, main_v13, main_cst_2]
theorem writes0 : (seg0 : List (HloOp τ sig (Elt F))).Forall fun op => op.writes ⊆ ((written0).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- Stage 1: operations 18 … 20. -/
abbrev seg1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The buffers stage 1 writes. -/
abbrev written1 : List (Ref sig .tc) := [main_call0_v0, main_call0_v1, main_v14]
theorem writes1 : (seg1 : List (HloOp τ sig (Elt F))).Forall fun op => op.writes ⊆ ((written1).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- Stage 2: operations 21 … 39. -/
abbrev seg2 : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The buffers stage 2 writes. -/
abbrev written2 : List (Ref sig .tc) := [main_c, main_v15, main_v16, main_c_3, main_v17, main_v18, main_v19, main_v20, main_v21, main_c_4, main_v22, main_v23, main_c_5, main_v24, main_v25, main_v26, main_v27, main_v28, main_v29]
theorem writes2 : (seg2 : List (HloOp τ sig (Elt F))).Forall fun op => op.writes ⊆ ((written2).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- Stage 3: operations 40 … 40. -/
abbrev seg3 : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers stage 3 writes. -/
abbrev written3 : List (Ref sig .tc) := [main_v30]
theorem writes3 : (seg3 : List (HloOp τ sig (Elt F))).Forall fun op => op.writes ⊆ ((written3).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- Stage 4: operations 41 … 56. -/
abbrev seg4 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The buffers stage 4 writes. -/
abbrev written4 : List (Ref sig .tc) := [main_c_6, main_v31, main_v32, main_c_7, main_v33, main_v34, main_v35, main_v36, main_v37, main_v38, main_v39, main_v40, main_cst_8, main_v41, main_v42, main_v43]
theorem writes4 : (seg4 : List (HloOp τ sig (Elt F))).Forall fun op => op.writes ⊆ ((written4).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- Stage 5: operations 57 … 63. -/
abbrev seg5 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers stage 5 writes. -/
abbrev written5 : List (Ref sig .tc) := [main_v44, main_v45, main_v46, main_call1_cst, main_call1_v0, main_v47, main_v48]
theorem writes5 : (seg5 : List (HloOp τ sig (Elt F))).Forall fun op => op.writes ⊆ ((written5).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- Stage 6: operations 64 … 79. -/
abbrev seg6 : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v5 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v5 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v5 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The buffers stage 6 writes. -/
abbrev written6 : List (Ref sig .tc) := [main_c_9, main_v49, main_v50, main_c_10, main_v51, main_v52, main_v53, main_v54, main_v55, main_v56, main_v57, main_v58, main_cst_11, main_v59, main_v60, main_v61]
theorem writes6 : (seg6 : List (HloOp τ sig (Elt F))).Forall fun op => op.writes ⊆ ((written6).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- Stage 7: operations 80 … 86. -/
abbrev seg7 : List (HloOp τ sig (Elt F)) :=
  [ unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf,
    binary main_v65 main_arg6 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers stage 7 writes. -/
abbrev written7 : List (Ref sig .tc) := [main_v62, main_v63, main_v64, main_call2_cst, main_call2_v0, main_v65, main_v66]
theorem writes7 : (seg7 : List (HloOp τ sig (Elt F))).Forall fun op => op.writes ⊆ ((written7).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- Stage 8: operations 87 … 102. -/
abbrev seg8 : List (HloOp τ sig (Elt F)) :=
  [ nullary main_c_12 (constantI S_ 32 0#32),
    unary main_c_12 main_v67 (broadcastInDim S1700000 ![] bcast_S_S1700000 : (⟨S_, .i32⟩ : BufTy).Contents (Elt F) → (⟨S1700000, .i32⟩ : BufTy).Contents (Elt F)),
    binary main_v5 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v69 (broadcastInDim S1700000 ![] bcast_S_S1700000 : (⟨S_, .i32⟩ : BufTy).Contents (Elt F) → (⟨S1700000, .i32⟩ : BufTy).Contents (Elt F)),
    binary main_v5 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v5 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v74 (broadcastInDim S1700000x1 ![0] bcast_S1700000_S1700000x1_0 : (⟨S1700000, .f32⟩ : BufTy).Contents (Elt F) → (⟨S1700000x1, .f32⟩ : BufTy).Contents (Elt F)),
    unary main_v74 main_v75 (broadcastInDim S1700000x128 ![0, 1] bcast_S1700000x1_S1700000x128_0_1 : (⟨S1700000x1, .f32⟩ : BufTy).Contents (Elt F) → (⟨S1700000x128, .f32⟩ : BufTy).Contents (Elt F)),
    binary main_v73 main_v75 main_v76 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v77 (broadcastInDim S100000x128 ![] bcast_S_S100000x128 : (⟨S_, .f32⟩ : BufTy).Contents (Elt F) → (⟨S100000x128, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The buffers stage 8 writes. -/
abbrev written8 : List (Ref sig .tc) := [main_c_12, main_v67, main_v68, main_c_13, main_v69, main_v70, main_v71, main_v72, main_v73, main_v74, main_v75, main_v76, main_cst_14, main_v77, main_v78, main_v79]
theorem writes8 : (seg8 : List (HloOp τ sig (Elt F))).Forall fun op => op.writes ⊆ ((written8).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- Stage 9: operations 103 … 108. -/
abbrev seg9 : List (HloOp τ sig (Elt F)) :=
  [ unary main_arg7 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v82) (TRef.of (T := ⟨S100000x128, .f32⟩) main_call3_v0) (TRef.of (T := ⟨S100000x128, .f32⟩) main_v83) maximumf ]

/-- The buffers stage 9 writes. -/
abbrev written9 : List (Ref sig .tc) := [main_v80, main_v81, main_v82, main_call3_cst, main_call3_v0, main_v83]
theorem writes9 : (seg9 : List (HloOp τ sig (Elt F))).Forall fun op => op.writes ⊆ ((written9).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- Stage 10: operations 109 … 130. -/
abbrev seg10 : List (HloOp τ sig (Elt F)) :=
  [ binary main_v83 main_arg8 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v85 (broadcastInDim S1x128 ![1] bcast_S128_S1x128_1 : (⟨S128, .f32⟩ : BufTy).Contents (Elt F) → (⟨S1x128, .f32⟩ : BufTy).Contents (Elt F)),
    unary main_v85 main_v86 (broadcastInDim S100000x128 ![0, 1] bcast_S1x128_S100000x128_0_1 : (⟨S1x128, .f32⟩ : BufTy).Contents (Elt F) → (⟨S100000x128, .f32⟩ : BufTy).Contents (Elt F)),
    binary main_v84 main_v86 main_v87 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v87) (TRef.of (T := ⟨S100000x128, .f32⟩) main_call4_v0) (TRef.of (T := ⟨S100000x128, .f32⟩) main_v88) maximumf,
    binary main_v88 main_arg10 main_v89 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg11 main_v90 (broadcastInDim S1x2 ![1] bcast_S2_S1x2_1 : (⟨S2, .f32⟩ : BufTy).Contents (Elt F) → (⟨S1x2, .f32⟩ : BufTy).Contents (Elt F)),
    unary main_v90 main_v91 (broadcastInDim S100000x2 ![0, 1] bcast_S1x2_S100000x2_0_1 : (⟨S1x2, .f32⟩ : BufTy).Contents (Elt F) → (⟨S100000x2, .f32⟩ : BufTy).Contents (Elt F)),
    binary main_v89 main_v91 main_v92 (addf : (⟨S100000x2, .f32⟩ : BufTy).Contents (Elt F) → (⟨S100000x2, .f32⟩ : BufTy).Contents (Elt F) → (⟨S100000x2, .f32⟩ : BufTy).Contents (Elt F)),
    binary main_v83 main_arg12 main_v93 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg13 main_v94 (broadcastInDim S1x64 ![1] bcast_S64_S1x64_1 : (⟨S64, .f32⟩ : BufTy).Contents (Elt F) → (⟨S1x64, .f32⟩ : BufTy).Contents (Elt F)),
    unary main_v94 main_v95 (broadcastInDim S100000x64 ![0, 1] bcast_S1x64_S100000x64_0_1 : (⟨S1x64, .f32⟩ : BufTy).Contents (Elt F) → (⟨S100000x64, .f32⟩ : BufTy).Contents (Elt F)),
    binary main_v93 main_v95 main_v96 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v96) (TRef.of (T := ⟨S100000x64, .f32⟩) main_call5_v0) (TRef.of (T := ⟨S100000x64, .f32⟩) main_v97) maximumf,
    binary main_v97 main_arg14 main_v98 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg15 main_v99 (broadcastInDim S1x1 ![1] bcast_S1_S1x1_1 : (⟨S1, .f32⟩ : BufTy).Contents (Elt F) → (⟨S1x1, .f32⟩ : BufTy).Contents (Elt F)),
    unary main_v99 main_v100 (broadcastInDim S100000x1 ![0, 1] bcast_S1x1_S100000x1_0_1 : (⟨S1x1, .f32⟩ : BufTy).Contents (Elt F) → (⟨S100000x1, .f32⟩ : BufTy).Contents (Elt F)),
    binary main_v98 main_v100 main_v101 (addf : (⟨S100000x1, .f32⟩ : BufTy).Contents (Elt F) → (⟨S100000x1, .f32⟩ : BufTy).Contents (Elt F) → (⟨S100000x1, .f32⟩ : BufTy).Contents (Elt F)) ]

/-- The buffers stage 10 writes. -/
abbrev written10 : List (Ref sig .tc) := [main_v84, main_v85, main_v86, main_v87, main_call4_cst, main_call4_v0, main_v88, main_v89, main_v90, main_v91, main_v92, main_v93, main_v94, main_v95, main_v96, main_call5_cst, main_call5_v0, main_v97, main_v98, main_v99, main_v100, main_v101]
theorem writes10 : (seg10 : List (HloOp τ sig (Elt F))).Forall fun op => op.writes ⊆ ((written10).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- Stage 11: operations 131 … 131. -/
abbrev seg11 : List (HloOp τ sig (Elt F)) :=
  [ binary main_v92 main_v101 main_v102 ((fun a b => concatenate S100000x3 1 [⟨S100000x2, a⟩, ⟨S100000x1, b⟩] concatenates_S100000x2_S100000x1_S100000x3_d1) : (⟨S100000x2, .f32⟩ : BufTy).Contents (Elt F) → (⟨S100000x1, .f32⟩ : BufTy).Contents (Elt F) → (⟨S100000x3, .f32⟩ : BufTy).Contents (Elt F)) ]

/-- The buffers stage 11 writes. -/
abbrev written11 : List (Ref sig .tc) := [main_v102]
theorem writes11 : (seg11 : List (HloOp τ sig (Elt F))).Forall fun op => op.writes ⊆ ((written11).map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

set_option maxHeartbeats 4000000 in
/-- The program's operations are the stages in order. -/
theorem ops_split : (ops : List (HloOp τ sig (Elt F))) = seg0 ++ (seg1 ++ (seg2 ++ (seg3 ++ (seg4 ++ (seg5 ++ (seg6 ++ (seg7 ++ (seg8 ++ (seg9 ++ (seg10 ++ (seg11))))))))))) := rfl

/-- The fold of the whole program is the composition of the stages' folds. -/
theorem after_ops (V : Valuation τ sig (Elt F)) :
    after ops V = after seg11 (after seg10 (after seg9 (after seg8 (after seg7 (after seg6 (after seg5 (after seg4 (after seg3 (after seg2 (after seg1 (after seg0 (V)))))))))))) := by
  rw [ops_split]
  simp only [after_append]

/-- A buffer a stage does not write keeps its contents through the stage. -/
theorem keep0 (V : Valuation τ sig (Elt F)) (r : Ref sig .tc) (h : r ∉ written0) : after seg0 V (Proc.devRef .tc r) = V (Proc.devRef .tc r) :=
  after_of_writes_sub seg0 V writes0 h
theorem keep1 (V : Valuation τ sig (Elt F)) (r : Ref sig .tc) (h : r ∉ written1) : after seg1 V (Proc.devRef .tc r) = V (Proc.devRef .tc r) :=
  after_of_writes_sub seg1 V writes1 h
theorem keep2 (V : Valuation τ sig (Elt F)) (r : Ref sig .tc) (h : r ∉ written2) : after seg2 V (Proc.devRef .tc r) = V (Proc.devRef .tc r) :=
  after_of_writes_sub seg2 V writes2 h
theorem keep3 (V : Valuation τ sig (Elt F)) (r : Ref sig .tc) (h : r ∉ written3) : after seg3 V (Proc.devRef .tc r) = V (Proc.devRef .tc r) :=
  after_of_writes_sub seg3 V writes3 h
theorem keep4 (V : Valuation τ sig (Elt F)) (r : Ref sig .tc) (h : r ∉ written4) : after seg4 V (Proc.devRef .tc r) = V (Proc.devRef .tc r) :=
  after_of_writes_sub seg4 V writes4 h
theorem keep5 (V : Valuation τ sig (Elt F)) (r : Ref sig .tc) (h : r ∉ written5) : after seg5 V (Proc.devRef .tc r) = V (Proc.devRef .tc r) :=
  after_of_writes_sub seg5 V writes5 h
theorem keep6 (V : Valuation τ sig (Elt F)) (r : Ref sig .tc) (h : r ∉ written6) : after seg6 V (Proc.devRef .tc r) = V (Proc.devRef .tc r) :=
  after_of_writes_sub seg6 V writes6 h
theorem keep7 (V : Valuation τ sig (Elt F)) (r : Ref sig .tc) (h : r ∉ written7) : after seg7 V (Proc.devRef .tc r) = V (Proc.devRef .tc r) :=
  after_of_writes_sub seg7 V writes7 h
theorem keep8 (V : Valuation τ sig (Elt F)) (r : Ref sig .tc) (h : r ∉ written8) : after seg8 V (Proc.devRef .tc r) = V (Proc.devRef .tc r) :=
  after_of_writes_sub seg8 V writes8 h
theorem keep9 (V : Valuation τ sig (Elt F)) (r : Ref sig .tc) (h : r ∉ written9) : after seg9 V (Proc.devRef .tc r) = V (Proc.devRef .tc r) :=
  after_of_writes_sub seg9 V writes9 h
theorem keep10 (V : Valuation τ sig (Elt F)) (r : Ref sig .tc) (h : r ∉ written10) : after seg10 V (Proc.devRef .tc r) = V (Proc.devRef .tc r) :=
  after_of_writes_sub seg10 V writes10 h
theorem keep11 (V : Valuation τ sig (Elt F)) (r : Ref sig .tc) (h : r ∉ written11) : after seg11 V (Proc.devRef .tc r) = V (Proc.devRef .tc r) :=
  after_of_writes_sub seg11 V writes11 h

end Cert.ReferenceIdeal.HostRun

end
-- ==== Proof.LibNetHostForms.lean ====
/-
  Host forms of a dense layer as whole-array equations at the ideal values, for matrices of any sizes:

  * a plain `dot_general` [N, A] × [A, B] is the matrix product `Cert.Spec.mm`;
  * a vector [B] made a row, repeated down the rows and added to a matrix is `Cert.Spec.addRow`;
  * the same followed by the maximum with a broadcast zero constant is `Cert.Spec.biasRelu`.
-/
import proofs.«121282_j23184233464436_1_alg».proof.Proof.Spec
import proofs.«121282_j23184233464436_1_alg».proof.Proof.LibHostForms

noncomputable section

open scoped BigOperators

namespace Cert.Spec

open Idealize.ShloMosaic Idealize.ShloMosaic.ValueIdx

variable {N A B : Nat}

/-- A plain host matrix product is `mm`. -/
theorem host_mm (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ .f32) (W : FVec Ideal ⟨2, ![A, B]⟩ .f32) :
    Host.dotGeneral (F := Ideal) d prec X W = mm X W :=
  HostForms.dotGeneral_mm d h1 h2 h3 h4 h5 h6 prec X W

/-- A vector broadcast to a row, then down the rows, added to a matrix: `addRow`. -/
theorem host_addRow (Z : FVec Ideal ⟨2, ![N, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) :
    addf Z (broadcastInDim ⟨2, ![N, B]⟩ ![0, 1] h2 (broadcastInDim ⟨2, ![1, B]⟩ ![1] h1 b)) = addRow Z b := by
  rw [HostForms.bias_bcast_bcast]
  rfl

/-- The same, then the maximum with a broadcast zero: `biasRelu`. -/
theorem host_biasRelu (Z : FVec Ideal ⟨2, ![N, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1])
    (h0 : (⟨0, ![]⟩ : Shape).BroadcastsInDim ⟨2, ![N, B]⟩ ![]) :
    maximumf (addf Z (broadcastInDim ⟨2, ![N, B]⟩ ![0, 1] h2 (broadcastInDim ⟨2, ![1, B]⟩ ![1] h1 b)))
        (broadcastInDim ⟨2, ![N, B]⟩ ![] h0 (constant (F := Ideal) ⟨0, ![]⟩ .f32 0x00000000#32)) = biasRelu Z b := by
  rw [HostForms.bias_bcast_bcast, HostForms.bcast_constant]
  funext i
  show max (Z i + b (ix1 (i 1))) (Ideal.ofBits .f32 0x00000000#32) = max (Z i + b (ix1 (i 1))) 0
  rw [Ideal.ofBits_zero_f32]

end Cert.Spec

end
-- ==== Proof.RefStages.lean ====
/-
  What each stage of the reference computes, as a function of the buffers it reads: the opening stage gives the edge
  index vectors and per-edge numbers; a propagation stage is `agg`; a dense stage is a matrix product of a biased
  positive part; the heads are `head`; the last operation lays them side by side.
-/
import proofs.«121282_j23184233464436_1_alg».proof.Proof.RefSplit
import proofs.«121282_j23184233464436_1_alg».proof.Proof.NetDefs
import proofs.«121282_j23184233464436_1_alg».proof.Proof.LibNetHostForms

set_option maxRecDepth 16384

noncomputable section

namespace Cert.ReferenceIdeal.HostRun

open Cert.ReferenceIdeal Cert.ReferenceIdeal.Gen Cert.ReferenceIdeal.Facts₀ Cert.ReferenceIdeal.Facts Cert.Spec
open Idealize.ShloMosaic Idealize.ShloMosaic.TcCoe Idealize.SL.Sem Idealize.ShloMosaic.StableHlo

/-! ## The three opening stretches, each from the buffers it reads -/

theorem openA_src (V : Valuation τ sig (Elt Ideal)) (e : (⟨S2x1600000, .i32⟩ : BufTy).Contents (Elt Ideal)) (he : V (Proc.devRef .tc main_arg1) = e) :
    after seg0 V (Proc.devRef .tc main_v5) = Cert.KernelIdeal.Net.srcIx e := by
  subst he
  after_results
  try rfl

theorem openA_dst (V : Valuation τ sig (Elt Ideal)) (e : (⟨S2x1600000, .i32⟩ : BufTy).Contents (Elt Ideal)) (he : V (Proc.devRef .tc main_arg1) = e) :
    after seg0 V (Proc.devRef .tc main_v6) = Cert.KernelIdeal.Net.dstIx e := by
  subst he
  after_results
  try rfl

theorem openA_mask (V : Valuation τ sig (Elt Ideal)) (e : (⟨S2x1600000, .i32⟩ : BufTy).Contents (Elt Ideal)) (he : V (Proc.devRef .tc main_arg1) = e) :
    after seg0 V (Proc.devRef .tc main_v12) = Cert.KernelIdeal.Net.mask (Cert.KernelIdeal.Net.dstIx e) := by
  subst he
  after_results
  try rfl

theorem openA_rsq (V : Valuation τ sig (Elt Ideal)) (e : (⟨S2x1600000, .i32⟩ : BufTy).Contents (Elt Ideal)) (he : V (Proc.devRef .tc main_arg1) = e) :
    after seg0 V (Proc.devRef .tc main_v13) = Cert.KernelIdeal.Net.rsq (Cert.KernelIdeal.Net.dstIx e) := by
  subst he
  after_results
  try rfl

theorem openA_zero (V : Valuation τ sig (Elt Ideal)) : after seg0 V (Proc.devRef .tc main_cst_2) = Cert.KernelIdeal.Net.zero0 := by
  after_results
  try rfl

theorem openB (V : Valuation τ sig (Elt Ideal)) (mk : (⟨S100000, .i1⟩ : BufTy).Contents (Elt Ideal)) (r : (⟨S100000, .f32⟩ : BufTy).Contents (Elt Ideal)) (z : (⟨S_, .f32⟩ : BufTy).Contents (Elt Ideal))
    (hm : V (Proc.devRef .tc main_v12) = mk) (hr : V (Proc.devRef .tc main_v13) = r) (hz : V (Proc.devRef .tc main_cst_2) = z) :
    after seg1 V (Proc.devRef .tc main_v14) = Cert.KernelIdeal.Net.dinvFrom mk r z := by
  subst hm hr hz
  after_results
  try rfl

set_option maxHeartbeats 4000000 in
theorem openC (V : Valuation τ sig (Elt Ideal)) (s d : (⟨S1700000, .i32⟩ : BufTy).Contents (Elt Ideal)) (dv : (⟨S100000, .f32⟩ : BufTy).Contents (Elt Ideal))
    (hs : V (Proc.devRef .tc main_v5) = s) (hd : V (Proc.devRef .tc main_v6) = d) (hv : V (Proc.devRef .tc main_v14) = dv) :
    after seg2 V (Proc.devRef .tc main_v29) = Cert.KernelIdeal.Net.nrmFrom s d dv := by
  subst hs hd hv
  after_results
  try rfl

/-! ## The first matrix product -/

theorem dense0 (V : Valuation τ sig (Elt Ideal)) (x : (⟨S100000x128, .f32⟩ : BufTy).Contents (Elt Ideal)) (w : (⟨S128x128, .f32⟩ : BufTy).Contents (Elt Ideal))
    (hx : V (Proc.devRef .tc main_arg0) = x) (hw : V (Proc.devRef .tc main_arg2) = w) :
    after seg3 V (Proc.devRef .tc main_v30) = mm (N := 100000) (A := 128) (B := 128) x w := by
  subst hx hw
  after_results
  exact host_mm dot_S100000x128_S128x128_S100000x128_1_0_0_1_n_n rfl rfl rfl rfl rfl rfl none (V (Proc.devRef .tc main_arg0)) (V (Proc.devRef .tc main_arg2))

set_option maxHeartbeats 4000000 in
/-- Stage 4 is one propagation step. -/
theorem prop1 (V : Valuation τ sig (Elt Ideal)) (s d : (⟨S1700000, .i32⟩ : BufTy).Contents (Elt Ideal)) (n : (⟨S1700000, .f32⟩ : BufTy).Contents (Elt Ideal)) (h : (⟨S100000x128, .f32⟩ : BufTy).Contents (Elt Ideal))
    (hs : V (Proc.devRef .tc main_v5) = s) (hd : V (Proc.devRef .tc main_v6) = d) (hn : V (Proc.devRef .tc main_v29) = n)
    (hh : V (Proc.devRef .tc main_v30) = h) :
    after seg4 V (Proc.devRef .tc main_v43) = Cert.KernelIdeal.Net.agg s d n h := by
  subst hs hd hn hh
  after_results
  try rfl

/-- Stage 5 is a dense layer: bias row, positive part, matrix product. -/
theorem dense1 (V : Valuation τ sig (Elt Ideal)) (z : (⟨S100000x128, .f32⟩ : BufTy).Contents (Elt Ideal)) (b : (⟨S128, .f32⟩ : BufTy).Contents (Elt Ideal)) (w : (⟨S128x128, .f32⟩ : BufTy).Contents (Elt Ideal))
    (hz : V (Proc.devRef .tc main_v43) = z) (hb : V (Proc.devRef .tc main_arg3) = b) (hw : V (Proc.devRef .tc main_arg4) = w) :
    after seg5 V (Proc.devRef .tc main_v48) = mm (N := 100000) (A := 128) (B := 128) (biasRelu z b) w := by
  subst hz hb hw
  after_results
  exact (host_mm dot_S100000x128_S128x128_S100000x128_1_0_0_1_n_n rfl rfl rfl rfl rfl rfl none _ (V (Proc.devRef .tc main_arg4))).trans
    (congrArg (fun t => mm (N := 100000) (A := 128) (B := 128) t (V (Proc.devRef .tc main_arg4)))
      (host_biasRelu (N := 100000) (B := 128) (V (Proc.devRef .tc main_v43)) (V (Proc.devRef .tc main_arg3)) Gen.bcast_S128_S1x128_1 Gen.bcast_S1x128_S100000x128_0_1 Gen.bcast_S_S100000x128))

set_option maxHeartbeats 4000000 in
/-- Stage 6 is one propagation step. -/
theorem prop2 (V : Valuation τ sig (Elt Ideal)) (s d : (⟨S1700000, .i32⟩ : BufTy).Contents (Elt Ideal)) (n : (⟨S1700000, .f32⟩ : BufTy).Contents (Elt Ideal)) (h : (⟨S100000x128, .f32⟩ : BufTy).Contents (Elt Ideal))
    (hs : V (Proc.devRef .tc main_v5) = s) (hd : V (Proc.devRef .tc main_v6) = d) (hn : V (Proc.devRef .tc main_v29) = n)
    (hh : V (Proc.devRef .tc main_v48) = h) :
    after seg6 V (Proc.devRef .tc main_v61) = Cert.KernelIdeal.Net.agg s d n h := by
  subst hs hd hn hh
  after_results
  try rfl

/-- Stage 7 is a dense layer: bias row, positive part, matrix product. -/
theorem dense2 (V : Valuation τ sig (Elt Ideal)) (z : (⟨S100000x128, .f32⟩ : BufTy).Contents (Elt Ideal)) (b : (⟨S128, .f32⟩ : BufTy).Contents (Elt Ideal)) (w : (⟨S128x128, .f32⟩ : BufTy).Contents (Elt Ideal))
    (hz : V (Proc.devRef .tc main_v61) = z) (hb : V (Proc.devRef .tc main_arg5) = b) (hw : V (Proc.devRef .tc main_arg6) = w) :
    after seg7 V (Proc.devRef .tc main_v66) = mm (N := 100000) (A := 128) (B := 128) (biasRelu z b) w := by
  subst hz hb hw
  after_results
  exact (host_mm dot_S100000x128_S128x128_S100000x128_1_0_0_1_n_n rfl rfl rfl rfl rfl rfl none _ (V (Proc.devRef .tc main_arg6))).trans
    (congrArg (fun t => mm (N := 100000) (A := 128) (B := 128) t (V (Proc.devRef .tc main_arg6)))
      (host_biasRelu (N := 100000) (B := 128) (V (Proc.devRef .tc main_v61)) (V (Proc.devRef .tc main_arg5)) Gen.bcast_S128_S1x128_1 Gen.bcast_S1x128_S100000x128_0_1 Gen.bcast_S_S100000x128))

set_option maxHeartbeats 4000000 in
/-- Stage 8 is one propagation step. -/
theorem prop3 (V : Valuation τ sig (Elt Ideal)) (s d : (⟨S1700000, .i32⟩ : BufTy).Contents (Elt Ideal)) (n : (⟨S1700000, .f32⟩ : BufTy).Contents (Elt Ideal)) (h : (⟨S100000x128, .f32⟩ : BufTy).Contents (Elt Ideal))
    (hs : V (Proc.devRef .tc main_v5) = s) (hd : V (Proc.devRef .tc main_v6) = d) (hn : V (Proc.devRef .tc main_v29) = n)
    (hh : V (Proc.devRef .tc main_v66) = h) :
    after seg8 V (Proc.devRef .tc main_v79) = Cert.KernelIdeal.Net.agg s d n h := by
  subst hs hd hn hh
  after_results
  try rfl

/-- Stage 9: the node features — bias row and positive part. -/
theorem act (V : Valuation τ sig (Elt Ideal)) (z : (⟨S100000x128, .f32⟩ : BufTy).Contents (Elt Ideal)) (b : (⟨S128, .f32⟩ : BufTy).Contents (Elt Ideal))
    (hz : V (Proc.devRef .tc main_v79) = z) (hb : V (Proc.devRef .tc main_arg7) = b) :
    after seg9 V (Proc.devRef .tc main_v83) = biasRelu (N := 100000) (B := 128) z b := by
  subst hz hb
  after_results
  exact host_biasRelu (N := 100000) (B := 128) (V (Proc.devRef .tc main_v79)) (V (Proc.devRef .tc main_arg7)) Gen.bcast_S128_S1x128_1 Gen.bcast_S1x128_S100000x128_0_1 Gen.bcast_S_S100000x128

/-! ## The heads -/

set_option maxHeartbeats 4000000 in
theorem headPos (V : Valuation τ sig (Elt Ideal)) (y : (⟨S100000x128, .f32⟩ : BufTy).Contents (Elt Ideal)) (w1 : (⟨S128x128, .f32⟩ : BufTy).Contents (Elt Ideal)) (b1 : (⟨S128, .f32⟩ : BufTy).Contents (Elt Ideal))
    (w2 : (⟨S128x2, .f32⟩ : BufTy).Contents (Elt Ideal)) (b2 : (⟨S2, .f32⟩ : BufTy).Contents (Elt Ideal))
    (hy : V (Proc.devRef .tc main_v83) = y) (h1 : V (Proc.devRef .tc main_arg8) = w1) (h2 : V (Proc.devRef .tc main_arg9) = b1)
    (h3 : V (Proc.devRef .tc main_arg10) = w2) (h4 : V (Proc.devRef .tc main_arg11) = b2) :
    after seg10 V (Proc.devRef .tc main_v92) = Cert.KernelIdeal.Net.head (A := 128) (B := 128) (C := 2) y w1 b1 w2 b2 := by
  subst hy h1 h2 h3 h4
  after_results
  exact (host_addRow (N := 100000) (B := 2) _ (V (Proc.devRef .tc main_arg11)) Gen.bcast_S2_S1x2_1 Gen.bcast_S1x2_S100000x2_0_1).trans (congrArg (fun t => addRow (N := 100000) (B := 2) t (V (Proc.devRef .tc main_arg11)))
    ((host_mm dot_S100000x128_S128x2_S100000x2_1_0_0_1_n_n rfl rfl rfl rfl rfl rfl none _ (V (Proc.devRef .tc main_arg10))).trans (congrArg (fun t => mm (N := 100000) (A := 128) (B := 2) t (V (Proc.devRef .tc main_arg10)))
      ((host_biasRelu (N := 100000) (B := 128) (Host.dotGeneral (F := Ideal) dot_S100000x128_S128x128_S100000x128_1_0_0_1_n_n none (V (Proc.devRef .tc main_v83)) (V (Proc.devRef .tc main_arg8))) (V (Proc.devRef .tc main_arg9)) Gen.bcast_S128_S1x128_1 Gen.bcast_S1x128_S100000x128_0_1 Gen.bcast_S_S100000x128).trans (congrArg (fun t => biasRelu (N := 100000) (B := 128) t (V (Proc.devRef .tc main_arg9)))
        (host_mm dot_S100000x128_S128x128_S100000x128_1_0_0_1_n_n rfl rfl rfl rfl rfl rfl none (V (Proc.devRef .tc main_v83)) (V (Proc.devRef .tc main_arg8))))))))

set_option maxHeartbeats 4000000 in
theorem headTime (V : Valuation τ sig (Elt Ideal)) (y : (⟨S100000x128, .f32⟩ : BufTy).Contents (Elt Ideal)) (w1 : (⟨S128x64, .f32⟩ : BufTy).Contents (Elt Ideal)) (b1 : (⟨S64, .f32⟩ : BufTy).Contents (Elt Ideal))
    (w2 : (⟨S64x1, .f32⟩ : BufTy).Contents (Elt Ideal)) (b2 : (⟨S1, .f32⟩ : BufTy).Contents (Elt Ideal))
    (hy : V (Proc.devRef .tc main_v83) = y) (h1 : V (Proc.devRef .tc main_arg12) = w1) (h2 : V (Proc.devRef .tc main_arg13) = b1)
    (h3 : V (Proc.devRef .tc main_arg14) = w2) (h4 : V (Proc.devRef .tc main_arg15) = b2) :
    after seg10 V (Proc.devRef .tc main_v101) = Cert.KernelIdeal.Net.head (A := 128) (B := 64) (C := 1) y w1 b1 w2 b2 := by
  subst hy h1 h2 h3 h4
  after_results
  exact (host_addRow (N := 100000) (B := 1) _ (V (Proc.devRef .tc main_arg15)) Gen.bcast_S1_S1x1_1 Gen.bcast_S1x1_S100000x1_0_1).trans (congrArg (fun t => addRow (N := 100000) (B := 1) t (V (Proc.devRef .tc main_arg15)))
    ((host_mm dot_S100000x64_S64x1_S100000x1_1_0_0_1_n_n rfl rfl rfl rfl rfl rfl none _ (V (Proc.devRef .tc main_arg14))).trans (congrArg (fun t => mm (N := 100000) (A := 64) (B := 1) t (V (Proc.devRef .tc main_arg14)))
      ((host_biasRelu (N := 100000) (B := 64) (Host.dotGeneral (F := Ideal) dot_S100000x128_S128x64_S100000x64_1_0_0_1_n_n none (V (Proc.devRef .tc main_v83)) (V (Proc.devRef .tc main_arg12))) (V (Proc.devRef .tc main_arg13)) Gen.bcast_S64_S1x64_1 Gen.bcast_S1x64_S100000x64_0_1 Gen.bcast_S_S100000x64).trans (congrArg (fun t => biasRelu (N := 100000) (B := 64) t (V (Proc.devRef .tc main_arg13)))
        (host_mm dot_S100000x128_S128x64_S100000x64_1_0_0_1_n_n rfl rfl rfl rfl rfl rfl none (V (Proc.devRef .tc main_v83)) (V (Proc.devRef .tc main_arg12))))))))

/-- The last operation: the two heads' results side by side. -/
theorem side (V : Valuation τ sig (Elt Ideal)) (a : (⟨S100000x2, .f32⟩ : BufTy).Contents (Elt Ideal)) (b : (⟨S100000x1, .f32⟩ : BufTy).Contents (Elt Ideal))
    (ha : V (Proc.devRef .tc main_v92) = a) (hb : V (Proc.devRef .tc main_v101) = b) :
    after seg11 V (Proc.devRef .tc main_v102) = Cert.KernelIdeal.Net.cat a b := by
  subst ha hb
  after_results
  try rfl

end Cert.ReferenceIdeal.HostRun

end
-- ==== Proof.RefValue.lean ====
/-
  The reference's result. The stages' folds composed: the result buffer ends at `net` of the arguments as launched,
  and every argument buffer is as launched (no stage writes one).
-/
import proofs.«121282_j23184233464436_1_alg».proof.Proof.RefStages

set_option maxRecDepth 16384

noncomputable section

namespace Cert.ReferenceIdeal.HostRun

open Cert.ReferenceIdeal Cert.ReferenceIdeal.Gen Cert.ReferenceIdeal.Facts₀ Cert.ReferenceIdeal.Facts Cert.Spec
open Idealize.ShloMosaic Idealize.ShloMosaic.TcCoe Idealize.SL.Sem Idealize.ShloMosaic.StableHlo

variable (m : (ℓ : Loc nD τ sig) → Buf (Elt Ideal) ℓ) (c : Dev nD)

/-- Argument 0 as launched. -/
abbrev a0 : (⟨S100000x128, .f32⟩ : BufTy).Contents (Elt Ideal) := m ((c.tc : Thread nD τ).loc main_arg0)
/-- Argument 1 as launched. -/
abbrev a1 : (⟨S2x1600000, .i32⟩ : BufTy).Contents (Elt Ideal) := m ((c.tc : Thread nD τ).loc main_arg1)
/-- Argument 2 as launched. -/
abbrev a2 : (⟨S128x128, .f32⟩ : BufTy).Contents (Elt Ideal) := m ((c.tc : Thread nD τ).loc main_arg2)
/-- Argument 3 as launched. -/
abbrev a3 : (⟨S128, .f32⟩ : BufTy).Contents (Elt Ideal) := m ((c.tc : Thread nD τ).loc main_arg3)
/-- Argument 4 as launched. -/
abbrev a4 : (⟨S128x128, .f32⟩ : BufTy).Contents (Elt Ideal) := m ((c.tc : Thread nD τ).loc main_arg4)
/-- Argument 5 as launched. -/
abbrev a5 : (⟨S128, .f32⟩ : BufTy).Contents (Elt Ideal) := m ((c.tc : Thread nD τ).loc main_arg5)
/-- Argument 6 as launched. -/
abbrev a6 : (⟨S128x128, .f32⟩ : BufTy).Contents (Elt Ideal) := m ((c.tc : Thread nD τ).loc main_arg6)
/-- Argument 7 as launched. -/
abbrev a7 : (⟨S128, .f32⟩ : BufTy).Contents (Elt Ideal) := m ((c.tc : Thread nD τ).loc main_arg7)
/-- Argument 8 as launched. -/
abbrev a8 : (⟨S128x128, .f32⟩ : BufTy).Contents (Elt Ideal) := m ((c.tc : Thread nD τ).loc main_arg8)
/-- Argument 9 as launched. -/
abbrev a9 : (⟨S128, .f32⟩ : BufTy).Contents (Elt Ideal) := m ((c.tc : Thread nD τ).loc main_arg9)
/-- Argument 10 as launched. -/
abbrev a10 : (⟨S128x2, .f32⟩ : BufTy).Contents (Elt Ideal) := m ((c.tc : Thread nD τ).loc main_arg10)
/-- Argument 11 as launched. -/
abbrev a11 : (⟨S2, .f32⟩ : BufTy).Contents (Elt Ideal) := m ((c.tc : Thread nD τ).loc main_arg11)
/-- Argument 12 as launched. -/
abbrev a12 : (⟨S128x64, .f32⟩ : BufTy).Contents (Elt Ideal) := m ((c.tc : Thread nD τ).loc main_arg12)
/-- Argument 13 as launched. -/
abbrev a13 : (⟨S64, .f32⟩ : BufTy).Contents (Elt Ideal) := m ((c.tc : Thread nD τ).loc main_arg13)
/-- Argument 14 as launched. -/
abbrev a14 : (⟨S64x1, .f32⟩ : BufTy).Contents (Elt Ideal) := m ((c.tc : Thread nD τ).loc main_arg14)
/-- Argument 15 as launched. -/
abbrev a15 : (⟨S1, .f32⟩ : BufTy).Contents (Elt Ideal) := m ((c.tc : Thread nD τ).loc main_arg15)

/-- The buffers' contents before stage `k`. -/
def R0 : Valuation τ sig (Elt Ideal) := launchContents m c
def R1 : Valuation τ sig (Elt Ideal) := after seg0 (R0 m c)
def R2 : Valuation τ sig (Elt Ideal) := after seg1 (R1 m c)
def R3 : Valuation τ sig (Elt Ideal) := after seg2 (R2 m c)
def R4 : Valuation τ sig (Elt Ideal) := after seg3 (R3 m c)
def R5 : Valuation τ sig (Elt Ideal) := after seg4 (R4 m c)
def R6 : Valuation τ sig (Elt Ideal) := after seg5 (R5 m c)
def R7 : Valuation τ sig (Elt Ideal) := after seg6 (R6 m c)
def R8 : Valuation τ sig (Elt Ideal) := after seg7 (R7 m c)
def R9 : Valuation τ sig (Elt Ideal) := after seg8 (R8 m c)
def R10 : Valuation τ sig (Elt Ideal) := after seg9 (R9 m c)
def R11 : Valuation τ sig (Elt Ideal) := after seg10 (R10 m c)
def R12 : Valuation τ sig (Elt Ideal) := after seg11 (R11 m c)

theorem r_src2 : R2 m c (Proc.devRef .tc main_v5) = Cert.KernelIdeal.Net.srcIx (a1 m c) := (keep1 (R1 m c) main_v5 (by decide)).trans (openA_src (R0 m c) _ rfl)
theorem r_dst2 : R2 m c (Proc.devRef .tc main_v6) = Cert.KernelIdeal.Net.dstIx (a1 m c) := (keep1 (R1 m c) main_v6 (by decide)).trans (openA_dst (R0 m c) _ rfl)
theorem r_dinv2 : R2 m c (Proc.devRef .tc main_v14) = Cert.KernelIdeal.Net.dinv (Cert.KernelIdeal.Net.dstIx (a1 m c)) :=
  openB (R1 m c) _ _ _ (openA_mask (R0 m c) _ rfl) (openA_rsq (R0 m c) _ rfl) (openA_zero (R0 m c))
theorem r_src : R3 m c (Proc.devRef .tc main_v5) = Cert.KernelIdeal.Net.srcIx (a1 m c) := (keep2 (R2 m c) main_v5 (by decide)).trans (r_src2 m c)
theorem r_dst : R3 m c (Proc.devRef .tc main_v6) = Cert.KernelIdeal.Net.dstIx (a1 m c) := (keep2 (R2 m c) main_v6 (by decide)).trans (r_dst2 m c)
theorem r_nrm : R3 m c (Proc.devRef .tc main_v29) = Cert.KernelIdeal.Net.nrmOf (Cert.KernelIdeal.Net.srcIx (a1 m c)) (Cert.KernelIdeal.Net.dstIx (a1 m c)) :=
  openC (R2 m c) _ _ _ (r_src2 m c) (r_dst2 m c) (r_dinv2 m c)

theorem r_x1 : R4 m c (Proc.devRef .tc main_v30) = mm (N := 100000) (A := 128) (B := 128) (a0 m c) (a2 m c) :=
  dense0 (R3 m c) _ _ ((keep2 (R2 m c) main_arg0 (by decide)).trans ((keep1 (R1 m c) main_arg0 (by decide)).trans ((keep0 (R0 m c) main_arg0 (by decide)).trans (rfl)))) ((keep2 (R2 m c) main_arg2 (by decide)).trans ((keep1 (R1 m c) main_arg2 (by decide)).trans ((keep0 (R0 m c) main_arg2 (by decide)).trans (rfl))))

theorem r_y1 : R5 m c (Proc.devRef .tc main_v43) = (Cert.KernelIdeal.Net.prop (a1 m c) (mm (N := 100000) (A := 128) (B := 128) (a0 m c) (a2 m c))) := by
  show after seg4 (R4 m c) (Proc.devRef .tc main_v43) = Cert.KernelIdeal.Net.agg (Cert.KernelIdeal.Net.srcIx (a1 m c)) (Cert.KernelIdeal.Net.dstIx (a1 m c)) (Cert.KernelIdeal.Net.nrmOf (Cert.KernelIdeal.Net.srcIx (a1 m c)) (Cert.KernelIdeal.Net.dstIx (a1 m c))) (mm (N := 100000) (A := 128) (B := 128) (a0 m c) (a2 m c))
  exact prop1 (R4 m c) _ _ _ _ (((keep3 (R3 m c) main_v5 (by decide)).trans (rfl)).trans (r_src m c)) (((keep3 (R3 m c) main_v6 (by decide)).trans (rfl)).trans (r_dst m c))
    (((keep3 (R3 m c) main_v29 (by decide)).trans (rfl)).trans (r_nrm m c)) (r_x1 m c)

theorem r_x2 : R6 m c (Proc.devRef .tc main_v48) = (mm (N := 100000) (A := 128) (B := 128) (biasRelu (Cert.KernelIdeal.Net.prop (a1 m c) (mm (N := 100000) (A := 128) (B := 128) (a0 m c) (a2 m c))) (a3 m c)) (a4 m c)) :=
  dense1 (R5 m c) _ _ _ (r_y1 m c) ((keep4 (R4 m c) main_arg3 (by decide)).trans ((keep3 (R3 m c) main_arg3 (by decide)).trans ((keep2 (R2 m c) main_arg3 (by decide)).trans ((keep1 (R1 m c) main_arg3 (by decide)).trans ((keep0 (R0 m c) main_arg3 (by decide)).trans (rfl)))))) ((keep4 (R4 m c) main_arg4 (by decide)).trans ((keep3 (R3 m c) main_arg4 (by decide)).trans ((keep2 (R2 m c) main_arg4 (by decide)).trans ((keep1 (R1 m c) main_arg4 (by decide)).trans ((keep0 (R0 m c) main_arg4 (by decide)).trans (rfl))))))

theorem r_y2 : R7 m c (Proc.devRef .tc main_v61) = (Cert.KernelIdeal.Net.prop (a1 m c) (mm (N := 100000) (A := 128) (B := 128) (biasRelu (Cert.KernelIdeal.Net.prop (a1 m c) (mm (N := 100000) (A := 128) (B := 128) (a0 m c) (a2 m c))) (a3 m c)) (a4 m c))) := by
  show after seg6 (R6 m c) (Proc.devRef .tc main_v61) = Cert.KernelIdeal.Net.agg (Cert.KernelIdeal.Net.srcIx (a1 m c)) (Cert.KernelIdeal.Net.dstIx (a1 m c)) (Cert.KernelIdeal.Net.nrmOf (Cert.KernelIdeal.Net.srcIx (a1 m c)) (Cert.KernelIdeal.Net.dstIx (a1 m c))) (mm (N := 100000) (A := 128) (B := 128) (biasRelu (Cert.KernelIdeal.Net.prop (a1 m c) (mm (N := 100000) (A := 128) (B := 128) (a0 m c) (a2 m c))) (a3 m c)) (a4 m c))
  exact prop2 (R6 m c) _ _ _ _ (((keep5 (R5 m c) main_v5 (by decide)).trans ((keep4 (R4 m c) main_v5 (by decide)).trans ((keep3 (R3 m c) main_v5 (by decide)).trans (rfl)))).trans (r_src m c)) (((keep5 (R5 m c) main_v6 (by decide)).trans ((keep4 (R4 m c) main_v6 (by decide)).trans ((keep3 (R3 m c) main_v6 (by decide)).trans (rfl)))).trans (r_dst m c))
    (((keep5 (R5 m c) main_v29 (by decide)).trans ((keep4 (R4 m c) main_v29 (by decide)).trans ((keep3 (R3 m c) main_v29 (by decide)).trans (rfl)))).trans (r_nrm m c)) (r_x2 m c)

theorem r_x3 : R8 m c (Proc.devRef .tc main_v66) = (mm (N := 100000) (A := 128) (B := 128) (biasRelu (Cert.KernelIdeal.Net.prop (a1 m c) (mm (N := 100000) (A := 128) (B := 128) (biasRelu (Cert.KernelIdeal.Net.prop (a1 m c) (mm (N := 100000) (A := 128) (B := 128) (a0 m c) (a2 m c))) (a3 m c)) (a4 m c))) (a5 m c)) (a6 m c)) :=
  dense2 (R7 m c) _ _ _ (r_y2 m c) ((keep6 (R6 m c) main_arg5 (by decide)).trans ((keep5 (R5 m c) main_arg5 (by decide)).trans ((keep4 (R4 m c) main_arg5 (by decide)).trans ((keep3 (R3 m c) main_arg5 (by decide)).trans ((keep2 (R2 m c) main_arg5 (by decide)).trans ((keep1 (R1 m c) main_arg5 (by decide)).trans ((keep0 (R0 m c) main_arg5 (by decide)).trans (rfl)))))))) ((keep6 (R6 m c) main_arg6 (by decide)).trans ((keep5 (R5 m c) main_arg6 (by decide)).trans ((keep4 (R4 m c) main_arg6 (by decide)).trans ((keep3 (R3 m c) main_arg6 (by decide)).trans ((keep2 (R2 m c) main_arg6 (by decide)).trans ((keep1 (R1 m c) main_arg6 (by decide)).trans ((keep0 (R0 m c) main_arg6 (by decide)).trans (rfl))))))))

theorem r_y3 : R9 m c (Proc.devRef .tc main_v79) = (Cert.KernelIdeal.Net.prop (a1 m c) (mm (N := 100000) (A := 128) (B := 128) (biasRelu (Cert.KernelIdeal.Net.prop (a1 m c) (mm (N := 100000) (A := 128) (B := 128) (biasRelu (Cert.KernelIdeal.Net.prop (a1 m c) (mm (N := 100000) (A := 128) (B := 128) (a0 m c) (a2 m c))) (a3 m c)) (a4 m c))) (a5 m c)) (a6 m c))) := by
  show after seg8 (R8 m c) (Proc.devRef .tc main_v79) = Cert.KernelIdeal.Net.agg (Cert.KernelIdeal.Net.srcIx (a1 m c)) (Cert.KernelIdeal.Net.dstIx (a1 m c)) (Cert.KernelIdeal.Net.nrmOf (Cert.KernelIdeal.Net.srcIx (a1 m c)) (Cert.KernelIdeal.Net.dstIx (a1 m c))) (mm (N := 100000) (A := 128) (B := 128) (biasRelu (Cert.KernelIdeal.Net.prop (a1 m c) (mm (N := 100000) (A := 128) (B := 128) (biasRelu (Cert.KernelIdeal.Net.prop (a1 m c) (mm (N := 100000) (A := 128) (B := 128) (a0 m c) (a2 m c))) (a3 m c)) (a4 m c))) (a5 m c)) (a6 m c))
  exact prop3 (R8 m c) _ _ _ _ (((keep7 (R7 m c) main_v5 (by decide)).trans ((keep6 (R6 m c) main_v5 (by decide)).trans ((keep5 (R5 m c) main_v5 (by decide)).trans ((keep4 (R4 m c) main_v5 (by decide)).trans ((keep3 (R3 m c) main_v5 (by decide)).trans (rfl)))))).trans (r_src m c)) (((keep7 (R7 m c) main_v6 (by decide)).trans ((keep6 (R6 m c) main_v6 (by decide)).trans ((keep5 (R5 m c) main_v6 (by decide)).trans ((keep4 (R4 m c) main_v6 (by decide)).trans ((keep3 (R3 m c) main_v6 (by decide)).trans (rfl)))))).trans (r_dst m c))
    (((keep7 (R7 m c) main_v29 (by decide)).trans ((keep6 (R6 m c) main_v29 (by decide)).trans ((keep5 (R5 m c) main_v29 (by decide)).trans ((keep4 (R4 m c) main_v29 (by decide)).trans ((keep3 (R3 m c) main_v29 (by decide)).trans (rfl)))))).trans (r_nrm m c)) (r_x3 m c)

theorem r_feats : R10 m c (Proc.devRef .tc main_v83) = (Cert.KernelIdeal.Net.feats (a0 m c) (a1 m c) (a2 m c) (a3 m c) (a4 m c) (a5 m c) (a6 m c) (a7 m c)) :=
  act (R9 m c) _ _ (r_y3 m c) ((keep8 (R8 m c) main_arg7 (by decide)).trans ((keep7 (R7 m c) main_arg7 (by decide)).trans ((keep6 (R6 m c) main_arg7 (by decide)).trans ((keep5 (R5 m c) main_arg7 (by decide)).trans ((keep4 (R4 m c) main_arg7 (by decide)).trans ((keep3 (R3 m c) main_arg7 (by decide)).trans ((keep2 (R2 m c) main_arg7 (by decide)).trans ((keep1 (R1 m c) main_arg7 (by decide)).trans ((keep0 (R0 m c) main_arg7 (by decide)).trans (rfl))))))))))

theorem r_pos : R11 m c (Proc.devRef .tc main_v92) = Cert.KernelIdeal.Net.head (A := 128) (B := 128) (C := 2) (Cert.KernelIdeal.Net.feats (a0 m c) (a1 m c) (a2 m c) (a3 m c) (a4 m c) (a5 m c) (a6 m c) (a7 m c)) (a8 m c) (a9 m c) (a10 m c) (a11 m c) :=
  headPos (R10 m c) _ _ _ _ _ (r_feats m c) ((keep9 (R9 m c) main_arg8 (by decide)).trans ((keep8 (R8 m c) main_arg8 (by decide)).trans ((keep7 (R7 m c) main_arg8 (by decide)).trans ((keep6 (R6 m c) main_arg8 (by decide)).trans ((keep5 (R5 m c) main_arg8 (by decide)).trans ((keep4 (R4 m c) main_arg8 (by decide)).trans ((keep3 (R3 m c) main_arg8 (by decide)).trans ((keep2 (R2 m c) main_arg8 (by decide)).trans ((keep1 (R1 m c) main_arg8 (by decide)).trans ((keep0 (R0 m c) main_arg8 (by decide)).trans (rfl))))))))))) ((keep9 (R9 m c) main_arg9 (by decide)).trans ((keep8 (R8 m c) main_arg9 (by decide)).trans ((keep7 (R7 m c) main_arg9 (by decide)).trans ((keep6 (R6 m c) main_arg9 (by decide)).trans ((keep5 (R5 m c) main_arg9 (by decide)).trans ((keep4 (R4 m c) main_arg9 (by decide)).trans ((keep3 (R3 m c) main_arg9 (by decide)).trans ((keep2 (R2 m c) main_arg9 (by decide)).trans ((keep1 (R1 m c) main_arg9 (by decide)).trans ((keep0 (R0 m c) main_arg9 (by decide)).trans (rfl))))))))))) ((keep9 (R9 m c) main_arg10 (by decide)).trans ((keep8 (R8 m c) main_arg10 (by decide)).trans ((keep7 (R7 m c) main_arg10 (by decide)).trans ((keep6 (R6 m c) main_arg10 (by decide)).trans ((keep5 (R5 m c) main_arg10 (by decide)).trans ((keep4 (R4 m c) main_arg10 (by decide)).trans ((keep3 (R3 m c) main_arg10 (by decide)).trans ((keep2 (R2 m c) main_arg10 (by decide)).trans ((keep1 (R1 m c) main_arg10 (by decide)).trans ((keep0 (R0 m c) main_arg10 (by decide)).trans (rfl))))))))))) ((keep9 (R9 m c) main_arg11 (by decide)).trans ((keep8 (R8 m c) main_arg11 (by decide)).trans ((keep7 (R7 m c) main_arg11 (by decide)).trans ((keep6 (R6 m c) main_arg11 (by decide)).trans ((keep5 (R5 m c) main_arg11 (by decide)).trans ((keep4 (R4 m c) main_arg11 (by decide)).trans ((keep3 (R3 m c) main_arg11 (by decide)).trans ((keep2 (R2 m c) main_arg11 (by decide)).trans ((keep1 (R1 m c) main_arg11 (by decide)).trans ((keep0 (R0 m c) main_arg11 (by decide)).trans (rfl)))))))))))

theorem r_time : R11 m c (Proc.devRef .tc main_v101) = Cert.KernelIdeal.Net.head (A := 128) (B := 64) (C := 1) (Cert.KernelIdeal.Net.feats (a0 m c) (a1 m c) (a2 m c) (a3 m c) (a4 m c) (a5 m c) (a6 m c) (a7 m c)) (a12 m c) (a13 m c) (a14 m c) (a15 m c) :=
  headTime (R10 m c) _ _ _ _ _ (r_feats m c) ((keep9 (R9 m c) main_arg12 (by decide)).trans ((keep8 (R8 m c) main_arg12 (by decide)).trans ((keep7 (R7 m c) main_arg12 (by decide)).trans ((keep6 (R6 m c) main_arg12 (by decide)).trans ((keep5 (R5 m c) main_arg12 (by decide)).trans ((keep4 (R4 m c) main_arg12 (by decide)).trans ((keep3 (R3 m c) main_arg12 (by decide)).trans ((keep2 (R2 m c) main_arg12 (by decide)).trans ((keep1 (R1 m c) main_arg12 (by decide)).trans ((keep0 (R0 m c) main_arg12 (by decide)).trans (rfl))))))))))) ((keep9 (R9 m c) main_arg13 (by decide)).trans ((keep8 (R8 m c) main_arg13 (by decide)).trans ((keep7 (R7 m c) main_arg13 (by decide)).trans ((keep6 (R6 m c) main_arg13 (by decide)).trans ((keep5 (R5 m c) main_arg13 (by decide)).trans ((keep4 (R4 m c) main_arg13 (by decide)).trans ((keep3 (R3 m c) main_arg13 (by decide)).trans ((keep2 (R2 m c) main_arg13 (by decide)).trans ((keep1 (R1 m c) main_arg13 (by decide)).trans ((keep0 (R0 m c) main_arg13 (by decide)).trans (rfl))))))))))) ((keep9 (R9 m c) main_arg14 (by decide)).trans ((keep8 (R8 m c) main_arg14 (by decide)).trans ((keep7 (R7 m c) main_arg14 (by decide)).trans ((keep6 (R6 m c) main_arg14 (by decide)).trans ((keep5 (R5 m c) main_arg14 (by decide)).trans ((keep4 (R4 m c) main_arg14 (by decide)).trans ((keep3 (R3 m c) main_arg14 (by decide)).trans ((keep2 (R2 m c) main_arg14 (by decide)).trans ((keep1 (R1 m c) main_arg14 (by decide)).trans ((keep0 (R0 m c) main_arg14 (by decide)).trans (rfl))))))))))) ((keep9 (R9 m c) main_arg15 (by decide)).trans ((keep8 (R8 m c) main_arg15 (by decide)).trans ((keep7 (R7 m c) main_arg15 (by decide)).trans ((keep6 (R6 m c) main_arg15 (by decide)).trans ((keep5 (R5 m c) main_arg15 (by decide)).trans ((keep4 (R4 m c) main_arg15 (by decide)).trans ((keep3 (R3 m c) main_arg15 (by decide)).trans ((keep2 (R2 m c) main_arg15 (by decide)).trans ((keep1 (R1 m c) main_arg15 (by decide)).trans ((keep0 (R0 m c) main_arg15 (by decide)).trans (rfl)))))))))))

/-- THE RESULT: the reference's fold leaves `net` of the arguments in the result buffer. -/
theorem result : after ops (launchContents m c) (Proc.devRef .tc main_v102)
    = Cert.KernelIdeal.Net.net (a0 m c) (a1 m c) (a2 m c) (a3 m c) (a4 m c) (a5 m c) (a6 m c) (a7 m c) (a8 m c) (a9 m c) (a10 m c) (a11 m c) (a12 m c) (a13 m c) (a14 m c) (a15 m c) := by
  rw [after_ops]
  exact side (R11 m c) _ _ (r_pos m c) (r_time m c)

/-- No stage writes an argument: each ends as launched. -/
theorem kept (r : Ref sig .tc) (h0 : r ∉ written0) (h1 : r ∉ written1) (h2 : r ∉ written2) (h3 : r ∉ written3) (h4 : r ∉ written4) (h5 : r ∉ written5) (h6 : r ∉ written6) (h7 : r ∉ written7) (h8 : r ∉ written8) (h9 : r ∉ written9) (h10 : r ∉ written10) (h11 : r ∉ written11) :
    after ops (launchContents m c) (Proc.devRef .tc r) = m ((c.tc : Thread nD τ).loc r) := by
  rw [after_ops, keep11 _ r h11, keep10 _ r h10, keep9 _ r h9, keep8 _ r h8, keep7 _ r h7, keep6 _ r h6, keep5 _ r h5, keep4 _ r h4, keep3 _ r h3, keep2 _ r h2, keep1 _ r h1, keep0 _ r h0]

end Cert.ReferenceIdeal.HostRun

end
-- ==== Proof.lean ====
/-
  The certificate of a three-round graph network with two output heads (100,000 nodes, 1,600,000 edges plus one
  self-loop per node): the kernel computes its five dense stages — a matrix product; twice "add a bias row, take the
  positive part, matrix product"; "add a bias row, take the positive part"; and the two heads — in tiles of 10,000 rows,
  with the edge gathers and scatter-adds of the propagation steps between them on the host, and the reference
  computes the same composition with host operations only.

  At the ideal values both programs end with ONE function of the sixteen arguments in the result buffer,
  `Cert.KernelIdeal.Net.net`: a change of float format is the identity there, a tile-by-tile matrix product into a zero
  accumulator is the host's product, a bias row broadcast down a tile is the host's broadcast bias, and the
  propagation steps are the same operations on both sides. No law of arithmetic beyond these identifications is
  used, so the precondition (finite inputs) is never opened. The idealization rewrote nothing, so its preservation
  claim is trivial.

  * the kernel's run, its result named: Proof/KernelRun.lean; the value of its fold: Proof/Fold*.lean over the five
    regions' whole-array theorems Proof/Region0 … Region4.lean;
  * the reference's run and the value of its fold: Proof/RefRun.lean, RefSplit.lean, RefStages.lean, RefValue.lean.
-/
import proofs.«121282_j23184233464436_1_alg».proof.Defs
import proofs.«121282_j23184233464436_1_alg».proof.Proof.Gen.Kernel
import proofs.«121282_j23184233464436_1_alg».proof.Proof.Gen.Kernel.Skeleton
import proofs.«121282_j23184233464436_1_alg».proof.Proof.Gen.Kernel.Launch
import proofs.«121282_j23184233464436_1_alg».proof.Proof.Gen.Kernel.Points
import proofs.«121282_j23184233464436_1_alg».proof.Proof.Gen.Kernel.Frame
import proofs.«121282_j23184233464436_1_alg».proof.Proof.Gen.KernelIdeal
import proofs.«121282_j23184233464436_1_alg».proof.Proof.Gen.KernelIdeal.Skeleton
import proofs.«121282_j23184233464436_1_alg».proof.Proof.Gen.KernelIdeal.Launch
import proofs.«121282_j23184233464436_1_alg».proof.Proof.Gen.KernelIdeal.Points
import proofs.«121282_j23184233464436_1_alg».proof.Proof.Gen.KernelIdeal.Frame
import proofs.«121282_j23184233464436_1_alg».proof.Proof.Gen.ReferenceIdeal
import proofs.«121282_j23184233464436_1_alg».proof.Proof.Gen.Pre_finite_inputs
import proofs.«121282_j23184233464436_1_alg».proof.Proof.KernelRun
import proofs.«121282_j23184233464436_1_alg».proof.Proof.FoldValue
import proofs.«121282_j23184233464436_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- Sixteen agreeing arguments give the same network value. -/
theorem net_congr {x x' : _} {e e' : _} {w1 w1' : _} {b1 b1' : _} {w2 w2' : _} {b2 b2' : _} {w3 w3' : _} {b3 b3' : _}
    {wp1 wp1' : _} {bp1 bp1' : _} {wp2 wp2' : _} {bp2 bp2' : _} {wt1 wt1' : _} {bt1 bt1' : _} {wt2 wt2' : _} {bt2 bt2' : _}
    (h0 : x' = x) (h1 : e' = e) (h2 : w1' = w1) (h3 : b1' = b1) (h4 : w2' = w2) (h5 : b2' = b2) (h6 : w3' = w3) (h7 : b3' = b3)
    (h8 : wp1' = wp1) (h9 : bp1' = bp1) (h10 : wp2' = wp2) (h11 : bp2' = bp2) (h12 : wt1' = wt1) (h13 : bt1' = bt1)
    (h14 : wt2' = wt2) (h15 : bt2' = bt2) :
    Cert.KernelIdeal.Net.net x' e' w1' b1' w2' b2' w3' b3' wp1' bp1' wp2' bp2' wt1' bt1' wt2' bt2'
      = Cert.KernelIdeal.Net.net x e w1 b1 w2 b2 w3 b3 wp1 bp1 wp2 bp2 wt1 bt1 wt2 bt2 := by
  subst h0 h1 h2 h3 h4 h5 h6 h7 h8 h9 h10 h11 h12 h13 h14 h15
  rfl

theorem frame_k : Cert.frame_Kernel := fun m ρ _ => Cert.Kernel.Gen.frame m ρ
theorem frame_ki : Cert.frame_KernelIdeal := fun m ρ _ => Cert.KernelIdeal.Gen.frame m ρ

/-- The reference runs and leaves its arguments as launched: its run with every buffer at the fold, read at the
    sixteen argument buffers, none of which any operation writes. -/
theorem frame_ri : Cert.frame_ReferenceIdeal := fun m ρ _ =>
  (θ_run Cert.ReferenceIdeal.defs _ _).mono (fun r h c =>
    ⟨(h c Cert.ReferenceIdeal.main_arg0).trans (Cert.ReferenceIdeal.HostRun.kept m c Cert.ReferenceIdeal.main_arg0 (by decide) (by decide) (by decide) (by decide) (by decide) (by decide) (by decide) (by decide) (by decide) (by decide) (by decide) (by decide)),
     (h c Cert.ReferenceIdeal.main_arg1).trans (Cert.ReferenceIdeal.HostRun.kept m c Cert.ReferenceIdeal.main_arg1 (by decide) (by decide) (by decide) (by decide) (by decide) (by decide) (by decide) (by decide) (by decide) (by decide) (by decide) (by decide)),
     (h c Cert.ReferenceIdeal.main_arg2).trans (Cert.ReferenceIdeal.HostRun.kept m c Cert.ReferenceIdeal.main_arg2 (by decide) (by decide) (by decide) (by decide) (by decide) (by decide) (by decide) (by decide) (by decide) (by decide) (by decide) (by decide)),
     (h c Cert.ReferenceIdeal.main_arg3).trans (Cert.ReferenceIdeal.HostRun.kept m c Cert.ReferenceIdeal.main_arg3 (by decide) (by decide) (by decide) (by decide) (by decide) (by decide) (by decide) (by decide) (by decide) (by decide) (by decide) (by decide)),
     (h c Cert.ReferenceIdeal.main_arg4).trans (Cert.ReferenceIdeal.HostRun.kept m c Cert.ReferenceIdeal.main_arg4 (by decide) (by decide) (by decide) (by decide) (by decide) (by decide) (by decide) (by decide) (by decide) (by decide) (by decide) (by decide)),
     (h c Cert.ReferenceIdeal.main_arg5).trans (Cert.ReferenceIdeal.HostRun.kept m c Cert.ReferenceIdeal.main_arg5 (by decide) (by decide) (by decide) (by decide) (by decide) (by decide) (by decide) (by decide) (by decide) (by decide) (by decide) (by decide)),
     (h c Cert.ReferenceIdeal.main_arg6).trans (Cert.ReferenceIdeal.HostRun.kept m c Cert.ReferenceIdeal.main_arg6 (by decide) (by decide) (by decide) (by decide) (by decide) (by decide) (by decide) (by decide) (by decide) (by decide) (by decide) (by decide)),
     (h c Cert.ReferenceIdeal.main_arg7).trans (Cert.ReferenceIdeal.HostRun.kept m c Cert.ReferenceIdeal.main_arg7 (by decide) (by decide) (by decide) (by decide) (by decide) (by decide) (by decide) (by decide) (by decide) (by decide) (by decide) (by decide)),
     (h c Cert.ReferenceIdeal.main_arg8).trans (Cert.ReferenceIdeal.HostRun.kept m c Cert.ReferenceIdeal.main_arg8 (by decide) (by decide) (by decide) (by decide) (by decide) (by decide) (by decide) (by decide) (by decide) (by decide) (by decide) (by decide)),
     (h c Cert.ReferenceIdeal.main_arg9).trans (Cert.ReferenceIdeal.HostRun.kept m c Cert.ReferenceIdeal.main_arg9 (by decide) (by decide) (by decide) (by decide) (by decide) (by decide) (by decide) (by decide) (by decide) (by decide) (by decide) (by decide)),
     (h c Cert.ReferenceIdeal.main_arg10).trans (Cert.ReferenceIdeal.HostRun.kept m c Cert.ReferenceIdeal.main_arg10 (by decide) (by decide) (by decide) (by decide) (by decide) (by decide) (by decide) (by decide) (by decide) (by decide) (by decide) (by decide)),
     (h c Cert.ReferenceIdeal.main_arg11).trans (Cert.ReferenceIdeal.HostRun.kept m c Cert.ReferenceIdeal.main_arg11 (by decide) (by decide) (by decide) (by decide) (by decide) (by decide) (by decide) (by decide) (by decide) (by decide) (by decide) (by decide)),
     (h c Cert.ReferenceIdeal.main_arg12).trans (Cert.ReferenceIdeal.HostRun.kept m c Cert.ReferenceIdeal.main_arg12 (by decide) (by decide) (by decide) (by decide) (by decide) (by decide) (by decide) (by decide) (by decide) (by decide) (by decide) (by decide)),
     (h c Cert.ReferenceIdeal.main_arg13).trans (Cert.ReferenceIdeal.HostRun.kept m c Cert.ReferenceIdeal.main_arg13 (by decide) (by decide) (by decide) (by decide) (by decide) (by decide) (by decide) (by decide) (by decide) (by decide) (by decide) (by decide)),
     (h c Cert.ReferenceIdeal.main_arg14).trans (Cert.ReferenceIdeal.HostRun.kept m c Cert.ReferenceIdeal.main_arg14 (by decide) (by decide) (by decide) (by decide) (by decide) (by decide) (by decide) (by decide) (by decide) (by decide) (by decide) (by decide)),
     (h c Cert.ReferenceIdeal.main_arg15).trans (Cert.ReferenceIdeal.HostRun.kept m c Cert.ReferenceIdeal.main_arg15 (by decide) (by decide) (by decide) (by decide) (by decide) (by decide) (by decide) (by decide) (by decide) (by decide) (by decide) (by decide))⟩)
    (Cert.ReferenceIdeal.HostRun.run (F := Ideal) m ρ)

theorem preserves : Cert.preserves_Kernel_KernelIdeal := trivial

/-- Both idealized programs end with `net` of the arguments in the result buffer; the arguments agree. -/
theorem algebraic : Cert.algebraic_KernelIdeal_ReferenceIdeal := by
  intro m ρ m' ρ' _ hagree
  refine ⟨fun c => Cert.KernelIdeal.Net.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Fold.result m ρ c), (h c).2⟩)
      (Cert.KernelIdeal.RunValue.run_named (F := Ideal) m ρ)
  · refine (θ_run Cert.ReferenceIdeal.defs _ _).mono (fun r h c => ?_) (Cert.ReferenceIdeal.HostRun.run (F := Ideal) m' ρ')
    obtain ⟨g0, g1, g2, g3, g4, g5, g6, g7, g8, g9, g10, g11, g12, g13, g14, g15⟩ := hagree c
    exact ⟨(h c Cert.ReferenceIdeal.main_v102).trans ((Cert.ReferenceIdeal.HostRun.result m' c).trans
        (net_congr g0 g1 g2 g3 g4 g5 g6 g7 g8 g9 g10 g11 g12 g13 g14 g15)),
      (h c Cert.ReferenceIdeal.main_arg0).trans (Cert.ReferenceIdeal.HostRun.kept m' c Cert.ReferenceIdeal.main_arg0 (by decide) (by decide) (by decide) (by decide) (by decide) (by decide) (by decide) (by decide) (by decide) (by decide) (by decide) (by decide)),
      (h c Cert.ReferenceIdeal.main_arg1).trans (Cert.ReferenceIdeal.HostRun.kept m' c Cert.ReferenceIdeal.main_arg1 (by decide) (by decide) (by decide) (by decide) (by decide) (by decide) (by decide) (by decide) (by decide) (by decide) (by decide) (by decide)),
      (h c Cert.ReferenceIdeal.main_arg2).trans (Cert.ReferenceIdeal.HostRun.kept m' c Cert.ReferenceIdeal.main_arg2 (by decide) (by decide) (by decide) (by decide) (by decide) (by decide) (by decide) (by decide) (by decide) (by decide) (by decide) (by decide)),
      (h c Cert.ReferenceIdeal.main_arg3).trans (Cert.ReferenceIdeal.HostRun.kept m' c Cert.ReferenceIdeal.main_arg3 (by decide) (by decide) (by decide) (by decide) (by decide) (by decide) (by decide) (by decide) (by decide) (by decide) (by decide) (by decide)),
      (h c Cert.ReferenceIdeal.main_arg4).trans (Cert.ReferenceIdeal.HostRun.kept m' c Cert.ReferenceIdeal.main_arg4 (by decide) (by decide) (by decide) (by decide) (by decide) (by decide) (by decide) (by decide) (by decide) (by decide) (by decide) (by decide)),
      (h c Cert.ReferenceIdeal.main_arg5).trans (Cert.ReferenceIdeal.HostRun.kept m' c Cert.ReferenceIdeal.main_arg5 (by decide) (by decide) (by decide) (by decide) (by decide) (by decide) (by decide) (by decide) (by decide) (by decide) (by decide) (by decide)),
      (h c Cert.ReferenceIdeal.main_arg6).trans (Cert.ReferenceIdeal.HostRun.kept m' c Cert.ReferenceIdeal.main_arg6 (by decide) (by decide) (by decide) (by decide) (by decide) (by decide) (by decide) (by decide) (by decide) (by decide) (by decide) (by decide)),
      (h c Cert.ReferenceIdeal.main_arg7).trans (Cert.ReferenceIdeal.HostRun.kept m' c Cert.ReferenceIdeal.main_arg7 (by decide) (by decide) (by decide) (by decide) (by decide) (by decide) (by decide) (by decide) (by decide) (by decide) (by decide) (by decide)),
      (h c Cert.ReferenceIdeal.main_arg8).trans (Cert.ReferenceIdeal.HostRun.kept m' c Cert.ReferenceIdeal.main_arg8 (by decide) (by decide) (by decide) (by decide) (by decide) (by decide) (by decide) (by decide) (by decide) (by decide) (by decide) (by decide)),
      (h c Cert.ReferenceIdeal.main_arg9).trans (Cert.ReferenceIdeal.HostRun.kept m' c Cert.ReferenceIdeal.main_arg9 (by decide) (by decide) (by decide) (by decide) (by decide) (by decide) (by decide) (by decide) (by decide) (by decide) (by decide) (by decide)),
      (h c Cert.ReferenceIdeal.main_arg10).trans (Cert.ReferenceIdeal.HostRun.kept m' c Cert.ReferenceIdeal.main_arg10 (by decide) (by decide) (by decide) (by decide) (by decide) (by decide) (by decide) (by decide) (by decide) (by decide) (by decide) (by decide)),
      (h c Cert.ReferenceIdeal.main_arg11).trans (Cert.ReferenceIdeal.HostRun.kept m' c Cert.ReferenceIdeal.main_arg11 (by decide) (by decide) (by decide) (by decide) (by decide) (by decide) (by decide) (by decide) (by decide) (by decide) (by decide) (by decide)),
      (h c Cert.ReferenceIdeal.main_arg12).trans (Cert.ReferenceIdeal.HostRun.kept m' c Cert.ReferenceIdeal.main_arg12 (by decide) (by decide) (by decide) (by decide) (by decide) (by decide) (by decide) (by decide) (by decide) (by decide) (by decide) (by decide)),
      (h c Cert.ReferenceIdeal.main_arg13).trans (Cert.ReferenceIdeal.HostRun.kept m' c Cert.ReferenceIdeal.main_arg13 (by decide) (by decide) (by decide) (by decide) (by decide) (by decide) (by decide) (by decide) (by decide) (by decide) (by decide) (by decide)),
      (h c Cert.ReferenceIdeal.main_arg14).trans (Cert.ReferenceIdeal.HostRun.kept m' c Cert.ReferenceIdeal.main_arg14 (by decide) (by decide) (by decide) (by decide) (by decide) (by decide) (by decide) (by decide) (by decide) (by decide) (by decide) (by decide)),
      (h c Cert.ReferenceIdeal.main_arg15).trans (Cert.ReferenceIdeal.HostRun.kept m' c Cert.ReferenceIdeal.main_arg15 (by decide) (by decide) (by decide) (by decide) (by decide) (by decide) (by decide) (by decide) (by decide) (by decide) (by decide) (by decide))⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
